-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x8 : Shape := ⟨2, ![16384, 8]⟩
abbrev S256 : Shape := ⟨1, ![256]⟩
abbrev S1 : Shape := ⟨1, ![1]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S1 : S_.BroadcastsInDim S1 (![] : Fin 0 → Fin S1.rank)
  reducesTo_S1_S_d0 : S1.ReducesTo [0] S_
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : IVec S16384x8 32) (main_arg1 : FVec F S256 .f32) (main_arg2 : FVec F S1 .f32) : IVec S_ 1 :=
  let main_v0 : FVec F S256 .f32 := Host.absf main_arg1
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S16384x8 32 := broadcastInDim S16384x8 ![] bcast_S_S16384x8 main_c_2
  let main_v10 : IVec S16384x8 1 := cmpi .sge main_arg0 main_v9
  let main_c_3 : IVec S_ 32 := constantI S_ 32 1#32
  let main_v11 : IVec S16384x8 32 := broadcastInDim S16384x8 ![] bcast_S_S16384x8 main_c_3
  let main_v12 : IVec S16384x8 1 := cmpi .sle main_arg0 main_v11
  let main_v13 : IVec S16384x8 1 := andi main_v10 main_v12
  let main_c_4 : IVec S_ 1 := constantI S_ 1 1#1
  let main_v14 : IVec S_ 1 := (fun x v => Host.reduce IntOp.andi x v reducesTo_S16384x8_S_d0_1 h_S_) main_v13 main_c_4
  let main_v15 : IVec S_ 1 := andi main_v8 main_v14
  main_v15
-- ==== Kernel.lean ====
abbrev S16384x8 : Shape := ⟨2, ![16384, 8]⟩
abbrev S256 : Shape := ⟨1, ![256]⟩
abbrev S1 : Shape := ⟨1, ![1]⟩
abbrev S8x16384 : Shape := ⟨2, ![8, 16384]⟩
abbrev S16384 : Shape := ⟨1, ![16384]⟩
abbrev S8x512 : Shape := ⟨2, ![8, 512]⟩
abbrev S512 : Shape := ⟨1, ![512]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 3
  | _ => 0

abbrev bufTy : (tb : Table) → Fin (nBuf tb) → BufTy
  | .hbm, ⟨0, _⟩ => ⟨S16384x8, .i32⟩
  | .hbm, ⟨1, _⟩ => ⟨S256, .f32⟩
  | .hbm, ⟨2, _⟩ => ⟨S1, .f32⟩
  | .hbm, ⟨3, _⟩ => ⟨S8x16384, .i32⟩
  | .hbm, ⟨4, _⟩ => ⟨S16384, .f32⟩
  | .local .scVector .vmem, ⟨0, _⟩ => ⟨S8x512, .i32⟩
  | .local .scVector .vmem, ⟨1, _⟩ => ⟨S256, .f32⟩
  | .local .scVector .vmem, ⟨2, _⟩ => ⟨S512, .f32⟩
  | _, _ => ⟨S16384x8, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_1_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off2 (k0_t1 : Fin k0_t1_loop.trips) : Fin 2 → Nat :=
  let c0_i32_4 : BitVec 32 := 0#32
  let v8 : Index := Scalar.indexCast c0_i32_4
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v9 : Index := Scalar.indexCast v6
  ![0, v9.toNat]
def k0_off3 (k0_t1 : Fin k0_t1_loop.trips) : Fin 2 → Nat :=
  let c1_i32_7 : BitVec 32 := 1#32
  let v16 : Index := Scalar.indexCast c1_i32_7
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v17 : Index := Scalar.indexCast v6
  ![1, v17.toNat]
def k0_off4 (k0_t1 : Fin k0_t1_loop.trips) : Fin 2 → Nat :=
  let c2_i32_10 : BitVec 32 := 2#32
  let v24 : Index := Scalar.indexCast c2_i32_10
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v25 : Index := Scalar.indexCast v6
  ![2, v25.toNat]
def k0_off5 (k0_t1 : Fin k0_t1_loop.trips) : Fin 2 → Nat :=
  let c3_i32 : BitVec 32 := 3#32
  let v32 : Index := Scalar.indexCast c3_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v33 : Index := Scalar.indexCast v6
  ![3, v33.toNat]
def k0_off6 (k0_t1 : Fin k0_t1_loop.trips) : Fin 2 → Nat :=
  let c4_i32 : BitVec 32 := 4#32
  let v40 : Index := Scalar.indexCast c4_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v41 : Index := Scalar.indexCast v6
  ![4, v41.toNat]
def k0_off7 (k0_t1 : Fin k0_t1_loop.trips) : Fin 2 → Nat :=
  let c5_i32 : BitVec 32 := 5#32
  let v48 : Index := Scalar.indexCast c5_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v49 : Index := Scalar.indexCast v6
  ![5, v49.toNat]
def k0_off8 (k0_t1 : Fin k0_t1_loop.trips) : Fin 2 → Nat :=
  let c6_i32 : BitVec 32 := 6#32
  let v56 : Index := Scalar.indexCast c6_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v57 : Index := Scalar.indexCast v6
  ![6, v57.toNat]
def k0_off9 (k0_t1 : Fin k0_t1_loop.trips) : Fin 2 → Nat :=
  let c7_i32 : BitVec 32 := 7#32
  let v64 : Index := Scalar.indexCast c7_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v65 : Index := Scalar.indexCast v6
  ![7, v65.toNat]

def k0_chk1 (v71 : IVec S16 32) : Prop :=
  (∀ a x, ((![v71] : Fin 1 → IVec S16 32) a x).toNat < S256.size a)
instance k0_chk1.dec : ∀ (v71 : IVec S16 32), Decidable (k0_chk1 v71) := fun v71 => decidable_of_iff' _ (Iff.of_eq (k0_chk1.eq_1 v71))
theorem k0_idx1_inb : ∀ (v71 : IVec S16 32) (k0_hw1 : k0_chk1 v71), ∀ a x, ((![v71] : Fin 1 → IVec S16 32) a x).toNat < S256.size a := fun v71 k0_hw1 => k0_hw1
def k0_off10 (k0_t1 : Fin k0_t1_loop.trips) : Fin 1 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c16_i32 : BitVec 32 := 16#32
  let v6 : BitVec 32 := Scalar.muli v5 c16_i32
  let v73 : Index := Scalar.indexCast v6
  ![v73.toNat]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x8_S8x16384_1_0 : S16384x8.Transposes [1, 0] S8x16384
  h_S1x16 : 0 < S1x16.numel
  shapeCasts_S1x16_S16 : S1x16.ShapeCasts S16
  h_S256 : 0 < S256.numel
  h_S16 : 0 < S16.numel
  hcc0_scoped0 : 0 + S_.numel ≤ 3
  hcc0_scoped1 : 1 + S_.numel ≤ 3
  hcc0_scoped2 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x512.size a ≤ S8x16384.size a
  k0_t1_ok : k0_t1_loop.OK
  k0_off2_inb : ∀ k0_t1 : Fin k0_t1_loop.trips, ∀ a, (k0_off2 k0_t1) a + S1x16.size a ≤ S8x512.size a
  k0_off3_inb : ∀ k0_t1 : Fin k0_t1_loop.trips, ∀ a, (k0_off3 k0_t1) a + S1x16.size a ≤ S8x512.size a
  k0_off4_inb : ∀ k0_t1 : Fin k0_t1_loop.trips, ∀ a, (k0_off4 k0_t1) a + S1x16.size a ≤ S8x512.size a
  k0_off5_inb : ∀ k0_t1 : Fin k0_t1_loop.trips, ∀ a, (k0_off5 k0_t1) a + S1x16.size a ≤ S8x512.size a
  k0_off6_inb : ∀ k0_t1 : Fin k0_t1_loop.trips, ∀ a, (k0_off6 k0_t1) a + S1x16.size a ≤ S8x512.size a
  k0_off7_inb : ∀ k0_t1 : Fin k0_t1_loop.trips, ∀ a, (k0_off7 k0_t1) a + S1x16.size a ≤ S8x512.size a
  k0_off8_inb : ∀ k0_t1 : Fin k0_t1_loop.trips, ∀ a, (k0_off8 k0_t1) a + S1x16.size a ≤ S8x512.size a
  k0_off9_inb : ∀ k0_t1 : Fin k0_t1_loop.trips, ∀ a, (k0_off9 k0_t1) a + S1x16.size a ≤ S8x512.size a
  k0_off10_inb : ∀ k0_t1 : Fin k0_t1_loop.trips, ∀ a, (k0_off10 k0_t1) a + S16.size a ≤ S512.size a
  k0_off11_inb : ∀ i : grid0.Coords, ∀ a, (k0_off11 i) a + S512.size a ≤ S16384.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

class Facts : Prop extends Facts₀ where

variable [Facts]
-- ==== ReferenceIdeal.lean ====
abbrev S16384x8 : Shape := ⟨2, ![16384, 8]⟩
abbrev S256 : Shape := ⟨1, ![256]⟩
abbrev S1 : Shape := ⟨1, ![1]⟩
abbrev S8 : Shape := ⟨1, ![8]⟩
abbrev S_ : Shape := ⟨0, ![]⟩
abbrev S1x8 : Shape := ⟨2, ![1, 8]⟩
abbrev S16384 : Shape := ⟨1, ![16384]⟩
abbrev S16384x1 : Shape := ⟨2, ![16384, 1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S16384x8, .i32⟩
  | .hbm, ⟨1, _⟩ => ⟨S256, .f32⟩
  | .hbm, ⟨2, _⟩ => ⟨S1, .f32⟩
  | .hbm, ⟨3, _⟩ => ⟨S8, .i32⟩
  | .hbm, ⟨4, _⟩ => ⟨S_, .i32⟩
  | .hbm, ⟨5, _⟩ => ⟨S16384x8, .i32⟩
  | .hbm, ⟨6, _⟩ => ⟨S16384x8, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S16384x8, .i32⟩
  | .hbm, ⟨14, _⟩ => ⟨S16384x8, .i32⟩
  | .hbm, ⟨15, _⟩ => ⟨S_, .i32⟩
  | .hbm, ⟨16, _⟩ => ⟨S16384x8, .i32⟩
  | .hbm, ⟨17, _⟩ => ⟨S16384x8, .i1⟩
  | .hbm, ⟨18, _⟩ => ⟨S_, .i32⟩
  | .hbm, ⟨19, _⟩ => ⟨S16384x8, .i32⟩
  | .hbm, ⟨20, _⟩ => ⟨S16384x8, .i1⟩
  | .hbm, ⟨21, _⟩ => ⟨S_, .i32⟩
  | .hbm, ⟨22, _⟩ => ⟨S_, .i1⟩
  | .hbm, ⟨23, _⟩ => ⟨S16384x8, .i1⟩
  | .hbm, ⟨24, _⟩ => ⟨S16384x8, .i1⟩
  | .hbm, ⟨25, _⟩ => ⟨S16384x8, .i1⟩
  | .hbm, ⟨26, _⟩ => ⟨S16384x8, .i32⟩
  | .hbm, ⟨27, _⟩ => ⟨S16384x8, .i32⟩
  | .hbm, ⟨28, _⟩ => ⟨S16384x8, .i32⟩
  | .hbm, ⟨29, _⟩ => ⟨S16384x8, .f32⟩
  | .hbm, ⟨30, _⟩ => ⟨S_, .f32⟩
  | .hbm, ⟨31, _⟩ => ⟨S16384x8, .f32⟩
  | .hbm, ⟨32, _⟩ => ⟨S16384x8, .f32⟩
  | .hbm, ⟨33, _⟩ => ⟨S16384x8, .i32⟩
  | .hbm, ⟨34, _⟩ => ⟨S1x8, .i32⟩
  | .hbm, ⟨35, _⟩ => ⟨S16384x8, .i32⟩
  | .hbm, ⟨36, _⟩ => ⟨S16384x8, .i32⟩
  | .hbm, ⟨37, _⟩ => ⟨S_, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S1, .i32⟩
  | .hbm, ⟨48, _⟩ => ⟨S_, .i32⟩
  | .hbm, ⟨49, _⟩ => ⟨S16384x1, .i32⟩
  | .hbm, ⟨50, _⟩ => ⟨S16384x1, .i1⟩
  | .hbm, ⟨51, _⟩ => ⟨S1x1, .i32⟩
  | .hbm, ⟨52, _⟩ => ⟨S16384x1, .i32⟩
  | .hbm, ⟨53, _⟩ => ⟨S16384x1, .i1⟩
  | .hbm, ⟨54, _⟩ => ⟨S16384x1, .i1⟩
  | .hbm, ⟨55, _⟩ => ⟨S_, .i1⟩
  | .hbm, ⟨56, _⟩ => ⟨S16384, .i1⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | _, _ => ⟨S16384x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v11 : Ref sig .tc := ⟨.hbm, 60, rfl⟩

abbrev nD : Nat := 1
abbrev τ : Topo := Topo.v7x

variable {F : FTy → Type} [FloatOps F]

class Facts₀ : Prop where
  bcast_S_S16384x8 : S_.BroadcastsInDim S16384x8 (![] : Fin 0 → Fin S16384x8.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  gather_S256_S16384x1_S16384_n_0_n_n_0_1_1_wf : GatherDims.WF S256 S16384x1 S16384 [] [0] [] [0] [] 1 ![1]

variable [Facts₀]

def gather_S256_S16384x1_S16384_n_0_n_n_0_1_1 : GatherDims S256 S16384x1 S16384 where
  offsetDims := []
  collapsedSliceDims := [0]
  operandBatchingDims := []
  startIndicesBatchingDims := []
  startIndexMap := [0]
  indexVectorDim := 1
  sliceSizes := ![1]
  wf := gather_S256_S16384x1_S16384_n_0_n_n_0_1_1_wf

class Facts : Prop extends Facts₀ where

variable [Facts]
-- ==== Proof.Spec.lean ====
/-
  The function both programs compute, stated once over plain arrays and importing neither program.

  A row of the integer input holds eight entries, each the word 0 or the word 1 (`Binary`). Read as binary digits,
  most significant first, they spell a number below 256 (`code`, `code_lt`); the result at position `b` is the
  table's entry at that number (`G`). Nothing here is arithmetic on the table's entries: the result is a
  re-indexing of the table, so it is stated for any element type.
-/
import Idealize.ShloMosaic.PureOps
import Idealize.ShloMosaic.Lib.ValueIdx

noncomputable section

namespace Cert.Spec

open Idealize.ShloMosaic Idealize.ShloMosaic.ValueIdx

abbrev S16384x8 : Shape := ⟨2, ![16384, 8]⟩
abbrev S256 : Shape := ⟨1, ![256]⟩
abbrev S16384 : Shape := ⟨1, ![16384]⟩

/-- Every entry of the integer input is the word 0 or the word 1. -/
def Binary (x : IVec S16384x8 32) : Prop := ∀ i, x i = 0#32 ∨ x i = 1#32

/-- Entry `k` of row `b`, as a natural number. -/
def digit (x : IVec S16384x8 32) (b : Fin 16384) (k : Fin 8) : Nat := (x (ix2 b k)).toNat

/-- Row `b` read as eight binary digits, most significant first. -/
def code (x : IVec S16384x8 32) (b : Fin 16384) : Nat :=
  128 * digit x b 0 + 64 * digit x b 1 + 32 * digit x b 2 + 16 * digit x b 3
    + 8 * digit x b 4 + 4 * digit x b 5 + 2 * digit x b 6 + digit x b 7

/-- A binary entry is at most one. -/
theorem digit_le_one {x : IVec S16384x8 32} (hx : Binary x) (b : Fin 16384) (k : Fin 8) : digit x b k ≤ 1 := by
  unfold digit
  rcases hx (ix2 b k) with h | h <;> rw [h] <;> decide

/-- Eight binary digits spell a number below 256. -/
theorem code_lt {x : IVec S16384x8 32} (hx : Binary x) (b : Fin 16384) : code x b < 256 := by
  have h0 := digit_le_one hx b 0; have h1 := digit_le_one hx b 1; have h2 := digit_le_one hx b 2
  have h3 := digit_le_one hx b 3; have h4 := digit_le_one hx b 4; have h5 := digit_le_one hx b 5
  have h6 := digit_le_one hx b 6; have h7 := digit_le_one hx b 7
  unfold code; omega

/-- The table's position a row selects (the row's number, kept inside the table for rows that are not binary). -/
def pos (x : IVec S16384x8 32) (b : Fin 16384) : Fin 256 := ⟨code x b % 256, Nat.mod_lt _ (by decide)⟩

/-- For a binary row the position is the row's number itself. -/
theorem pos_val {x : IVec S16384x8 32} (hx : Binary x) (b : Fin 16384) : (pos x b).val = code x b :=
  Nat.mod_eq_of_lt (code_lt hx b)

/-- The result: position `b` holds the table's entry at row `b`'s number. -/
def G {α : Type} (x : IVec S16384x8 32) (aux : S256.Idx → α) : S16384.Idx → α :=
  fun j => aux (ix1 (pos x (j 0)))

theorem G_apply {α : Type} (x : IVec S16384x8 32) (aux : S256.Idx → α) (b : Fin 16384) :
    G x aux (ix1 b) = aux (ix1 (pos x b)) := rfl

end Cert.Spec

end
-- ==== Proof.Bits.lean ====
/-
  The table position as the kernel builds it: eight steps "shift the accumulator left by one, bring in the new
  entry's lowest bit", on 32-bit words, from the word 0.

  A word below 2^31 shifted left by one is doubled without wrap; "and 1" keeps the lowest bit, i.e. the value
  modulo 2; an even number or-ed with a number below 2 is their sum. So one step sends acc to
  2 * acc + (v mod 2), and eight steps from 0 spell the eight lowest bits as a binary number, most significant
  first: a number below 256. When every entry is the word 0 or the word 1, the lowest bit is the entry itself.
-/
import Idealize.ShloMosaic.PureOps

namespace Cert.Bits
open Idealize.ShloMosaic

/-- one step: shift the accumulator left by one and bring in the new entry's lowest bit -/
def step (acc v : BitVec 32) : BitVec 32 := IntOp.ori (IntOp.shli .vector acc 1#32) (IntOp.andi v 1#32)

/-- eight steps from the word 0 -/
def horner (a0 a1 a2 a3 a4 a5 a6 a7 : BitVec 32) : BitVec 32 :=
  step (step (step (step (step (step (step (step 0#32 a0) a1) a2) a3) a4) a5) a6) a7

/-- The shift amount 1 is below the width, so the machine's shift is the plain shift by one. -/
theorem shli_one (acc : BitVec 32) : IntOp.shli .vector acc 1#32 = acc <<< 1 := by
  have h1 : (1#32 : BitVec 32).toNat = 1 := by decide
  unfold IntOp.shli
  rw [if_pos (by rw [h1]; decide), BitVec.shiftLeft_eq', h1]

/-- One step doubles an accumulator below 2^31 and adds the new entry's lowest bit. -/
theorem step_toNat (acc v : BitVec 32) (h : acc.toNat < 2 ^ 31) :
    (step acc v).toNat = 2 * acc.toNat + v.toNat % 2 := by
  have h1 : (1#32 : BitVec 32).toNat = 1 := by decide
  unfold step IntOp.ori IntOp.andi
  rw [shli_one, BitVec.toNat_or, BitVec.toNat_and, BitVec.toNat_shiftLeft, h1, Nat.and_one_is_mod]
  have hlt : acc.toNat <<< 1 < 2 ^ 32 := by rw [Nat.shiftLeft_eq]; omega
  rw [Nat.mod_eq_of_lt hlt, ← Nat.shiftLeft_add_eq_or_of_lt (by omega : v.toNat % 2 < 2 ^ 1), Nat.shiftLeft_eq]
  omega

/-- Eight steps from 0 spell the eight lowest bits, most significant first. -/
theorem horner_toNat (a0 a1 a2 a3 a4 a5 a6 a7 : BitVec 32) :
    (horner a0 a1 a2 a3 a4 a5 a6 a7).toNat
      = 128 * (a0.toNat % 2) + 64 * (a1.toNat % 2) + 32 * (a2.toNat % 2) + 16 * (a3.toNat % 2)
        + 8 * (a4.toNat % 2) + 4 * (a5.toNat % 2) + 2 * (a6.toNat % 2) + a7.toNat % 2 := by
  have z : (0#32 : BitVec 32).toNat = 0 := rfl
  have e0 := step_toNat 0#32 a0 (by rw [z]; omega)
  have e1 := step_toNat _ a1 (by rw [e0, z]; omega)
  have e2 := step_toNat _ a2 (by rw [e1, e0, z]; omega)
  have e3 := step_toNat _ a3 (by rw [e2, e1, e0, z]; omega)
  have e4 := step_toNat _ a4 (by rw [e3, e2, e1, e0, z]; omega)
  have e5 := step_toNat _ a5 (by rw [e4, e3, e2, e1, e0, z]; omega)
  have e6 := step_toNat _ a6 (by rw [e5, e4, e3, e2, e1, e0, z]; omega)
  have e7 := step_toNat _ a7 (by rw [e6, e5, e4, e3, e2, e1, e0, z]; omega)
  unfold horner
  rw [e7, e6, e5, e4, e3, e2, e1, e0, z]
  omega

/-- The position built is below 256, whatever the entries are. -/
theorem horner_lt (a0 a1 a2 a3 a4 a5 a6 a7 : BitVec 32) : (horner a0 a1 a2 a3 a4 a5 a6 a7).toNat < 256 := by
  rw [horner_toNat]; omega

/-- A word that is 0 or 1 is its own lowest bit. -/
theorem toNat_mod_two_of_binary (a : BitVec 32) (h : a = 0#32 ∨ a = 1#32) : a.toNat % 2 = a.toNat := by
  rcases h with h | h <;> rw [h] <;> decide

/-- For entries that are each the word 0 or the word 1, the position built is the row's binary number. -/
theorem horner_binary (a0 a1 a2 a3 a4 a5 a6 a7 : BitVec 32)
    (h0 : a0 = 0#32 ∨ a0 = 1#32) (h1 : a1 = 0#32 ∨ a1 = 1#32) (h2 : a2 = 0#32 ∨ a2 = 1#32) (h3 : a3 = 0#32 ∨ a3 = 1#32)
    (h4 : a4 = 0#32 ∨ a4 = 1#32) (h5 : a5 = 0#32 ∨ a5 = 1#32) (h6 : a6 = 0#32 ∨ a6 = 1#32) (h7 : a7 = 0#32 ∨ a7 = 1#32) :
    (horner a0 a1 a2 a3 a4 a5 a6 a7).toNat
      = 128 * a0.toNat + 64 * a1.toNat + 32 * a2.toNat + 16 * a3.toNat + 8 * a4.toNat + 4 * a5.toNat + 2 * a6.toNat + a7.toNat := by
  rw [horner_toNat, toNat_mod_two_of_binary a0 h0, toNat_mod_two_of_binary a1 h1, toNat_mod_two_of_binary a2 h2,
    toNat_mod_two_of_binary a3 h3, toNat_mod_two_of_binary a4 h4, toNat_mod_two_of_binary a5 h5,
    toNat_mod_two_of_binary a6 h6, toNat_mod_two_of_binary a7 h7]

end Cert.Bits
-- ==== Proof.KSpec.lean ====
/-
  The kernel's result as a function of the transposed input, and that it is the specification's result.

  Position n of the result is the table's entry at the number built, by eight shift-and-or steps, from the
  eight rows of the transposed input at column n. The transposed input at (r, n) is the input at (n, r); for
  an input whose entries are each the word 0 or the word 1 the eight steps build
  128 * x[n,0] + 64 * x[n,1] + ... + x[n,7], the number row n spells, which is the table position the
  specification reads.
-/
import Idealize.ShloMosaic.PureOps
import Idealize.ShloMosaic.Lib.ValueIdx
import Idealize.ShloMosaic.Lib.ValueLayout
import proofs.«207132_g352187318478_cont_8to1_b_778_5_alg».proof.Proof.Spec
import proofs.«207132_g352187318478_cont_8to1_b_778_5_alg».proof.Proof.Bits

noncomputable section

namespace Cert.KSpec
open Idealize.ShloMosaic Idealize.ShloMosaic.ValueIdx

abbrev S8x16384 : Shape := ⟨2, ![8, 16384]⟩

/-- position n of the result: the table's entry at the number the eight rows of the transposed input spell in column n -/
def GkT {α : Type} (XT : IVec S8x16384 32) (A : Cert.Spec.S256.Idx → α) : Cert.Spec.S16384.Idx → α := fun j =>
  A (ix1 ⟨(Cert.Bits.horner (XT (ix2 0 (j 0))) (XT (ix2 1 (j 0))) (XT (ix2 2 (j 0))) (XT (ix2 3 (j 0))) (XT (ix2 4 (j 0))) (XT (ix2 5 (j 0))) (XT (ix2 6 (j 0))) (XT (ix2 7 (j 0)))).toNat, Cert.Bits.horner_lt _ _ _ _ _ _ _ _⟩)

/-- The transposed input at (r, n) is the input at (n, r). -/
theorem transpose_at (x : IVec Cert.Spec.S16384x8 32) (h : Cert.Spec.S16384x8.Transposes [1, 0] S8x16384)
    (r : Fin 8) (n : Fin 16384) : transpose S8x16384 [1, 0] x h (ix2 r n) = x (ix2 n r) :=
  transpose_ix2_apply x h r n

/-- For a binary input the eight steps over row n build the number row n spells. -/
theorem horner_row (x : IVec Cert.Spec.S16384x8 32) (hx : Cert.Spec.Binary x) (n : Fin 16384) :
    (Cert.Bits.horner (x (ix2 n 0)) (x (ix2 n 1)) (x (ix2 n 2)) (x (ix2 n 3)) (x (ix2 n 4)) (x (ix2 n 5))
      (x (ix2 n 6)) (x (ix2 n 7))).toNat = Cert.Spec.code x n := by
  rw [Cert.Bits.horner_binary _ _ _ _ _ _ _ _ (hx _) (hx _) (hx _) (hx _) (hx _) (hx _) (hx _) (hx _)]
  rfl

/-- The kernel's result, read on the transposed input, is the specification's. -/
theorem GkT_transpose {α : Type} (x : IVec Cert.Spec.S16384x8 32) (A : Cert.Spec.S256.Idx → α) (hx : Cert.Spec.Binary x)
    (h : Cert.Spec.S16384x8.Transposes [1, 0] S8x16384) : GkT (transpose S8x16384 [1, 0] x h) A = Cert.Spec.G x A := by
  funext j
  obtain ⟨n, rfl⟩ : ∃ n : Fin 16384, j = ix1 n := ⟨j 0, eq_ix1 j⟩
  rw [Cert.Spec.G_apply]
  -- the two table positions are the same number
  have hpos : (⟨(Cert.Bits.horner (transpose S8x16384 [1, 0] x h (ix2 0 n)) (transpose S8x16384 [1, 0] x h (ix2 1 n))
        (transpose S8x16384 [1, 0] x h (ix2 2 n)) (transpose S8x16384 [1, 0] x h (ix2 3 n))
        (transpose S8x16384 [1, 0] x h (ix2 4 n)) (transpose S8x16384 [1, 0] x h (ix2 5 n))
        (transpose S8x16384 [1, 0] x h (ix2 6 n)) (transpose S8x16384 [1, 0] x h (ix2 7 n))).toNat,
        Cert.Bits.horner_lt _ _ _ _ _ _ _ _⟩ : Fin 256) = Cert.Spec.pos x n := by
    apply Fin.ext
    rw [Cert.Spec.pos_val hx]
    show (Cert.Bits.horner _ _ _ _ _ _ _ _).toNat = Cert.Spec.code x n
    rw [transpose_at x h 0 n, transpose_at x h 1 n, transpose_at x h 2 n, transpose_at x h 3 n,
      transpose_at x h 4 n, transpose_at x h 5 n, transpose_at x h 6 n, transpose_at x h 7 n]
    exact horner_row x hx n
  exact congrArg (fun p => A (ix1 p)) hpos

end Cert.KSpec

end
-- ==== Proof.KIBase.lean ====
/-
  The kernel's run on the SparseCores, first part: names.

  The kernel runs on thirty-two workers (two cores of sixteen vector subcores). Worker (c, s) fetches columns
  [1024 s + 512 c, +512) of the transposed integer input and the whole table into its own scratch, computes for each
  of its 512 columns the number the column's eight entries spell (eight shift-and-or steps on the lowest bits), reads
  the table there, and writes its 512 results to the same positions of the result. Every worker READS the whole
  transposed input and the whole table, so those two arrays go out as read shares; the result is split into the
  workers' disjoint position sets. This module fixes those names and the record of what each handshake carries.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout

set_option maxHeartbeats 1000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_arg0
abbrev aLoc (d : Dev nD) : Loc nD τ sig := (SparseCore.T d).loc main_arg1
abbrev jLoc (d : Dev nD) : Loc nD τ sig := (SparseCore.T d).loc main_arg2
abbrev tLoc (d : Dev nD) : Loc nD τ sig := (SparseCore.T d).loc main_v0
abbrev oLoc (d : Dev nD) : Loc nD τ sig := (SparseCore.T d).loc main_v1

local notation "tV" => (Memref.whole Cert.KernelIdeal.main_v0_scv : Memref Cert.KernelIdeal.sig Kind.scVector Space.hbm Cert.KernelIdeal.S8x16384 EltTy.i32)
local notation "aV" => (Memref.whole Cert.KernelIdeal.main_arg1_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S16384 EltTy.f32)
local notation "sX" => (Memref.whole Cert.KernelIdeal.cc0_scratch0 : Memref Cert.KernelIdeal.sig Kind.scVector Space.vmem Cert.KernelIdeal.S8x512 EltTy.i32)
local notation "sA" => (Memref.whole Cert.KernelIdeal.cc0_scratch1 : Memref Cert.KernelIdeal.sig Kind.scVector Space.vmem Cert.KernelIdeal.S256 EltTy.f32)
local notation "sO" => (Memref.whole Cert.KernelIdeal.cc0_scratch2 : Memref Cert.KernelIdeal.sig Kind.scVector Space.vmem Cert.KernelIdeal.S512 EltTy.f32)

variable [FloatOps F]

/-! ## One worker: its thread, its slices, its semaphore cells -/

section Tile
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev tRect (L : grid0.Coords) : Rect S8x16384 := Rect.unit (s := S8x16384) (k0_off1 L) S8x512.size (k0_off1_inb L)
abbrev oRect (L : grid0.Coords) : Rect S16384 := Rect.unit (s := S16384) (k0_off11 L) S512.size (k0_off11_inb L)
abbrev tSl (L : grid0.Coords) : Memref sig .scVector .hbm S8x512 .i32 := (tV).slice (tRect L) (fun _ => rfl)
abbrev oSl (L : grid0.Coords) : Memref sig .scVector .hbm S512 .f32 := (oV).slice (oRect L) (fun _ => rfl)
/-- The positions of the result a worker writes. -/
abbrev oSet (L : grid0.Coords) : Finset S16384.Idx := (oSl L).view.set

abbrev cXcell (d : Dev nD) (L : grid0.Coords) : GSem nD τ sig := (thr d L, .dma cc0_scoped0.sem)
abbrev cAcell (d : Dev nD) (L : grid0.Coords) : GSem nD τ sig := (thr d L, .dma cc0_scoped1.sem)
abbrev cOcell (d : Dev nD) (L : grid0.Coords) : GSem nD τ sig := (thr d L, .dma cc0_scoped2.sem)

omit [FloatOps F] in
theorem ownSems0_V :
    (ownSems0 (thr d L) : sProp 𝕄)
      = iprop(semVal (cXcell d L) 0 ∗ semVal (cAcell d L) 0 ∗ semVal (cOcell d L) 0
          ∗ bigSep ((((ownCells (thr d L)).erase (cXcell d L)).erase (cAcell d L)).erase (cOcell d L))
              fun g => semVal g 0) := by
  unfold SparseCore.Cfg.ownSems0
  rw [SparseCore.bigSep_erase' ((mem_ownCells (g := cXcell d L)).mpr ⟨rfl, by
      show (SemLoc.dma cc0_scoped0.sem : SemLoc sig).isScoped .scVector = true; decide⟩),
    SparseCore.bigSep_erase' (Finset.mem_erase.mpr ⟨by simp [cXcell, cAcell]; decide, (mem_ownCells (g := cAcell d L)).mpr ⟨rfl, by
      show (SemLoc.dma cc0_scoped1.sem : SemLoc sig).isScoped .scVector = true; decide⟩⟩),
    SparseCore.bigSep_erase' (Finset.mem_erase.mpr ⟨by simp [cAcell, cOcell]; decide, Finset.mem_erase.mpr ⟨by simp [cXcell, cOcell]; decide,
      (mem_ownCells (g := cOcell d L)).mpr ⟨rfl, by show (SemLoc.dma cc0_scoped2.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- A read share of the whole transposed input, of the whole table; a worker's own positions of the result. -/
abbrev tPts (d : Dev nD) (q : PosShare TreeShare) (f : Buf (Elt F) (tLoc d)) : sProp 𝕄 := tLoc d ↦{q} f
abbrev aPts (d : Dev nD) (q : PosShare TreeShare) (f : Buf (Elt F) (aLoc d)) : sProp 𝕄 := aLoc d ↦{q} f
abbrev oPc (d : Dev nD) (L : grid0.Coords) (f : Buf (Elt F) (oLoc d)) : sProp 𝕄 := oLoc d ↦[oSet L]{fullShare} f

omit [FloatOps F] in
theorem pts_t (q : PosShare TreeShare) (f : Buf (Elt F) (tLoc d)) :
    ((tV).view.loc (thr d L) ↦{q} f : sProp 𝕄) = tLoc d ↦{q} f := by
  simp only [Memref.view_whole, View.set_whole]
omit [FloatOps F] in
theorem pts_a (q : PosShare TreeShare) (f : Buf (Elt F) (aLoc d)) :
    ((aV).view.loc (thr d L) ↦{q} f : sProp 𝕄) = aLoc d ↦{q} f := by
  simp only [Memref.view_whole, View.set_whole]
omit [FloatOps F] in
theorem pts_o (f : Buf (Elt F) (oLoc d)) :
    ((oSl L).view.loc (thr d L) ↦[(oSl L).view.set]{fullShare} f : sProp 𝕄) = oLoc d ↦[oSet L]{fullShare} f := rfl
omit [FloatOps F] in
theorem pts_sx (f : Buf (Elt F) ((thr d L).loc cc0_scratch0)) :
    ((sX).view.loc (thr d L) ↦{fullShare} f : sProp 𝕄) = (thr d L).loc cc0_scratch0 ↦{fullShare} f := rfl
omit [FloatOps F] in
theorem pts_sa (f : Buf (Elt F) ((thr d L).loc cc0_scratch1)) :
    ((sA).view.loc (thr d L) ↦{fullShare} f : sProp 𝕄) = (thr d L).loc cc0_scratch1 ↦{fullShare} f := rfl
omit [FloatOps F] in
theorem pts_so (f : Buf (Elt F) ((thr d L).loc cc0_scratch2)) :
    ((sO).view.loc (thr d L) ↦{fullShare} f : sProp 𝕄) = (thr d L).loc cc0_scratch2 ↦{fullShare} f := rfl

end Tile

/-! ## What the handshakes carry -/

section Pay
variable (m : (ℓ : Loc nD τ sig) → Buf (Elt F) ℓ)

omit [FloatOps F] in theorem nCore_zero : (K (F := F)).nCore 0 = 2 := rfl
omit [FloatOps F] in theorem nSub_zero : (K (F := F)).nSub 0 = 16 := rfl
omit [FloatOps F] in theorem bound_zero : grid0.bound 0 = 2 := rfl
omit [FloatOps F] in theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- Worker (core `c`, subcore `i`)'s grid coordinates. -/
abbrev LL (c : Fin 2) (i : Fin 16) : grid0.Coords := coordsV (Fin.cast bound_zero.symm c) (Fin.cast bound_one.symm i)

/-- The transposed input, as the entry function's first operation leaves it. -/
def XT (d : Dev nD) : Buf (Elt F) (tLoc d) :=
  transpose S8x16384 [1, 0] (m (xLoc d)) Facts₀.transposes_S16384x8_S8x16384_1_0

/-- A core's read share, and a worker's out of its core's. -/
abbrev qc (c : Fin 2) : PosShare TreeShare := Transfers.shareTok fullShare 2 c
abbrev qt (c : Fin 2) (i : Fin 16) : PosShare TreeShare := Transfers.shareTok (qc c) 16 i

/-- What a worker's positions of the result must hold when it is done. -/
def Done (d : Dev nD) (L : grid0.Coords) (XTv : Buf (Elt F) (tLoc d)) (Av : Buf (Elt F) (aLoc d)) (f : Buf (Elt F) (oLoc d)) : Prop :=
  ∀ j ∈ oSet L, f j = Cert.KSpec.GkT XTv Av j

def goR (d : Dev nD) (c : Fin 2) (i : Fin 16) : sProp 𝕄 :=
  iprop(tPts d (qt c i) (XT m d) ∗ aPts d (qt c i) (m (aLoc d)) ∗ oPc d (LL c i) (m (oLoc d)))
def tdR (d : Dev nD) (c : Fin 2) (i : Fin 16) : sProp 𝕄 :=
  iprop(tPts d (qt c i) (XT m d) ∗ aPts d (qt c i) (m (aLoc d)) ∗ ∃ f, oPc d (LL c i) f ∗ ⌜Done d (LL c i) (XT m d) (m (aLoc d)) f⌝)
def stR (d : Dev nD) (c : Fin 2) : sProp 𝕄 :=
  iprop(tPts d (qc c) (XT m d) ∗ aPts d (qc c) (m (aLoc d)) ∗ bigSep Finset.univ fun i : Fin 16 => oPc d (LL c i) (m (oLoc d)))
def dnR (d : Dev nD) (c : Fin 2) : sProp 𝕄 :=
  iprop(tPts d (qc c) (XT m d) ∗ aPts d (qc c) (m (aLoc d))
    ∗ bigSep Finset.univ fun i : Fin 16 => iprop(∃ f, oPc d (LL c i) f ∗ ⌜Done d (LL c i) (XT m d) (m (aLoc d)) f⌝))

instance goR_storable (d : Dev nD) (c : Fin 2) (i : Fin 16) : BI.Storable (upEmb : UEmb _ 𝕄) (goR m d c i) := by unfold goR; infer_instance
instance tdR_storable (d : Dev nD) (c : Fin 2) (i : Fin 16) : BI.Storable (upEmb : UEmb _ 𝕄) (tdR m d c i) := by unfold tdR; infer_instance
instance stR_storable (d : Dev nD) (c : Fin 2) : BI.Storable (upEmb : UEmb _ 𝕄) (stR m d c) := by unfold stR; infer_instance
instance dnR_storable (d : Dev nD) (c : Fin 2) : BI.Storable (upEmb : UEmb _ 𝕄) (dnR m d c) := by unfold dnR; infer_instance

/-- The one call: each core is handed a read share of the transposed input and of the table and its sixteen workers'
    positions of the result; each worker a share of its core's shares and its own positions; back come the same, the
    positions holding what the specification says. -/
def P : (K (F := F)).Pay (nD := nD) (Val := Elt F) (Name := ℕ) (U := UU) where
  st := fun q d c => match q with | 0 => stR m d (Fin.cast nCore_zero c)
  dn := fun q d c => match q with | 0 => dnR m d (Fin.cast nCore_zero c)
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with | 0 => (inferInstance : BI.Storable (upEmb : UEmb _ 𝕄) (stR m d (Fin.cast nCore_zero c)))
  dn q d c := match q with | 0 => (inferInstance : BI.Storable (upEmb : UEmb _ 𝕄) (dnR m d (Fin.cast nCore_zero c)))
  go q d c i := match q with | 0 => (inferInstance : BI.Storable (upEmb : UEmb _ 𝕄) (goR m d (Fin.cast nCore_zero c) (Fin.cast nSub_zero i)))
  td q d c i := match q with | 0 => (inferInstance : BI.Storable (upEmb : UEmb _ 𝕄) (tdR m d (Fin.cast nCore_zero c) (Fin.cast nSub_zero i)))

end Pay

/-! ## What the entry function leaves, and the launch element -/

section Fin
variable (m : (ℓ : Loc nD τ sig) → Buf (Elt F) ℓ)

abbrev xPts (d : Dev nD) : sProp 𝕄 := xLoc d ↦{fullShare} m (xLoc d)
abbrev aPtsW (d : Dev nD) : sProp 𝕄 := aLoc d ↦{fullShare} m (aLoc d)
abbrev jPts (d : Dev nD) : sProp 𝕄 := jLoc d ↦{fullShare} m (jLoc d)

/-- The result array, as a function of the launch memory: at each position the table's entry at the number the
    transposed input's column spells. -/
def Res (d : Dev nD) : Buf (Elt F) (oLoc d) := Cert.KSpec.GkT (XT m d) (m (aLoc d))

/-- What the entry function leaves: the three arguments as launched, the result at `Res`. -/
abbrev FIN (d : Dev nD) : sProp 𝕄 := iprop(xPts m d ∗ aPtsW m d ∗ jPts m d ∗ oLoc d ↦{fullShare} Res m d)

def fq (d : Dev nD) (s' : Phys nD τ sig (Elt F)) : Prop :=
  s'.mem.mem (oLoc d) = Res m d ∧ s'.mem.mem (xLoc d) = m (xLoc d) ∧ s'.mem.mem (aLoc d) = m (aLoc d) ∧ s'.mem.mem (jLoc d) = m (jLoc d)

def QC : PUnit × MemSt nD τ sig (Elt F) → Prop := fun r => ∀ c : Dev nD,
  r.2.mem (oLoc c) = Res m c ∧ r.2.mem (xLoc c) = m (xLoc c) ∧ r.2.mem (aLoc c) = m (aLoc c) ∧ r.2.mem (jLoc c) = m (jLoc c)

omit [FloatOps F] in
/-- The launch element: the handshakes' rounds; the transfers' counters at their unit. -/
def u₀ : UU := (initOf (K (F := F)).hsCells (K (F := F)).hsToks, 1)

end Fin

end Cert.Proof.KernelIdealTile

end
-- ==== Proof.KIIdx.lean ====
/-
  Index facts for one trip of the kernel's loop.

  A trip loads the sixteen lanes [16 k, 16 k + 16) of each of the eight rows of the fetched block, builds the table
  position lane by lane (eight shift-and-or steps from zero), reads the table there, and stores the sixteen results
  at the same lanes of the output scratch. Read at a lane: a row load is the block's entry (row, 16 k + lane); the
  position vector is the eight-step word of those entries; a store of sixteen lanes at offset 16 k leaves the earlier
  lanes alone and makes the next sixteen right.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KIBase

set_option maxHeartbeats 1000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S8x16384 EltTy.i32)
local notation "aV" => (Memref.whole Cert.KernelIdeal.main_arg1_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S16384 EltTy.f32)
local notation "sX" => (Memref.whole Cert.KernelIdeal.cc0_scratch0 : Memref Cert.KernelIdeal.sig Kind.scVector Space.vmem Cert.KernelIdeal.S8x512 EltTy.i32)
local notation "sA" => (Memref.whole Cert.KernelIdeal.cc0_scratch1 : Memref Cert.KernelIdeal.sig Kind.scVector Space.vmem Cert.KernelIdeal.S256 EltTy.f32)
local notation "sO" => (Memref.whole Cert.KernelIdeal.cc0_scratch2 : Memref Cert.KernelIdeal.sig Kind.scVector Space.vmem Cert.KernelIdeal.S512 EltTy.f32)

variable [FloatOps F]

open Idealize.ShloMosaic.ValueIdx

/-- The position vector at lane `ℓ`: eight shift-and-or steps from zero over the eight loaded rows' lane `ℓ`. -/
theorem pay_apply (l0 l1 l2 l3 l4 l5 l6 l7 : Vec F S1x16 .i32) (ℓ : Fin 16) :
    k0_pay1 (F := F) (k0_pay2 (F := F) l0 l1 l2 l3) l4 l5 l6 l7 (ix1 ℓ)
      = Cert.Bits.horner (l0 (ix2 (0 : Fin 1) ℓ)) (l1 (ix2 (0 : Fin 1) ℓ)) (l2 (ix2 (0 : Fin 1) ℓ)) (l3 (ix2 (0 : Fin 1) ℓ))
          (l4 (ix2 (0 : Fin 1) ℓ)) (l5 (ix2 (0 : Fin 1) ℓ)) (l6 (ix2 (0 : Fin 1) ℓ)) (l7 (ix2 (0 : Fin 1) ℓ)) := by
  unfold k0_pay1 k0_pay2
  simp only [ori, shli, andi, broadcast, shapeCast_1a_a_apply]
  rfl

/-- A load of sixteen lanes of row `r` at column offset `c0`, read at lane `ℓ`. -/
theorem ld_apply (X : S8x512.Idx → Elt F .i32) (off : Fin 2 → Nat) (inb : ∀ a, off a + S1x16.size a ≤ S8x512.size a)
    (r : Fin 8) (c0 : Nat) (hoff : off = ![r.val, c0]) (ℓ : Fin 16) (h : c0 + ℓ.val < 512) :
    View.readAt (Elt F) (sX).view (Rect.unit (s := S8x512) off S1x16.size inb).toLoadRect X (ix2 (0 : Fin 1) ℓ)
      = X (ix2 r ⟨c0 + ℓ.val, h⟩) := by
  subst hoff
  rw [View.readAt_apply]
  simp only [Memref.view_whole, View.read_whole]
  congr 1
  funext a; apply Fin.ext
  rw [LoadRect.idx_apply]
  match a with
  | ⟨0, _⟩ => simp
  | ⟨1, _⟩ => simp

/-- Sixteen lanes stored at offset `16 k` over contents right below `16 k`: right below `16 (k + 1)`. -/
theorem store_step {α : Type} (f tg : S512.Idx → α) (w : S16.Idx → α) (off : Fin 1 → Nat) (k : Nat) (hoff : off = ![16 * k])
    (hs : S512.Slices off S16) (hk : 16 * k + 16 ≤ 512)
    (hf : ∀ j : S512.Idx, (j 0).val < 16 * k → f j = tg j)
    (hw : ∀ (ℓ : Fin 16) (h : 16 * k + ℓ.val < 512), w (ix1 ℓ) = tg (ix1 ⟨16 * k + ℓ.val, h⟩)) :
    ∀ j : S512.Idx, (j 0).val < 16 * (k + 1) → updateSlice f w off hs j = tg j := by
  subst hoff
  intro j hj
  have hj0 : (j 0).val < 512 := (j 0).isLt
  unfold updateSlice
  split
  · next hin =>
    have h0 := hin 0
    have hlo : 16 * k ≤ (j 0).val := h0.1
    have hlt : (j 0).val - 16 * k < 16 := by omega
    have e1 : (fun b : Fin S16.rank => (⟨(j (b.cast hs.1)).val - (![16 * k] : Fin 1 → Nat) (b.cast hs.1), by
          have hb := hin (b.cast hs.1); have e : (b.cast hs.1).cast hs.1.symm = b := rfl; rw [e] at hb; omega⟩ : Fin (S16.size b)))
        = ix1 ⟨(j 0).val - 16 * k, hlt⟩ := by
      funext b; obtain rfl : b = 0 := Subsingleton.elim _ _; rfl
    refine (congrArg w e1).trans ((hw ⟨(j 0).val - 16 * k, hlt⟩ (by show 16 * k + ((j 0).val - 16 * k) < 512; omega)).trans ?_)
    conv_rhs => rw [eq_ix1 j]
    congr 2
    apply Fin.ext
    show 16 * k + ((j 0).val - 16 * k) = (j 0).val
    omega
  · next hout =>
    apply hf
    by_contra hge
    apply hout
    intro a; obtain rfl : a = 0 := Subsingleton.elim _ _
    exact ⟨by show 16 * k ≤ (j 0).val; omega, by show (j 0).val < 16 * k + 16; omega⟩

end Cert.Proof.KernelIdealTile

end
-- ==== Proof.KIOut.lean ====
/-
  What a worker leaves, as pure facts.

  The target of the output scratch at lane `j` is the table's entry at the number column `j` of the fetched block
  spells. The block is columns [base, base + 512) of the transposed input, base = 1024 s + 512 c for worker (c, s), and
  the worker's positions of the result are [base, base + 512): so the scratch, copied out, makes position base + j of
  the result the table's entry at the number column base + j of the transposed input spells.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KIBase
import proofs.«207132_g352187318478_cont_8to1_b_778_5_alg».proof.Proof.KIIdx

set_option maxHeartbeats 1000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S8x16384 EltTy.i32)
local notation "aV" => (Memref.whole Cert.KernelIdeal.main_arg1_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S16384 EltTy.f32)
local notation "sX" => (Memref.whole Cert.KernelIdeal.cc0_scratch0 : Memref Cert.KernelIdeal.sig Kind.scVector Space.vmem Cert.KernelIdeal.S8x512 EltTy.i32)
local notation "sA" => (Memref.whole Cert.KernelIdeal.cc0_scratch1 : Memref Cert.KernelIdeal.sig Kind.scVector Space.vmem Cert.KernelIdeal.S256 EltTy.f32)
local notation "sO" => (Memref.whole Cert.KernelIdeal.cc0_scratch2 : Memref Cert.KernelIdeal.sig Kind.scVector Space.vmem Cert.KernelIdeal.S512 EltTy.f32)

variable [FloatOps F]

open Idealize.ShloMosaic.ValueIdx

/-- What the output scratch must hold at lane `j`: the table's entry at the number the fetched block's column `j`
    spells. -/
def tgt (X : IVec S8x512 32) (A' : S256.Idx → F .f32) : S512.Idx → F .f32 := fun j =>
  A' (ix1 ⟨(Cert.Bits.horner (X (ix2 0 (j 0))) (X (ix2 1 (j 0))) (X (ix2 2 (j 0))) (X (ix2 3 (j 0)))
      (X (ix2 4 (j 0))) (X (ix2 5 (j 0))) (X (ix2 6 (j 0))) (X (ix2 7 (j 0)))).toNat, Cert.Bits.horner_lt _ _ _ _ _ _ _ _⟩)

/-- The table read at the position vector, at lane `ℓ` of trip `k`: the target at lane `16 k + ℓ`. -/
theorem gathered_apply (X0 : IVec S8x512 32) (A0 : S256.Idx → F .f32) (v : IVec S16 32) (hh : ∀ a x, ((![v] : Fin 1 → IVec S16 32) a x).toNat < S256.size a)
    (k : Nat) (ℓ : Fin 16) (h : 16 * k + ℓ.val < 512)
    (hv : v (ix1 ℓ) = Cert.Bits.horner (X0 (ix2 0 ⟨16 * k + ℓ.val, h⟩)) (X0 (ix2 1 ⟨16 * k + ℓ.val, h⟩)) (X0 (ix2 2 ⟨16 * k + ℓ.val, h⟩))
      (X0 (ix2 3 ⟨16 * k + ℓ.val, h⟩)) (X0 (ix2 4 ⟨16 * k + ℓ.val, h⟩)) (X0 (ix2 5 ⟨16 * k + ℓ.val, h⟩)) (X0 (ix2 6 ⟨16 * k + ℓ.val, h⟩))
      (X0 (ix2 7 ⟨16 * k + ℓ.val, h⟩))) :
    loadIdx (View.read (Elt F) ((sA).access (Rect.whole _)) A0) ![v] hh (ix1 ℓ) = tgt (F := F) X0 A0 (ix1 ⟨16 * k + ℓ.val, h⟩) := by
  unfold loadIdx tgt
  rw [Memref.read_access_whole]
  congr 1
  funext a
  match a with
  | ⟨0, _⟩ =>
    apply Fin.ext
    show (v (ix1 ℓ)).toNat = _
    rw [hv]

omit [FloatOps F] in
/-- Column `c` of row `r` of a worker's block of the transposed input is column `base + c` of that row. -/
theorem emb_t (L : grid0.Coords) (r : Fin 8) (c : Fin 512) (h : 1024 * (L 1).val + 512 * (L 0).val + c.val < 16384) :
    (tSl L).view.emb (ix2 r c) = ix2 r ⟨1024 * (L 1).val + 512 * (L 0).val + c.val, h⟩ := by
  funext a; apply Fin.ext
  show ((tRect L).emb (ix2 r c) a).val = _
  rw [Rect.emb_apply]
  match a with
  | ⟨0, _⟩ => simp [k0_off1_eq]
  | ⟨1, _⟩ => simp [k0_off1_eq]

omit [FloatOps F] in
/-- Position `y` of a worker's piece of the result is position `base + y`. -/
theorem emb_o (L : grid0.Coords) (y : S512.Idx) (h : 1024 * (L 1).val + 512 * (L 0).val + (y 0).val < 16384) :
    (oSl L).view.emb y = ix1 ⟨1024 * (L 1).val + 512 * (L 0).val + (y 0).val, h⟩ := by
  funext a; apply Fin.ext
  show ((oRect L).emb y a).val = _
  rw [Rect.emb_apply]
  match a with
  | ⟨0, _⟩ => simp [k0_off11_eq]

omit [FloatOps F] in
theorem base_lt (L : grid0.Coords) (n : Nat) (hn : n < 512) : 1024 * (L 1).val + 512 * (L 0).val + n < 16384 := by
  have h0 : (L 0).val < 2 := (L 0).isLt
  have h1 : (L 1).val < 16 := (L 1).isLt
  omega

/-- The output scratch right at every lane, copied to the worker's positions, makes those positions right. -/
theorem done_pure (d : Dev nD) (L : grid0.Coords) (XTv : Buf (Elt F) (tLoc d)) (A : Buf (Elt F) (aLoc d)) (fo : Buf (Elt F) (oLoc d))
    (f : S512.Idx → F .f32) (hf : ∀ j, f j = tgt (F := F) ((tSl L).view.read (Elt F) XTv) A j) :
    Done d L XTv A ((oSl L).view.writes (Elt F) fo [⟨Rect.whole S512, f⟩]) := by
  intro j hj
  obtain ⟨y, -, rfl⟩ := Finset.mem_map.mp hj
  rw [View.writes_singleton]
  have he : ((oSl L).view.slice (Rect.whole S512)).emb y = (oSl L).view.emb y := by
    rw [View.emb_slice]; show (oSl L).view.emb ((Rect.whole S512).emb y) = _; rw [Rect.emb_whole_apply]
  have hw := View.write_emb_of_mem (v := (oSl L).view.slice (Rect.whole S512)) (Val := Elt F) fo f (M := Finset.univ) (x := y) (Finset.mem_univ _)
  rw [he] at hw
  refine hw.trans ?_
  rw [cast_eq, hf y]
  have hy : (y 0).val < 512 := (y 0).isLt
  unfold tgt Cert.KSpec.GkT
  simp only [View.read_apply, cast_eq, emb_t L _ _ (base_lt L _ hy), emb_o L y (base_lt L _ hy)]

end Cert.Proof.KernelIdealTile

end
-- ==== Proof.KITile.lean ====
/-
  One worker's task, and the launch theorem's obligation for it.

  A worker holds a read share of the whole transposed input and of the whole table, its own positions of the result, its
  three scratch buffers and its three transfer semaphores at zero. It fetches its block and the table (each transfer
  issued and waited for at once), runs the loop of thirty-two trips under the invariant "the output scratch is right on
  every lane below 16 k" (a trip: eight row loads, the position vector, whose lanes are below 256 whatever the words
  are, so the table read is in range, the table read, the store of sixteen lanes), and copies the output scratch to
  its positions of the result: those positions then hold what the specification says.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KIBase
import proofs.«207132_g352187318478_cont_8to1_b_778_5_alg».proof.Proof.KIOut

set_option maxHeartbeats 4000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S8x16384 EltTy.i32)
local notation "aV" => (Memref.whole Cert.KernelIdeal.main_arg1_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S16384 EltTy.f32)
local notation "sX" => (Memref.whole Cert.KernelIdeal.cc0_scratch0 : Memref Cert.KernelIdeal.sig Kind.scVector Space.vmem Cert.KernelIdeal.S8x512 EltTy.i32)
local notation "sA" => (Memref.whole Cert.KernelIdeal.cc0_scratch1 : Memref Cert.KernelIdeal.sig Kind.scVector Space.vmem Cert.KernelIdeal.S256 EltTy.f32)
local notation "sO" => (Memref.whole Cert.KernelIdeal.cc0_scratch2 : Memref Cert.KernelIdeal.sig Kind.scVector Space.vmem Cert.KernelIdeal.S512 EltTy.f32)

variable [FloatOps F]

open Idealize.ShloMosaic.ValueIdx

section Tile
variable (d : Dev nD) (L : grid0.Coords)

/-- Before trip `k`: the two input scratches as fetched, the output scratch right on every lane below `16 k`. -/
def inv (X : Buf (Elt F) ((thr d L).loc cc0_scratch0)) (A' : Buf (Elt F) ((thr d L).loc cc0_scratch1)) (k : Nat) (_ : PUnit) : sProp 𝕄 :=
  iprop(((sX).view.loc (thr d L) ↦{fullShare} X)
    ∗ ((sA).view.loc (thr d L) ↦{fullShare} A')
    ∗ ∃ f, ((sO).view.loc (thr d L) ↦{fullShare} f) ∗ ⌜∀ j : S512.Idx, (j 0).val < 16 * k → f j = tgt (F := F) X A' j⌝)

theorem tile_body (hF : (K (F := F)).Facts) (O : CellTallies nD τ sig (HIx 1)) (W : Waits sig (HIx 1)) (hO : ∀ g, O g none = 0)
    (q : PosShare TreeShare) (XTv : Buf (Elt F) (tLoc d)) (A : Buf (Elt F) (aLoc d)) (fo : Buf (Elt F) (oLoc d)) :
    iprop(levAts (K (F := F)).L (K (F := F)).lev ∗ emp
        ∗ (tPts d q XTv ∗ aPts d q A ∗ oPc d L fo)
        ∗ scopedBufs (thr d L) ∗ scopedSems0 (thr d L) ∗ owes (thr d L) O W)
      ⊢ wp frame (wpE (defs₀ (F := F)) 𝒱₀ (thr d L) none) Set.univ
          (cc0__ewf_body L tV (Memref.isWhole_whole _) aV (Memref.isWhole_whole _) oV (Memref.isWhole_whole _)
            sX (Memref.isWhole_whole _) sA (Memref.isWhole_whole _) sO (Memref.isWhole_whole _) cc0_scoped0 cc0_scoped1 cc0_scoped2)
          fun _ => iprop((tPts d q XTv ∗ aPts d q A ∗ ∃ f, oPc d L f ∗ ⌜Done d L XTv A f⌝) ∗ scopedBufs (thr d L) ∗ scopedSems0 (thr d L)
            ∗ ∃ W', ⌜∀ p ∈ W', p ∈ W ∨ p.2 = none⌝ ∗ owes (thr d L) O W') := by
  simp only [cc0__ewf_body_eq_skeleton]; unfold cc0__ewf_body_skel
  rw [(K (F := F)).scopedBufs_V hF d (cV L) (jV L), SparseCore.Cfg.scopedSems0_V (Val := Elt F) d (cV L) (jV L), ownSems0_V, ownBufs_V]
  iintro ⟨#Hlv, -, ⟨Ht, Ha, Ho⟩, ⟨⟨%fx, Hsx⟩, ⟨%fa, Hsa⟩, ⟨%fc, Hsc⟩, Hbufs⟩, ⟨HsemX, HsemA, HsemO, Hsems⟩, HO⟩
  ihave Hmw := ((K (F := F)).mayWaits_none (thr := thr d L) hO) $$ Hlv
  ihave Ht' := (Entails.of_eq (pts_t (F := F) d L q _).symm) $$ Ht
  ihave Ha' := (Entails.of_eq (pts_a (F := F) d L q _).symm) $$ Ha
  ihave Ho' := (Entails.of_eq (pts_o (F := F) d L _).symm) $$ Ho
  ihave Hsx' := (Entails.of_eq (pts_sx (F := F) d L _).symm) $$ Hsx
  ihave Hsa' := (Entails.of_eq (pts_sa (F := F) d L _).symm) $$ Hsa
  ihave Hsc' := (Entails.of_eq (pts_so (F := F) d L _).symm) $$ Hsc
  sl_exec
  generalize hX : View.write (Elt F) (sX).view fx _ Finset.univ = X0
  generalize hA : View.write (Elt F) (sA).view fa _ Finset.univ = A0
  sl_for (inv (F := F) d L X0 A0) $$ [Hsx' Hsa' Hsc']
  case region =>
    intro k _
    unfold inv
    iintro ⟨Hsx, Hsa, %f, Hsc, %hf⟩
    have hk32 : k.val < 32 := lt_of_lt_of_le k.isLt k0_t1_abs.2.1
    sl_exec
    have ev : tile_body.sl.v71 X0 k
        = k0_pay1 (F := F) (k0_pay2 (F := F)
            (View.readAt (Elt F) (sX).view (Rect.unit (s := S8x512) (k0_off2 k) S1x16.size (k0_off2_inb k)).toLoadRect X0)
            (View.readAt (Elt F) (sX).view (Rect.unit (s := S8x512) (k0_off3 k) S1x16.size (k0_off3_inb k)).toLoadRect X0)
            (View.readAt (Elt F) (sX).view (Rect.unit (s := S8x512) (k0_off4 k) S1x16.size (k0_off4_inb k)).toLoadRect X0)
            (View.readAt (Elt F) (sX).view (Rect.unit (s := S8x512) (k0_off5 k) S1x16.size (k0_off5_inb k)).toLoadRect X0))
            (View.readAt (Elt F) (sX).view (Rect.unit (s := S8x512) (k0_off6 k) S1x16.size (k0_off6_inb k)).toLoadRect X0)
            (View.readAt (Elt F) (sX).view (Rect.unit (s := S8x512) (k0_off7 k) S1x16.size (k0_off7_inb k)).toLoadRect X0)
            (View.readAt (Elt F) (sX).view (Rect.unit (s := S8x512) (k0_off8 k) S1x16.size (k0_off8_inb k)).toLoadRect X0)
            (View.readAt (Elt F) (sX).view (Rect.unit (s := S8x512) (k0_off9 k) S1x16.size (k0_off9_inb k)).toLoadRect X0) := rfl
    have hv : ∀ (ℓ : Fin 16) (h : 16 * k.val + ℓ.val < 512), tile_body.sl.v71 X0 k (ix1 ℓ)
        = Cert.Bits.horner (X0 (ix2 0 ⟨16 * k.val + ℓ.val, h⟩)) (X0 (ix2 1 ⟨16 * k.val + ℓ.val, h⟩)) (X0 (ix2 2 ⟨16 * k.val + ℓ.val, h⟩))
            (X0 (ix2 3 ⟨16 * k.val + ℓ.val, h⟩)) (X0 (ix2 4 ⟨16 * k.val + ℓ.val, h⟩)) (X0 (ix2 5 ⟨16 * k.val + ℓ.val, h⟩))
            (X0 (ix2 6 ⟨16 * k.val + ℓ.val, h⟩)) (X0 (ix2 7 ⟨16 * k.val + ℓ.val, h⟩)) := by
      intro ℓ h
      rw [ev, pay_apply,
        ld_apply (F := F) X0 _ _ 0 (16 * k.val) (k0_off2_eq k) ℓ h, ld_apply (F := F) X0 _ _ 1 (16 * k.val) (k0_off3_eq k) ℓ h,
        ld_apply (F := F) X0 _ _ 2 (16 * k.val) (k0_off4_eq k) ℓ h, ld_apply (F := F) X0 _ _ 3 (16 * k.val) (k0_off5_eq k) ℓ h,
        ld_apply (F := F) X0 _ _ 4 (16 * k.val) (k0_off6_eq k) ℓ h, ld_apply (F := F) X0 _ _ 5 (16 * k.val) (k0_off7_eq k) ℓ h,
        ld_apply (F := F) X0 _ _ 6 (16 * k.val) (k0_off8_eq k) ℓ h, ld_apply (F := F) X0 _ _ 7 (16 * k.val) (k0_off9_eq k) ℓ h]
    have hchk : k0_chk1 (tile_body.sl.v71 X0 k) := by
      intro a x
      obtain rfl : a = 0 := Subsingleton.elim _ _
      obtain ⟨ℓ, rfl⟩ : ∃ ℓ : Fin 16, x = ix1 ℓ := ⟨x 0, eq_ix1 x⟩
      show ((tile_body.sl.v71 X0 k) (ix1 ℓ)).toNat < 256
      rw [hv ℓ (by have := ℓ.isLt; omega)]
      exact Cert.Bits.horner_lt _ _ _ _ _ _ _ _
    rw [wp_assume_of _ _ _ _ hchk]
    iapply (SparseCore.wp_vectorLoadIdx 𝒱₀ (thr d L) none Set.univ (base := sA) (S := Finset.univ) (q := fullShare) (Finset.subset_univ _)) $$ Hsa; iintro Hsa
    sl_exec
    sl_step
    isplitl [Hsx]; · iexact Hsx
    isplitl [Hsa]; · iexact Hsa
    iexists _; isplitl [Hsc]; · iexact Hsc
    ipureintro
    intro j hj
    rw [View.writes_singleton]
    refine (congrFun (View.write_whole_slice_unit (Val := Elt F) cc0_scratch2 (k0_off10 k) S16.size (k0_off10_inb k) f _) j).trans ?_
    refine store_step _ _ _ _ k.val (k0_off10_eq k) _ (by omega) hf ?_ j hj
    intro ℓ h
    exact gathered_apply (F := F) X0 A0 _ _ k.val ℓ h (hv ℓ h)
  · unfold inv
    isplitl [Hsx']; · iexact Hsx'
    isplitl [Hsa']; · iexact Hsa'
    iexists _; isplitl [Hsc']; · iexact Hsc'
    ipureintro; intro j hj; omega
  iintro %_ HI
  unfold inv
  icases HI with ⟨Hsx, Hsa, %f, Hsc, %hf⟩
  sl_exec
  sl_step
  have ht : Scf.trips k0_t1_loop.lb k0_t1_loop.ub k0_t1_loop.st = 32 := by decide
  have hX0 : X0 = (tSl L).view.read (Elt F) XTv := hX.symm.trans (View.write_whole_univ _ _ _)
  have hA0 : A0 = A := hA.symm.trans (View.write_whole_univ _ _ _)
  have hall : ∀ j : S512.Idx, f j = tgt (F := F) ((tSl L).view.read (Elt F) XTv) A j := by
    intro j
    rw [← hX0, ← hA0]
    have hj512 : (j 0).val < 512 := (j 0).isLt
    exact hf j (by rw [ht]; show (j 0).val < 16 * 32; omega)
  isplitl [Ht' Ha' Ho']
  · isplitl [Ht']; · iapply (Entails.of_eq (pts_t (F := F) d L q _)); iexact Ht'
    isplitl [Ha']; · iapply (Entails.of_eq (pts_a (F := F) d L q _)); iexact Ha'
    iexists _; isplitl [Ho']
    · iapply (Entails.of_eq (pts_o (F := F) d L _)); iexact Ho'
    · ipureintro
      exact done_pure (F := F) d L XTv A fo _ (fun j => (show tile_body.sl.dma0_2 d L f j = f j from rfl).trans (hall j))
  isplitl [Hsx Hsa Hsc Hbufs]
  · isplitl [Hsx]; · iexists _; iexact Hsx
    isplitl [Hsa]; · iexists _; iexact Hsa
    isplitl [Hsc]; · iexists _; iexact Hsc
    iexact Hbufs
  isplitl [HsemX HsemA HsemO Hsems]
  · isplitl [HsemX]; · iexact HsemX
    isplitl [HsemA]; · iexact HsemA
    isplitl [HsemO]; · iexact HsemO
    iexact Hsems
  iexists (insert (SemLoc.dma cc0_scoped2.sem, (default : HIx 1)) (insert (SemLoc.dma cc0_scoped1.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation for a worker -/

theorem defs₀_vector (c : Fin τ.nSC) (s : Fin τ.nSub) :
    defs₀ (F := F) (.scVector c s) 0 ()
      = SparseCore.onTile hcore0 hsub0 (fun c s => cc0__ewf_body (coordsV c s)
          tV (Memref.isWhole_whole _) aV (Memref.isWhole_whole _) oV (Memref.isWhole_whole _)
          sX (Memref.isWhole_whole _) sA (Memref.isWhole_whole _) sO (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (m : (ℓ : Loc nD τ sig) → Buf (Elt F) ℓ) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO _ (XT m d) (m (aLoc d)) (m (oLoc d))).trans (wp_mono frame _ _ fun _ => obl_post)

end Cert.Proof.KernelIdealTile

end
-- ==== Proof.Pieces.lean ====
/-
  The result array's 16384 positions, cut among 32 workers: worker (c, s), c in 0..1 and s in 0..15, holds the 512
  consecutive positions from 1024 * s + 512 * c. With k = 2 * s + c the pieces are the 32 consecutive
  blocks [512 * k, 512 * k + 512): two different workers have different k, so their blocks do not meet; and
  position n lies in block k = n / 512, that is s = n / 1024 and c = (n / 512) mod 2.
-/
import Idealize.ShloMosaic.PureOps
import Idealize.ShloMosaic.Shape

namespace Cert.Pieces
open Idealize.ShloMosaic

abbrev S16384 : Shape := ⟨1, ![16384]⟩

/-- A worker's 512 positions lie inside the array: the last worker's end at 1024 * 15 + 512 + 512 = 16384. -/
theorem inb (c : Fin 2) (s : Fin 16) :
    ∀ a, (![1024 * s.val + 512 * c.val] : Fin 1 → Nat) a + (![512] : Fin 1 → Nat) a ≤ S16384.size a := by
  have hc := c.isLt
  have hs := s.isLt
  refine Rect.inb₁ ?_
  show 1024 * s.val + 512 * c.val + 512 ≤ 16384
  omega

/-- worker (c, s)'s positions -/
def piece (c : Fin 2) (s : Fin 16) : Finset S16384.Idx :=
  (Rect.unit (s := S16384) ![1024 * s.val + 512 * c.val] ![512] (inb c s)).set

/-- A position is worker (c, s)'s exactly when it is one of the 512 from 1024 * s + 512 * c. -/
theorem mem_piece (c : Fin 2) (s : Fin 16) (j : S16384.Idx) :
    j ∈ piece c s ↔ 1024 * s.val + 512 * c.val ≤ (j 0).val ∧ (j 0).val < 1024 * s.val + 512 * c.val + 512 := by
  unfold piece
  rw [Rect.mem_set_unit]
  constructor
  · intro h
    exact h 0
  · intro h a
    have ha : a = 0 := Subsingleton.elim _ _
    subst ha
    exact h

/-- Two different workers' positions do not meet. -/
theorem piece_disjoint : ∀ p ∈ (Finset.univ : Finset (Fin 2 × Fin 16)), ∀ p' ∈ (Finset.univ : Finset (Fin 2 × Fin 16)),
    p ≠ p' → Disjoint (piece p.1 p.2) (piece p'.1 p'.2) := by
  rintro ⟨c, s⟩ - ⟨c', s'⟩ - hne
  show Disjoint (piece c s) (piece c' s')
  rw [Finset.disjoint_left]
  intro j hj hj'
  rw [mem_piece] at hj hj'
  apply hne
  have hc := c.isLt
  have hs := s.isLt
  have hc' := c'.isLt
  have hs' := s'.isLt
  have e1 : s.val = s'.val := by omega
  have e2 : c.val = c'.val := by omega
  exact Prod.ext (Fin.ext e2) (Fin.ext e1)

/-- Every position is some worker's. -/
theorem piece_cover : (Finset.univ : Finset (Fin 2 × Fin 16)).biUnion (fun p => piece p.1 p.2) = Finset.univ := by
  rw [Finset.eq_univ_iff_forall]
  intro j
  rw [Finset.mem_biUnion]
  have hj : (j 0).val < 16384 := (j 0).isLt
  refine ⟨(⟨((j 0).val / 512) % 2, Nat.mod_lt _ (by decide)⟩, ⟨(j 0).val / 1024, by omega⟩), Finset.mem_univ _, ?_⟩
  show j ∈ piece ⟨((j 0).val / 512) % 2, Nat.mod_lt _ (by decide)⟩ ⟨(j 0).val / 1024, by omega⟩
  rw [mem_piece]
  show 1024 * ((j 0).val / 1024) + 512 * (((j 0).val / 512) % 2) ≤ (j 0).val
    ∧ (j 0).val < 1024 * ((j 0).val / 1024) + 512 * (((j 0).val / 512) % 2) + 512
  constructor <;> omega

end Cert.Pieces
-- ==== Proof.KISplit.lean ====
/-
  The kernel's run on the SparseCores: how the launch's arrays are cut among the workers and put back.

  The result array's 16384 positions are the disjoint union of the thirty-two workers' 512 positions, so a points-to
  of the whole array is the thirty-two points-tos of the pieces, and pieces that each agree with one array on their
  own positions join to that array. The transposed input and the table are only read: a core's read share of each is
  cut into sixteen workers' shares and a remainder, and joined again when the workers hand theirs back.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout
import proofs.«207132_g352187318478_cont_8to1_b_778_5_alg».proof.Proof.KIBase
import proofs.«207132_g352187318478_cont_8to1_b_778_5_alg».proof.Proof.Pieces

set_option maxHeartbeats 1000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The result's positions, worker by worker -/

omit [FloatOps F] in
/-- A worker's positions of the result are the 512 from 1024 · subcore + 512 · core. -/
theorem oSet_eq (c : Fin 2) (i : Fin 16) : oSet (LL c i) = Cert.Pieces.piece c i := by
  show ((View.whole (main_v1_scv : Ref sig .scVector)).slice (oRect (LL c i))).set = _
  rw [View.set_slice_whole]
  have h := Rect.unit_congr (s := S16384) (size := S512.size) (k0_off11_eq (LL c i)) (k0_off11_inb (LL c i)) (Cert.Pieces.inb c i)
  show (Rect.unit (s := S16384) (k0_off11 (LL c i)) S512.size (k0_off11_inb (LL c i))).set = _
  rw [h]
  rfl

omit [FloatOps F] in
/-- Two different workers' positions do not meet. -/
theorem oSet_disjoint : ∀ p ∈ (Finset.univ : Finset (Fin 2 × Fin 16)), ∀ p' ∈ (Finset.univ : Finset (Fin 2 × Fin 16)),
    p ≠ p' → Disjoint (oSet (LL p.1 p.2)) (oSet (LL p'.1 p'.2)) := by
  intro p hp p' hp' h
  rw [oSet_eq, oSet_eq]
  exact Cert.Pieces.piece_disjoint p hp p' hp' h

omit [FloatOps F] in
/-- Every position is some worker's. -/
theorem oSet_cover : (Finset.univ : Finset (Fin 2 × Fin 16)).biUnion (fun p => oSet (LL p.1 p.2)) = Finset.univ :=
  (Finset.biUnion_congr rfl fun p _ => oSet_eq p.1 p.2).trans Cert.Pieces.piece_cover

omit [FloatOps F] in
/-- The whole result array is the thirty-two workers' pieces of it. -/
theorem out_split (d : Dev nD) (f : Buf (Elt F) (oLoc d)) :
    (oLoc d ↦{fullShare} f : sProp 𝕄) = bigSep Finset.univ fun c : Fin 2 => bigSep Finset.univ fun i : Fin 16 => oPc d (LL c i) f := by
  rw [← bigSep_univ_prod (fun p : Fin 2 × Fin 16 => oPc d (LL p.1 p.2) f)]
  rw [← pointsTo_biUnion Finset.univ (ℓ := oLoc d) (fun p : Fin 2 × Fin 16 => oSet (LL p.1 p.2)) oSet_disjoint, oSet_cover]; try rfl

/-- Pieces that each agree with one array on their own positions join to that array. -/
theorem out_join (d : Dev nD) (G : Buf (Elt F) (oLoc d)) :
    (bigSep Finset.univ fun c : Fin 2 => bigSep Finset.univ fun i : Fin 16 => iprop(∃ f, oPc d (LL c i) f ∗ ⌜∀ j ∈ oSet (LL c i), f j = G j⌝))
      ⊢ (oLoc d ↦{fullShare} G : sProp 𝕄) := by
  rw [out_split d G]
  refine bigSep_mono fun c _ => bigSep_mono fun i _ => ?_
  show iprop(∃ f, oPc d (LL c i) f ∗ ⌜∀ j ∈ oSet (LL c i), f j = G j⌝) ⊢ (oPc d (LL c i) G : sProp 𝕄)
  iintro ⟨%f, H, %hf⟩
  have e : (oPc d (LL c i) G : sProp 𝕄) = oPc d (LL c i) f := (pointsTo_congr hf).symm
  rw [e]; iexact H

/-! ## The call's two cores -/

/-- What the call takes: the two cores' shares and pieces. -/
theorem st0_eq (m : (ℓ : Loc nD τ sig) → Buf (Elt F) ℓ) (d : Dev nD) :
    (bigSep Finset.univ fun c : Fin ((K (F := F)).nCore 0) => (P m).st 0 d c) = iprop(stR m d 0 ∗ stR m d 1) := by
  show (bigSep (Finset.univ : Finset (Fin 2)) fun c => stR m d (Fin.cast nCore_zero c)) = _
  rw [show (Finset.univ : Finset (Fin 2)) = {0, 1} by decide, SparseCore.bigSep_insert' (by decide), bigSep_singleton]
  rfl

/-- What it hands back. -/
theorem dn0_eq (m : (ℓ : Loc nD τ sig) → Buf (Elt F) ℓ) (d : Dev nD) :
    (bigSep Finset.univ fun c : Fin ((K (F := F)).nCore 0) => (P m).dn 0 d c) = iprop(dnR m d 0 ∗ dnR m d 1) := by
  show (bigSep (Finset.univ : Finset (Fin 2)) fun c => dnR m d (Fin.cast nCore_zero c)) = _
  rw [show (Finset.univ : Finset (Fin 2)) = {0, 1} by decide, SparseCore.bigSep_insert' (by decide), bigSep_singleton]
  rfl

/-! ## The launch element -/

omit [FloatOps F] in
theorem bigSep_emp' {I : Type} (s : Finset I) : (bigSep s fun _ => iprop(emp)) = (iprop(emp) : sProp 𝕄) := bigSep_emp_const s

/-- The launch element gives the handshakes' rounds; the counters are dropped, and nothing else is asked. -/
theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## A core's hand-out to its sixteen workers, and the way back -/

omit [FloatOps F] in
/-- A family over the call's sixteen subcores is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Each core cuts its two read shares into sixteen workers' shares and a remainder it keeps, and hands each worker its
    share of both and its own piece of the result; when the workers hand these back, the shares rejoin with the kept
    remainders, and the pieces come back as they are. -/
theorem vecSplit (m : (ℓ : Loc nD τ sig) → Buf (Elt F) ℓ) : (K (F := F)).VecSplit' (P m) 0 := by
  intro d c
  show stR m d (Fin.cast nCore_zero c) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ dnR m d (Fin.cast nCore_zero c)))
  generalize Fin.cast nCore_zero c = c'
  rw [bigSep_tasks (F := F) (fun i => goR m d c' i), bigSep_tasks (F := F) (fun i => tdR m d c' i)]
  unfold stR goR tdR dnR
  rw [bigSep_sep', bigSep_sep', bigSep_sep', bigSep_sep']
  iintro ⟨Ht, Ha, Ho⟩
  ihave Ht' := (Transfers.pointsTo_toks_split (qc c') 16) $$ Ht
  icases Ht' with ⟨Htd, Htt⟩
  ihave Ha' := (Transfers.pointsTo_toks_split (qc c') 16) $$ Ha
  icases Ha' with ⟨Had, Hat⟩
  imodintro
  isplitl [Htt Hat Ho]
  · isplitl [Htt]; · iexact Htt
    isplitl [Hat]; · iexact Hat
    iexact Ho
  iintro ⟨Htt, Hat, Ho⟩
  isplitl [Htd Htt]
  · iapply (Transfers.pointsTo_toks_join (qc c') 16)
    isplitl [Htd]; · iexact Htd
    iexact Htt
  isplitl [Had Hat]
  · iapply (Transfers.pointsTo_toks_join (qc c') 16)
    isplitl [Had]; · iexact Had
    iexact Hat
  iexact Ho

end Cert.Proof.KernelIdealTile

end
-- ==== Proof.KIMain.lean ====
/-
  The kernel's run, the entry function on the TensorCore.

  The entry function transposes the integer input (one host operation over the TensorCore's five arrays, held whole),
  makes the one call to the SparseCores, and returns. For the call, the transposed input and the table are READ by
  every worker: each goes out as one read share per core, the remainder of its full share kept here meanwhile; the
  result array goes out as the thirty-two workers' disjoint position sets. Back come the same shares and, at every
  position set, contents that are what the specification says there; the table's shares join to the whole array, the
  position sets to the result array at the specification's value. The three arguments end as launched.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout
import proofs.«207132_g352187318478_cont_8to1_b_778_5_alg».proof.Proof.KIBase
import proofs.«207132_g352187318478_cont_8to1_b_778_5_alg».proof.Proof.KISplit

set_option maxHeartbeats 1000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The entry function's five arrays, held whole -/

abbrev x' : DevRef τ sig := Proc.devRef .tc (main_arg0 : Ref sig .tc)
abbrev a' : DevRef τ sig := Proc.devRef .tc (main_arg1 : Ref sig .tc)
abbrev j' : DevRef τ sig := Proc.devRef .tc (main_arg2 : Ref sig .tc)
abbrev t' : DevRef τ sig := Proc.devRef .tc (main_v0 : Ref sig .tc)
abbrev o' : DevRef τ sig := Proc.devRef .tc (main_v1 : Ref sig .tc)

/-- The entry function's one host operation: the integer input transposed. -/
abbrev opT : HloOp τ sig (Elt F) :=
  StableHlo.unary main_arg0 main_v0 ((transpose S8x16384 [1, 0] · transposes_S16384x8_S8x16384_1_0) : (⟨S16384x8, .i32⟩ : BufTy).Contents (Elt F) → (⟨S8x16384, .i32⟩ : BufTy).Contents (Elt F))

/-- The TensorCore's arrays, none scoped: the three arguments, the transposed input, the result. -/
abbrev S5 : Finset (DevRef τ sig) := {x', a', j', t', o'}

omit [FloatOps F] in
theorem held_S5 (d : Dev nD) (W : Valuation τ sig (Elt F)) :
    (held (T d) S5 W : sProp 𝕄)
      = iprop((xLoc d ↦{fullShare} W x') ∗ (aLoc d ↦{fullShare} W a') ∗ (jLoc d ↦{fullShare} W j')
          ∗ (tLoc d ↦{fullShare} W t') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (jLoc d ↦{fullShare} W main_arg2)
          ∗ (tLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

section Main
variable (m : (ℓ : Loc nD τ sig) → Buf (Elt F) ℓ)

/-- The launch valuation of a device's arrays. -/
def V0 (d : Dev nD) : Valuation τ sig (Elt F) := fun b => m (d, b)

omit [FloatOps F] in
theorem unscoped_held (d : Dev nD) :
    (unscopedBufs d (fun b => m ((SparseCore.T d).loc b)) : sProp 𝕄) = held (T d) S5 (V0 m d) := by
  rw [unscopedBufs_eq, held_S5]; rfl

theorem hT : (opT (F := F)).bufs ⊆ S5 := show ({x', t'} : Finset (DevRef τ sig)) ⊆ S5 by decide

/-- After the transposition: the transposed input's array holds `XT`, the other four what they held. -/
theorem held_after (d : Dev nD) :
    (held (T d) S5 ((opT (F := F)).result (V0 m d)) : sProp 𝕄)
      = iprop(xPts m d ∗ aPtsW m d ∗ jPts m d ∗ (tLoc d ↦{fullShare} XT m d) ∗ oLoc d ↦{fullShare} m (oLoc d)) := by
  rw [held_S5,
    show (opT (F := F)).result (V0 m d) x' = m (xLoc d) from StableHlo.unary_result_ne main_arg0 main_v0 _ _ _ (V0 m d) (r := main_arg0) (by decide),
    show (opT (F := F)).result (V0 m d) a' = m (aLoc d) from StableHlo.unary_result_ne main_arg0 main_v0 _ _ _ (V0 m d) (r := main_arg1) (by decide),
    show (opT (F := F)).result (V0 m d) j' = m (jLoc d) from StableHlo.unary_result_ne main_arg0 main_v0 _ _ _ (V0 m d) (r := main_arg2) (by decide),
    show (opT (F := F)).result (V0 m d) o' = m (oLoc d) from StableHlo.unary_result_ne main_arg0 main_v0 _ _ _ (V0 m d) (r := main_v1) (by decide),
    show (opT (F := F)).result (V0 m d) t' = XT m d from StableHlo.unary_result main_arg0 main_v0 _ _ _ (V0 m d)]

/-! ## Read shares for the two cores, and back -/

omit [FloatOps F] in
/-- A whole array as the kept remainder and one read share per core. -/
theorem toks2_split {ℓ : Loc nD τ sig} (f : Buf (Elt F) ℓ) :
    (ℓ ↦{fullShare} f : sProp 𝕄)
      ⊢ iprop((ℓ ↦{Transfers.shareDrop fullShare 2} f) ∗ (ℓ ↦{qc 0} f) ∗ (ℓ ↦{qc 1} f)) := by
  refine (Transfers.pointsTo_toks_split fullShare 2).trans ?_
  rw [show (Finset.univ : Finset (Fin 2)) = {0, 1} by decide, SparseCore.bigSep_insert' (by decide), bigSep_singleton]

omit [FloatOps F] in
/-- The remainder and the two read shares are the whole array again. -/
theorem toks2_join {ℓ : Loc nD τ sig} (f : Buf (Elt F) ℓ) :
    iprop((ℓ ↦{Transfers.shareDrop fullShare 2} f) ∗ (ℓ ↦{qc 0} f) ∗ (ℓ ↦{qc 1} f))
      ⊢ (ℓ ↦{fullShare} f : sProp 𝕄) := by
  refine BI.Entails.trans ?_ (Transfers.pointsTo_toks_join fullShare 2)
  rw [show (Finset.univ : Finset (Fin 2)) = {0, 1} by decide, SparseCore.bigSep_insert' (by decide), bigSep_singleton]
  exact BI.Entails.refl _

omit [FloatOps F] in
/-- The result array as the two cores' sixteen position sets each. -/
theorem out_split2 (d : Dev nD) (f : Buf (Elt F) (oLoc d)) :
    (oLoc d ↦{fullShare} f : sProp 𝕄)
      = iprop((bigSep Finset.univ fun i : Fin 16 => oPc d (LL 0 i) f) ∗ bigSep Finset.univ fun i : Fin 16 => oPc d (LL 1 i) f) := by
  rw [out_split, show (Finset.univ : Finset (Fin 2)) = {0, 1} by decide, SparseCore.bigSep_insert' (by decide), bigSep_singleton]

/-- The thirty-two position sets, each holding what the specification says there, are the result array at `Res`. -/
theorem out_join2 (d : Dev nD) :
    iprop((bigSep Finset.univ fun i : Fin 16 => iprop(∃ f, oPc d (LL 0 i) f ∗ ⌜Done d (LL 0 i) (XT m d) (m (aLoc d)) f⌝))
        ∗ bigSep Finset.univ fun i : Fin 16 => iprop(∃ f, oPc d (LL 1 i) f ∗ ⌜Done d (LL 1 i) (XT m d) (m (aLoc d)) f⌝))
      ⊢ (oLoc d ↦{fullShare} Res m d : sProp 𝕄) := by
  refine BI.Entails.trans ?_ (out_join d (Res m d))
  rw [show (Finset.univ : Finset (Fin 2)) = {0, 1} by decide, SparseCore.bigSep_insert' (by decide), bigSep_singleton]
  exact BI.Entails.refl _

/-! ## The entry function on the TensorCore -/

/-- The entry function on a device's TensorCore: the transposition over the five arrays held whole; the one call, the
    transposed input and the table going out as one read share per core (the remainders kept), the result as the
    workers' position sets; back, the table's shares joined and the position sets joined at the specification's
    array; the three arguments as launched. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transposition, over the five arrays
  iapply (wp_hlo_within 𝒱 (SparseCore.T d) none Set.univ (op := opT) (S := S5) hT (V := V0 m d)) $$ [Hb Hheld]
  · isplitl [Hb]; · iexact Hb
    iexact Hheld
  iintro ⟨Hb, Hheld⟩
  ihave Hh := (Entails.of_eq (held_after (F := F) m d)) $$ Hheld
  icases Hh with ⟨Hx, Ha, Hj, Ht, Ho⟩
  rw [wp_ret]; imodintro
  -- the shares for the call
  ihave Ht' := (toks2_split (F := F) (XT m d)) $$ Ht
  icases Ht' with ⟨Htk, Ht0, Ht1⟩
  ihave Ha' := (toks2_split (F := F) (m (aLoc d))) $$ Ha
  icases Ha' with ⟨Hak, Ha0, Ha1⟩
  ihave Ho' := (Entails.of_eq (out_split2 (F := F) d (m (oLoc d)))) $$ Ho
  icases Ho' with ⟨Ho0, Ho1⟩
  iapply ((K (F := F)).wp_run (D (F := F)) 𝒱 (EH := EH) (P := P m) κ d 0) $$ [Hst Ht0 Ht1 Ha0 Ha1 Ho0 Ho1 Hx Hj Hak]
  isplitr; · iexact Hctx
  isplitl [Hst]; · iexact Hst
  isplitl [Ht0 Ht1 Ha0 Ha1 Ho0 Ho1]
  · rw [st0_eq]; unfold stR
    isplitl [Ht0 Ha0 Ho0]
    · isplitl [Ht0]; · iexact Ht0
      isplitl [Ha0]; · iexact Ha0
      iexact Ho0
    · isplitl [Ht1]; · iexact Ht1
      isplitl [Ha1]; · iexact Ha1
      iexact Ho1
  iintro ⟨Hst, Hdn⟩
  ihave Hdn' := (Entails.of_eq (dn0_eq m d)) $$ Hdn
  unfold dnR
  icases Hdn' with ⟨⟨-, Ha0, Ho0⟩, ⟨-, Ha1, Ho1⟩⟩
  ihave Ha := (toks2_join (F := F) (m (aLoc d))) $$ [Hak Ha0 Ha1]
  · isplitl [Hak]; · iexact Hak
    isplitl [Ha0]; · iexact Ha0
    iexact Ha1
  ihave Ho := (out_join2 (F := F) m d) $$ [Ho0 Ho1]
  · isplitl [Ho0]; · iexact Ho0
    iexact Ho1
  imodintro
  isplitl [Hst]; · iexact Hst
  isplitl [Hx]; · iexact Hx
  isplitl [Ha]; · iexact Ha
  isplitl [Hj]; · iexact Hj
  iexact Ho

end Main

end Cert.Proof.KernelIdealTile

end
-- ==== Proof.KIFin.lean ====
/-
  The kernel's run on the SparseCores: what the entry function leaves, read in the physical memory.

  When the entry function ends it holds the whole of four arrays at the full share: the integer input, the table
  and the third argument at their launch contents, and the result at the array the specification names. Holding a
  whole array at any share beside the state interpretation says the physical memory agrees with the held contents
  at every index; four such agreements, one per array, give the four equations.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout
import proofs.«207132_g352187318478_cont_8to1_b_778_5_alg».proof.Proof.KIBase

set_option maxHeartbeats 1000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- What the entry function leaves, beside the state interpretation, fixes the physical memory at the four arrays:
    the result is the specification's array and the three arguments are as launched. -/
theorem hfin (m : (ℓ : Loc nD τ sig) → Buf (Elt F) ℓ) (d : Dev nD) (s' : Phys nD τ sig (Elt F)) :
    iprop(FIN m d ∗ SI s') ⊢ (⌜fq m d s'⌝ : sProp 𝕄) := by
  iintro ⟨⟨Hx, Ha, Hj, Ho⟩, HSI⟩
  -- the integer input
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  -- the table
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  -- the third argument
  ihave H := (persistent_entails_right (SI_pointsTo_agree (st := s') (ℓ := jLoc d) (I := Finset.univ) (q := fullShare) (f := m (jLoc d)))) $$ [HSI Hj]
  · isplitl [HSI] <;> iassumption
  icases H with ⟨%h3, HSI, -⟩
  -- the result
  ihave H := (SI_pointsTo_agree (st := s') (ℓ := oLoc d) (I := Finset.univ) (q := fullShare) (f := Res m d)) $$ [HSI Ho]
  · isplitl [HSI] <;> iassumption
  icases H with %h4
  ipureintro
  exact ⟨funext fun i => h4 i (Finset.mem_univ i), funext fun i => h1 i (Finset.mem_univ i),
    funext fun i => h2 i (Finset.mem_univ i), funext fun i => h3 i (Finset.mem_univ i)⟩

end Cert.Proof.KernelIdealTile

end
-- ==== Proof.KIRun.lean ====
/-
  The kernel's run: every weakly fair execution of the device's threads terminates, nothing faulting, with the result
  array holding, at each position, the table's entry at the number the transposed input's column spells, and the three
  arguments unchanged. The launch theorem for a SparseCore call, given: each worker's task, how a core's operands split
  among its sixteen workers and come back, the entry function on the TensorCore (the transpose, then the call), and
  that the final assertion pins the physical memory.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KIBase
import proofs.«207132_g352187318478_cont_8to1_b_778_5_alg».proof.Proof.KITile
import proofs.«207132_g352187318478_cont_8to1_b_778_5_alg».proof.Proof.KISplit
import proofs.«207132_g352187318478_cont_8to1_b_778_5_alg».proof.Proof.KIMain
import proofs.«207132_g352187318478_cont_8to1_b_778_5_alg».proof.Proof.KIFin

set_option maxHeartbeats 1000000

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S8x16384 EltTy.i32)
local notation "aV" => (Memref.whole Cert.KernelIdeal.main_arg1_scv : Memref Cert.KernelIdeal.sig Kind.scVector Space.hbm Cert.KernelIdeal.S256 EltTy.f32)
local notation "oV" => (Memref.whole Cert.KernelIdeal.main_v1_scv : Memref Cert.KernelIdeal.sig Kind.scVector Space.hbm Cert.KernelIdeal.S16384 EltTy.f32)
local notation "sX" => (Memref.whole Cert.KernelIdeal.cc0_scratch0 : Memref Cert.KernelIdeal.sig Kind.scVector Space.vmem Cert.KernelIdeal.S8x512 EltTy.i32)
local notation "sA" => (Memref.whole Cert.KernelIdeal.cc0_scratch1 : Memref Cert.KernelIdeal.sig Kind.scVector Space.vmem Cert.KernelIdeal.S256 EltTy.f32)
local notation "sO" => (Memref.whole Cert.KernelIdeal.cc0_scratch2 : Memref Cert.KernelIdeal.sig Kind.scVector Space.vmem Cert.KernelIdeal.S512 EltTy.f32)

variable [FloatOps F]

open Idealize.ShloMosaic.ValueIdx

theorem run_main [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealTile

end
-- ==== Proof.KBBase.lean ====
/-
  The kernel's run on the SparseCores, first part: names.

  The kernel runs on thirty-two workers (two cores of sixteen vector subcores). Worker (c, s) fetches columns
  [1024 s + 512 c, +512) of the transposed integer input and the whole table into its own scratch, computes for each
  of its 512 columns the number the column's eight entries spell (eight shift-and-or steps on the lowest bits), reads
  the table there, and writes its 512 results to the same positions of the result. Every worker READS the whole
  transposed input and the whole table, so those two arrays go out as read shares; the result is split into the
  workers' disjoint position sets. This module fixes those names and the record of what each handshake carries.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout

set_option maxHeartbeats 1000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_arg0
abbrev aLoc (d : Dev nD) : Loc nD τ sig := (SparseCore.T d).loc main_arg1
abbrev jLoc (d : Dev nD) : Loc nD τ sig := (SparseCore.T d).loc main_arg2
abbrev tLoc (d : Dev nD) : Loc nD τ sig := (SparseCore.T d).loc main_v0
abbrev oLoc (d : Dev nD) : Loc nD τ sig := (SparseCore.T d).loc main_v1

local notation "tV" => (Memref.whole Cert.Kernel.main_v0_scv : Memref Cert.Kernel.sig Kind.scVector Space.hbm Cert.Kernel.S8x16384 EltTy.i32)
local notation "aV" => (Memref.whole Cert.Kernel.main_arg1_scv : Memref Cert.Kernel.sig Kind.scVector Space.hbm Cert.Kernel.S256 EltTy.f32)
local notation "oV" => (Memref.whole Cert.Kernel.main_v1_scv : Memref Cert.Kernel.sig Kind.scVector Space.hbm Cert.Kernel.S16384 EltTy.f32)
local notation "sX" => (Memref.whole Cert.Kernel.cc0_scratch0 : Memref Cert.Kernel.sig Kind.scVector Space.vmem Cert.Kernel.S8x512 EltTy.i32)
local notation "sA" => (Memref.whole Cert.Kernel.cc0_scratch1 : Memref Cert.Kernel.sig Kind.scVector Space.vmem Cert.Kernel.S256 EltTy.f32)
local notation "sO" => (Memref.whole Cert.Kernel.cc0_scratch2 : Memref Cert.Kernel.sig Kind.scVector Space.vmem Cert.Kernel.S512 EltTy.f32)

variable [FloatOps F]

/-! ## One worker: its thread, its slices, its semaphore cells -/

section Tile
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev tRect (L : grid0.Coords) : Rect S8x16384 := Rect.unit (s := S8x16384) (k0_off1 L) S8x512.size (k0_off1_inb L)
abbrev oRect (L : grid0.Coords) : Rect S16384 := Rect.unit (s := S16384) (k0_off11 L) S512.size (k0_off11_inb L)
abbrev tSl (L : grid0.Coords) : Memref sig .scVector .hbm S8x512 .i32 := (tV).slice (tRect L) (fun _ => rfl)
abbrev oSl (L : grid0.Coords) : Memref sig .scVector .hbm S512 .f32 := (oV).slice (oRect L) (fun _ => rfl)
/-- The positions of the result a worker writes. -/
abbrev oSet (L : grid0.Coords) : Finset S16384.Idx := (oSl L).view.set

abbrev cXcell (d : Dev nD) (L : grid0.Coords) : GSem nD τ sig := (thr d L, .dma cc0_scoped0.sem)
abbrev cAcell (d : Dev nD) (L : grid0.Coords) : GSem nD τ sig := (thr d L, .dma cc0_scoped1.sem)
abbrev cOcell (d : Dev nD) (L : grid0.Coords) : GSem nD τ sig := (thr d L, .dma cc0_scoped2.sem)

omit [FloatOps F] in
theorem ownSems0_V :
    (ownSems0 (thr d L) : sProp 𝕄)
      = iprop(semVal (cXcell d L) 0 ∗ semVal (cAcell d L) 0 ∗ semVal (cOcell d L) 0
          ∗ bigSep ((((ownCells (thr d L)).erase (cXcell d L)).erase (cAcell d L)).erase (cOcell d L))
              fun g => semVal g 0) := by
  unfold SparseCore.Cfg.ownSems0
  rw [SparseCore.bigSep_erase' ((mem_ownCells (g := cXcell d L)).mpr ⟨rfl, by
      show (SemLoc.dma cc0_scoped0.sem : SemLoc sig).isScoped .scVector = true; decide⟩),
    SparseCore.bigSep_erase' (Finset.mem_erase.mpr ⟨by simp [cXcell, cAcell]; decide, (mem_ownCells (g := cAcell d L)).mpr ⟨rfl, by
      show (SemLoc.dma cc0_scoped1.sem : SemLoc sig).isScoped .scVector = true; decide⟩⟩),
    SparseCore.bigSep_erase' (Finset.mem_erase.mpr ⟨by simp [cAcell, cOcell]; decide, Finset.mem_erase.mpr ⟨by simp [cXcell, cOcell]; decide,
      (mem_ownCells (g := cOcell d L)).mpr ⟨rfl, by show (SemLoc.dma cc0_scoped2.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- A read share of the whole transposed input, of the whole table; a worker's own positions of the result. -/
abbrev tPts (d : Dev nD) (q : PosShare TreeShare) (f : Buf (Elt F) (tLoc d)) : sProp 𝕄 := tLoc d ↦{q} f
abbrev aPts (d : Dev nD) (q : PosShare TreeShare) (f : Buf (Elt F) (aLoc d)) : sProp 𝕄 := aLoc d ↦{q} f
abbrev oPc (d : Dev nD) (L : grid0.Coords) (f : Buf (Elt F) (oLoc d)) : sProp 𝕄 := oLoc d ↦[oSet L]{fullShare} f

omit [FloatOps F] in
theorem pts_t (q : PosShare TreeShare) (f : Buf (Elt F) (tLoc d)) :
    ((tV).view.loc (thr d L) ↦{q} f : sProp 𝕄) = tLoc d ↦{q} f := by
  simp only [Memref.view_whole, View.set_whole]
omit [FloatOps F] in
theorem pts_a (q : PosShare TreeShare) (f : Buf (Elt F) (aLoc d)) :
    ((aV).view.loc (thr d L) ↦{q} f : sProp 𝕄) = aLoc d ↦{q} f := by
  simp only [Memref.view_whole, View.set_whole]
omit [FloatOps F] in
theorem pts_o (f : Buf (Elt F) (oLoc d)) :
    ((oSl L).view.loc (thr d L) ↦[(oSl L).view.set]{fullShare} f : sProp 𝕄) = oLoc d ↦[oSet L]{fullShare} f := rfl
omit [FloatOps F] in
theorem pts_sx (f : Buf (Elt F) ((thr d L).loc cc0_scratch0)) :
    ((sX).view.loc (thr d L) ↦{fullShare} f : sProp 𝕄) = (thr d L).loc cc0_scratch0 ↦{fullShare} f := rfl
omit [FloatOps F] in
theorem pts_sa (f : Buf (Elt F) ((thr d L).loc cc0_scratch1)) :
    ((sA).view.loc (thr d L) ↦{fullShare} f : sProp 𝕄) = (thr d L).loc cc0_scratch1 ↦{fullShare} f := rfl
omit [FloatOps F] in
theorem pts_so (f : Buf (Elt F) ((thr d L).loc cc0_scratch2)) :
    ((sO).view.loc (thr d L) ↦{fullShare} f : sProp 𝕄) = (thr d L).loc cc0_scratch2 ↦{fullShare} f := rfl

end Tile

/-! ## What the handshakes carry -/

section Pay
variable (m : (ℓ : Loc nD τ sig) → Buf (Elt F) ℓ)

omit [FloatOps F] in theorem nCore_zero : (K (F := F)).nCore 0 = 2 := rfl
omit [FloatOps F] in theorem nSub_zero : (K (F := F)).nSub 0 = 16 := rfl
omit [FloatOps F] in theorem bound_zero : grid0.bound 0 = 2 := rfl
omit [FloatOps F] in theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- Worker (core `c`, subcore `i`)'s grid coordinates. -/
abbrev LL (c : Fin 2) (i : Fin 16) : grid0.Coords := coordsV (Fin.cast bound_zero.symm c) (Fin.cast bound_one.symm i)

/-- The transposed input, as the entry function's first operation leaves it. -/
def XT (d : Dev nD) : Buf (Elt F) (tLoc d) :=
  transpose S8x16384 [1, 0] (m (xLoc d)) Facts₀.transposes_S16384x8_S8x16384_1_0

/-- A core's read share, and a worker's out of its core's. -/
abbrev qc (c : Fin 2) : PosShare TreeShare := Transfers.shareTok fullShare 2 c
abbrev qt (c : Fin 2) (i : Fin 16) : PosShare TreeShare := Transfers.shareTok (qc c) 16 i

/-- What a worker's positions of the result must hold when it is done. -/
def Done (d : Dev nD) (L : grid0.Coords) (XTv : Buf (Elt F) (tLoc d)) (Av : Buf (Elt F) (aLoc d)) (f : Buf (Elt F) (oLoc d)) : Prop :=
  ∀ j ∈ oSet L, f j = Cert.KSpec.GkT XTv Av j

def goR (d : Dev nD) (c : Fin 2) (i : Fin 16) : sProp 𝕄 :=
  iprop(tPts d (qt c i) (XT m d) ∗ aPts d (qt c i) (m (aLoc d)) ∗ oPc d (LL c i) (m (oLoc d)))
def tdR (d : Dev nD) (c : Fin 2) (i : Fin 16) : sProp 𝕄 :=
  iprop(tPts d (qt c i) (XT m d) ∗ aPts d (qt c i) (m (aLoc d)) ∗ ∃ f, oPc d (LL c i) f ∗ ⌜Done d (LL c i) (XT m d) (m (aLoc d)) f⌝)
def stR (d : Dev nD) (c : Fin 2) : sProp 𝕄 :=
  iprop(tPts d (qc c) (XT m d) ∗ aPts d (qc c) (m (aLoc d)) ∗ bigSep Finset.univ fun i : Fin 16 => oPc d (LL c i) (m (oLoc d)))
def dnR (d : Dev nD) (c : Fin 2) : sProp 𝕄 :=
  iprop(tPts d (qc c) (XT m d) ∗ aPts d (qc c) (m (aLoc d))
    ∗ bigSep Finset.univ fun i : Fin 16 => iprop(∃ f, oPc d (LL c i) f ∗ ⌜Done d (LL c i) (XT m d) (m (aLoc d)) f⌝))

instance goR_storable (d : Dev nD) (c : Fin 2) (i : Fin 16) : BI.Storable (upEmb : UEmb _ 𝕄) (goR m d c i) := by unfold goR; infer_instance
instance tdR_storable (d : Dev nD) (c : Fin 2) (i : Fin 16) : BI.Storable (upEmb : UEmb _ 𝕄) (tdR m d c i) := by unfold tdR; infer_instance
instance stR_storable (d : Dev nD) (c : Fin 2) : BI.Storable (upEmb : UEmb _ 𝕄) (stR m d c) := by unfold stR; infer_instance
instance dnR_storable (d : Dev nD) (c : Fin 2) : BI.Storable (upEmb : UEmb _ 𝕄) (dnR m d c) := by unfold dnR; infer_instance

/-- The one call: each core is handed a read share of the transposed input and of the table and its sixteen workers'
    positions of the result; each worker a share of its core's shares and its own positions; back come the same, the
    positions holding what the specification says. -/
def P : (K (F := F)).Pay (nD := nD) (Val := Elt F) (Name := ℕ) (U := UU) where
  st := fun q d c => match q with | 0 => stR m d (Fin.cast nCore_zero c)
  dn := fun q d c => match q with | 0 => dnR m d (Fin.cast nCore_zero c)
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance P_storable : (P (F := F) m).IsStorable where
  st q d c := match q with | 0 => (inferInstance : BI.Storable (upEmb : UEmb _ 𝕄) (stR m d (Fin.cast nCore_zero c)))
  dn q d c := match q with | 0 => (inferInstance : BI.Storable (upEmb : UEmb _ 𝕄) (dnR m d (Fin.cast nCore_zero c)))
  go q d c i := match q with | 0 => (inferInstance : BI.Storable (upEmb : UEmb _ 𝕄) (goR m d (Fin.cast nCore_zero c) (Fin.cast nSub_zero i)))
  td q d c i := match q with | 0 => (inferInstance : BI.Storable (upEmb : UEmb _ 𝕄) (tdR m d (Fin.cast nCore_zero c) (Fin.cast nSub_zero i)))

end Pay

/-! ## What the entry function leaves, and the launch element -/

section Fin
variable (m : (ℓ : Loc nD τ sig) → Buf (Elt F) ℓ)

abbrev xPts (d : Dev nD) : sProp 𝕄 := xLoc d ↦{fullShare} m (xLoc d)
abbrev aPtsW (d : Dev nD) : sProp 𝕄 := aLoc d ↦{fullShare} m (aLoc d)
abbrev jPts (d : Dev nD) : sProp 𝕄 := jLoc d ↦{fullShare} m (jLoc d)

/-- The result array, as a function of the launch memory: at each position the table's entry at the number the
    transposed input's column spells. -/
def Res (d : Dev nD) : Buf (Elt F) (oLoc d) := Cert.KSpec.GkT (XT m d) (m (aLoc d))

/-- What the entry function leaves: the three arguments as launched, the result at `Res`. -/
abbrev FIN (d : Dev nD) : sProp 𝕄 := iprop(xPts m d ∗ aPtsW m d ∗ jPts m d ∗ oLoc d ↦{fullShare} Res m d)

def fq (d : Dev nD) (s' : Phys nD τ sig (Elt F)) : Prop :=
  s'.mem.mem (oLoc d) = Res m d ∧ s'.mem.mem (xLoc d) = m (xLoc d) ∧ s'.mem.mem (aLoc d) = m (aLoc d) ∧ s'.mem.mem (jLoc d) = m (jLoc d)

def QC : PUnit × MemSt nD τ sig (Elt F) → Prop := fun r => ∀ c : Dev nD,
  r.2.mem (oLoc c) = Res m c ∧ r.2.mem (xLoc c) = m (xLoc c) ∧ r.2.mem (aLoc c) = m (aLoc c) ∧ r.2.mem (jLoc c) = m (jLoc c)

omit [FloatOps F] in
/-- The launch element: the handshakes' rounds; the transfers' counters at their unit. -/
def u₀ : UU := (initOf (K (F := F)).hsCells (K (F := F)).hsToks, 1)

end Fin

end Cert.Proof.KernelTile

end
-- ==== Proof.KBIdx.lean ====
/-
  Index facts for one trip of the kernel's loop.

  A trip loads the sixteen lanes [16 k, 16 k + 16) of each of the eight rows of the fetched block, builds the table
  position lane by lane (eight shift-and-or steps from zero), reads the table there, and stores the sixteen results
  at the same lanes of the output scratch. Read at a lane: a row load is the block's entry (row, 16 k + lane); the
  position vector is the eight-step word of those entries; a store of sixteen lanes at offset 16 k leaves the earlier
  lanes alone and makes the next sixteen right.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KBBase

set_option maxHeartbeats 1000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.Kernel.main_v0_scv : Memref Cert.Kernel.sig Kind.scVector Space.hbm Cert.Kernel.S8x16384 EltTy.i32)
local notation "aV" => (Memref.whole Cert.Kernel.main_arg1_scv : Memref Cert.Kernel.sig Kind.scVector Space.hbm Cert.Kernel.S256 EltTy.f32)
local notation "oV" => (Memref.whole Cert.Kernel.main_v1_scv : Memref Cert.Kernel.sig Kind.scVector Space.hbm Cert.Kernel.S16384 EltTy.f32)
local notation "sX" => (Memref.whole Cert.Kernel.cc0_scratch0 : Memref Cert.Kernel.sig Kind.scVector Space.vmem Cert.Kernel.S8x512 EltTy.i32)
local notation "sA" => (Memref.whole Cert.Kernel.cc0_scratch1 : Memref Cert.Kernel.sig Kind.scVector Space.vmem Cert.Kernel.S256 EltTy.f32)
local notation "sO" => (Memref.whole Cert.Kernel.cc0_scratch2 : Memref Cert.Kernel.sig Kind.scVector Space.vmem Cert.Kernel.S512 EltTy.f32)

variable [FloatOps F]

open Idealize.ShloMosaic.ValueIdx

/-- The position vector at lane `ℓ`: eight shift-and-or steps from zero over the eight loaded rows' lane `ℓ`. -/
theorem pay_apply (l0 l1 l2 l3 l4 l5 l6 l7 : Vec F S1x16 .i32) (ℓ : Fin 16) :
    k0_pay1 (F := F) (k0_pay2 (F := F) l0 l1 l2 l3) l4 l5 l6 l7 (ix1 ℓ)
      = Cert.Bits.horner (l0 (ix2 (0 : Fin 1) ℓ)) (l1 (ix2 (0 : Fin 1) ℓ)) (l2 (ix2 (0 : Fin 1) ℓ)) (l3 (ix2 (0 : Fin 1) ℓ))
          (l4 (ix2 (0 : Fin 1) ℓ)) (l5 (ix2 (0 : Fin 1) ℓ)) (l6 (ix2 (0 : Fin 1) ℓ)) (l7 (ix2 (0 : Fin 1) ℓ)) := by
  unfold k0_pay1 k0_pay2
  simp only [ori, shli, andi, broadcast, shapeCast_1a_a_apply]
  rfl

/-- A load of sixteen lanes of row `r` at column offset `c0`, read at lane `ℓ`. -/
theorem ld_apply (X : S8x512.Idx → Elt F .i32) (off : Fin 2 → Nat) (inb : ∀ a, off a + S1x16.size a ≤ S8x512.size a)
    (r : Fin 8) (c0 : Nat) (hoff : off = ![r.val, c0]) (ℓ : Fin 16) (h : c0 + ℓ.val < 512) :
    View.readAt (Elt F) (sX).view (Rect.unit (s := S8x512) off S1x16.size inb).toLoadRect X (ix2 (0 : Fin 1) ℓ)
      = X (ix2 r ⟨c0 + ℓ.val, h⟩) := by
  subst hoff
  rw [View.readAt_apply]
  simp only [Memref.view_whole, View.read_whole]
  congr 1
  funext a; apply Fin.ext
  rw [LoadRect.idx_apply]
  match a with
  | ⟨0, _⟩ => simp
  | ⟨1, _⟩ => simp

/-- Sixteen lanes stored at offset `16 k` over contents right below `16 k`: right below `16 (k + 1)`. -/
theorem store_step {α : Type} (f tg : S512.Idx → α) (w : S16.Idx → α) (off : Fin 1 → Nat) (k : Nat) (hoff : off = ![16 * k])
    (hs : S512.Slices off S16) (hk : 16 * k + 16 ≤ 512)
    (hf : ∀ j : S512.Idx, (j 0).val < 16 * k → f j = tg j)
    (hw : ∀ (ℓ : Fin 16) (h : 16 * k + ℓ.val < 512), w (ix1 ℓ) = tg (ix1 ⟨16 * k + ℓ.val, h⟩)) :
    ∀ j : S512.Idx, (j 0).val < 16 * (k + 1) → updateSlice f w off hs j = tg j := by
  subst hoff
  intro j hj
  have hj0 : (j 0).val < 512 := (j 0).isLt
  unfold updateSlice
  split
  · next hin =>
    have h0 := hin 0
    have hlo : 16 * k ≤ (j 0).val := h0.1
    have hlt : (j 0).val - 16 * k < 16 := by omega
    have e1 : (fun b : Fin S16.rank => (⟨(j (b.cast hs.1)).val - (![16 * k] : Fin 1 → Nat) (b.cast hs.1), by
          have hb := hin (b.cast hs.1); have e : (b.cast hs.1).cast hs.1.symm = b := rfl; rw [e] at hb; omega⟩ : Fin (S16.size b)))
        = ix1 ⟨(j 0).val - 16 * k, hlt⟩ := by
      funext b; obtain rfl : b = 0 := Subsingleton.elim _ _; rfl
    refine (congrArg w e1).trans ((hw ⟨(j 0).val - 16 * k, hlt⟩ (by show 16 * k + ((j 0).val - 16 * k) < 512; omega)).trans ?_)
    conv_rhs => rw [eq_ix1 j]
    congr 2
    apply Fin.ext
    show 16 * k + ((j 0).val - 16 * k) = (j 0).val
    omega
  · next hout =>
    apply hf
    by_contra hge
    apply hout
    intro a; obtain rfl : a = 0 := Subsingleton.elim _ _
    exact ⟨by show 16 * k ≤ (j 0).val; omega, by show (j 0).val < 16 * k + 16; omega⟩

end Cert.Proof.KernelTile

end
-- ==== Proof.KBOut.lean ====
/-
  What a worker leaves, as pure facts.

  The target of the output scratch at lane `j` is the table's entry at the number column `j` of the fetched block
  spells. The block is columns [base, base + 512) of the transposed input, base = 1024 s + 512 c for worker (c, s), and
  the worker's positions of the result are [base, base + 512): so the scratch, copied out, makes position base + j of
  the result the table's entry at the number column base + j of the transposed input spells.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KBBase
import proofs.«207132_g352187318478_cont_8to1_b_778_5_alg».proof.Proof.KBIdx

set_option maxHeartbeats 1000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.Kernel.main_v0_scv : Memref Cert.Kernel.sig Kind.scVector Space.hbm Cert.Kernel.S8x16384 EltTy.i32)
local notation "aV" => (Memref.whole Cert.Kernel.main_arg1_scv : Memref Cert.Kernel.sig Kind.scVector Space.hbm Cert.Kernel.S256 EltTy.f32)
local notation "oV" => (Memref.whole Cert.Kernel.main_v1_scv : Memref Cert.Kernel.sig Kind.scVector Space.hbm Cert.Kernel.S16384 EltTy.f32)
local notation "sX" => (Memref.whole Cert.Kernel.cc0_scratch0 : Memref Cert.Kernel.sig Kind.scVector Space.vmem Cert.Kernel.S8x512 EltTy.i32)
local notation "sA" => (Memref.whole Cert.Kernel.cc0_scratch1 : Memref Cert.Kernel.sig Kind.scVector Space.vmem Cert.Kernel.S256 EltTy.f32)
local notation "sO" => (Memref.whole Cert.Kernel.cc0_scratch2 : Memref Cert.Kernel.sig Kind.scVector Space.vmem Cert.Kernel.S512 EltTy.f32)

variable [FloatOps F]

open Idealize.ShloMosaic.ValueIdx

/-- What the output scratch must hold at lane `j`: the table's entry at the number the fetched block's column `j`
    spells. -/
def tgt (X : IVec S8x512 32) (A' : S256.Idx → F .f32) : S512.Idx → F .f32 := fun j =>
  A' (ix1 ⟨(Cert.Bits.horner (X (ix2 0 (j 0))) (X (ix2 1 (j 0))) (X (ix2 2 (j 0))) (X (ix2 3 (j 0)))
      (X (ix2 4 (j 0))) (X (ix2 5 (j 0))) (X (ix2 6 (j 0))) (X (ix2 7 (j 0)))).toNat, Cert.Bits.horner_lt _ _ _ _ _ _ _ _⟩)

/-- The table read at the position vector, at lane `ℓ` of trip `k`: the target at lane `16 k + ℓ`. -/
theorem gathered_apply (X0 : IVec S8x512 32) (A0 : S256.Idx → F .f32) (v : IVec S16 32) (hh : ∀ a x, ((![v] : Fin 1 → IVec S16 32) a x).toNat < S256.size a)
    (k : Nat) (ℓ : Fin 16) (h : 16 * k + ℓ.val < 512)
    (hv : v (ix1 ℓ) = Cert.Bits.horner (X0 (ix2 0 ⟨16 * k + ℓ.val, h⟩)) (X0 (ix2 1 ⟨16 * k + ℓ.val, h⟩)) (X0 (ix2 2 ⟨16 * k + ℓ.val, h⟩))
      (X0 (ix2 3 ⟨16 * k + ℓ.val, h⟩)) (X0 (ix2 4 ⟨16 * k + ℓ.val, h⟩)) (X0 (ix2 5 ⟨16 * k + ℓ.val, h⟩)) (X0 (ix2 6 ⟨16 * k + ℓ.val, h⟩))
      (X0 (ix2 7 ⟨16 * k + ℓ.val, h⟩))) :
    loadIdx (View.read (Elt F) ((sA).access (Rect.whole _)) A0) ![v] hh (ix1 ℓ) = tgt (F := F) X0 A0 (ix1 ⟨16 * k + ℓ.val, h⟩) := by
  unfold loadIdx tgt
  rw [Memref.read_access_whole]
  congr 1
  funext a
  match a with
  | ⟨0, _⟩ =>
    apply Fin.ext
    show (v (ix1 ℓ)).toNat = _
    rw [hv]

omit [FloatOps F] in
/-- Column `c` of row `r` of a worker's block of the transposed input is column `base + c` of that row. -/
theorem emb_t (L : grid0.Coords) (r : Fin 8) (c : Fin 512) (h : 1024 * (L 1).val + 512 * (L 0).val + c.val < 16384) :
    (tSl L).view.emb (ix2 r c) = ix2 r ⟨1024 * (L 1).val + 512 * (L 0).val + c.val, h⟩ := by
  funext a; apply Fin.ext
  show ((tRect L).emb (ix2 r c) a).val = _
  rw [Rect.emb_apply]
  match a with
  | ⟨0, _⟩ => simp [k0_off1_eq]
  | ⟨1, _⟩ => simp [k0_off1_eq]

omit [FloatOps F] in
/-- Position `y` of a worker's piece of the result is position `base + y`. -/
theorem emb_o (L : grid0.Coords) (y : S512.Idx) (h : 1024 * (L 1).val + 512 * (L 0).val + (y 0).val < 16384) :
    (oSl L).view.emb y = ix1 ⟨1024 * (L 1).val + 512 * (L 0).val + (y 0).val, h⟩ := by
  funext a; apply Fin.ext
  show ((oRect L).emb y a).val = _
  rw [Rect.emb_apply]
  match a with
  | ⟨0, _⟩ => simp [k0_off11_eq]

omit [FloatOps F] in
theorem base_lt (L : grid0.Coords) (n : Nat) (hn : n < 512) : 1024 * (L 1).val + 512 * (L 0).val + n < 16384 := by
  have h0 : (L 0).val < 2 := (L 0).isLt
  have h1 : (L 1).val < 16 := (L 1).isLt
  omega

/-- The output scratch right at every lane, copied to the worker's positions, makes those positions right. -/
theorem done_pure (d : Dev nD) (L : grid0.Coords) (XTv : Buf (Elt F) (tLoc d)) (A : Buf (Elt F) (aLoc d)) (fo : Buf (Elt F) (oLoc d))
    (f : S512.Idx → F .f32) (hf : ∀ j, f j = tgt (F := F) ((tSl L).view.read (Elt F) XTv) A j) :
    Done d L XTv A ((oSl L).view.writes (Elt F) fo [⟨Rect.whole S512, f⟩]) := by
  intro j hj
  obtain ⟨y, -, rfl⟩ := Finset.mem_map.mp hj
  rw [View.writes_singleton]
  have he : ((oSl L).view.slice (Rect.whole S512)).emb y = (oSl L).view.emb y := by
    rw [View.emb_slice]; show (oSl L).view.emb ((Rect.whole S512).emb y) = _; rw [Rect.emb_whole_apply]
  have hw := View.write_emb_of_mem (v := (oSl L).view.slice (Rect.whole S512)) (Val := Elt F) fo f (M := Finset.univ) (x := y) (Finset.mem_univ _)
  rw [he] at hw
  refine hw.trans ?_
  rw [cast_eq, hf y]
  have hy : (y 0).val < 512 := (y 0).isLt
  unfold tgt Cert.KSpec.GkT
  simp only [View.read_apply, cast_eq, emb_t L _ _ (base_lt L _ hy), emb_o L y (base_lt L _ hy)]

end Cert.Proof.KernelTile

end
-- ==== Proof.KBTile.lean ====
/-
  One worker's task, and the launch theorem's obligation for it.

  A worker holds a read share of the whole transposed input and of the whole table, its own positions of the result, its
  three scratch buffers and its three transfer semaphores at zero. It fetches its block and the table (each transfer
  issued and waited for at once), runs the loop of thirty-two trips under the invariant "the output scratch is right on
  every lane below 16 k" (a trip: eight row loads, the position vector, whose lanes are below 256 whatever the words
  are, so the table read is in range, the table read, the store of sixteen lanes), and copies the output scratch to
  its positions of the result: those positions then hold what the specification says.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KBBase
import proofs.«207132_g352187318478_cont_8to1_b_778_5_alg».proof.Proof.KBOut

set_option maxHeartbeats 4000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.Kernel.main_v0_scv : Memref Cert.Kernel.sig Kind.scVector Space.hbm Cert.Kernel.S8x16384 EltTy.i32)
local notation "aV" => (Memref.whole Cert.Kernel.main_arg1_scv : Memref Cert.Kernel.sig Kind.scVector Space.hbm Cert.Kernel.S256 EltTy.f32)
local notation "oV" => (Memref.whole Cert.Kernel.main_v1_scv : Memref Cert.Kernel.sig Kind.scVector Space.hbm Cert.Kernel.S16384 EltTy.f32)
local notation "sX" => (Memref.whole Cert.Kernel.cc0_scratch0 : Memref Cert.Kernel.sig Kind.scVector Space.vmem Cert.Kernel.S8x512 EltTy.i32)
local notation "sA" => (Memref.whole Cert.Kernel.cc0_scratch1 : Memref Cert.Kernel.sig Kind.scVector Space.vmem Cert.Kernel.S256 EltTy.f32)
local notation "sO" => (Memref.whole Cert.Kernel.cc0_scratch2 : Memref Cert.Kernel.sig Kind.scVector Space.vmem Cert.Kernel.S512 EltTy.f32)

variable [FloatOps F]

open Idealize.ShloMosaic.ValueIdx

section Tile
variable (d : Dev nD) (L : grid0.Coords)

/-- Before trip `k`: the two input scratches as fetched, the output scratch right on every lane below `16 k`. -/
def inv (X : Buf (Elt F) ((thr d L).loc cc0_scratch0)) (A' : Buf (Elt F) ((thr d L).loc cc0_scratch1)) (k : Nat) (_ : PUnit) : sProp 𝕄 :=
  iprop(((sX).view.loc (thr d L) ↦{fullShare} X)
    ∗ ((sA).view.loc (thr d L) ↦{fullShare} A')
    ∗ ∃ f, ((sO).view.loc (thr d L) ↦{fullShare} f) ∗ ⌜∀ j : S512.Idx, (j 0).val < 16 * k → f j = tgt (F := F) X A' j⌝)

theorem tile_body (hF : (K (F := F)).Facts) (O : CellTallies nD τ sig (HIx 1)) (W : Waits sig (HIx 1)) (hO : ∀ g, O g none = 0)
    (q : PosShare TreeShare) (XTv : Buf (Elt F) (tLoc d)) (A : Buf (Elt F) (aLoc d)) (fo : Buf (Elt F) (oLoc d)) :
    iprop(levAts (K (F := F)).L (K (F := F)).lev ∗ emp
        ∗ (tPts d q XTv ∗ aPts d q A ∗ oPc d L fo)
        ∗ scopedBufs (thr d L) ∗ scopedSems0 (thr d L) ∗ owes (thr d L) O W)
      ⊢ wp frame (wpE (defs₀ (F := F)) 𝒱₀ (thr d L) none) Set.univ
          (cc0__ewf_body L tV (Memref.isWhole_whole _) aV (Memref.isWhole_whole _) oV (Memref.isWhole_whole _)
            sX (Memref.isWhole_whole _) sA (Memref.isWhole_whole _) sO (Memref.isWhole_whole _) cc0_scoped0 cc0_scoped1 cc0_scoped2)
          fun _ => iprop((tPts d q XTv ∗ aPts d q A ∗ ∃ f, oPc d L f ∗ ⌜Done d L XTv A f⌝) ∗ scopedBufs (thr d L) ∗ scopedSems0 (thr d L)
            ∗ ∃ W', ⌜∀ p ∈ W', p ∈ W ∨ p.2 = none⌝ ∗ owes (thr d L) O W') := by
  simp only [cc0__ewf_body_eq_skeleton]; unfold cc0__ewf_body_skel
  rw [(K (F := F)).scopedBufs_V hF d (cV L) (jV L), SparseCore.Cfg.scopedSems0_V (Val := Elt F) d (cV L) (jV L), ownSems0_V, ownBufs_V]
  iintro ⟨#Hlv, -, ⟨Ht, Ha, Ho⟩, ⟨⟨%fx, Hsx⟩, ⟨%fa, Hsa⟩, ⟨%fc, Hsc⟩, Hbufs⟩, ⟨HsemX, HsemA, HsemO, Hsems⟩, HO⟩
  ihave Hmw := ((K (F := F)).mayWaits_none (thr := thr d L) hO) $$ Hlv
  ihave Ht' := (Entails.of_eq (pts_t (F := F) d L q _).symm) $$ Ht
  ihave Ha' := (Entails.of_eq (pts_a (F := F) d L q _).symm) $$ Ha
  ihave Ho' := (Entails.of_eq (pts_o (F := F) d L _).symm) $$ Ho
  ihave Hsx' := (Entails.of_eq (pts_sx (F := F) d L _).symm) $$ Hsx
  ihave Hsa' := (Entails.of_eq (pts_sa (F := F) d L _).symm) $$ Hsa
  ihave Hsc' := (Entails.of_eq (pts_so (F := F) d L _).symm) $$ Hsc
  sl_exec
  generalize hX : View.write (Elt F) (sX).view fx _ Finset.univ = X0
  generalize hA : View.write (Elt F) (sA).view fa _ Finset.univ = A0
  sl_for (inv (F := F) d L X0 A0) $$ [Hsx' Hsa' Hsc']
  case region =>
    intro k _
    unfold inv
    iintro ⟨Hsx, Hsa, %f, Hsc, %hf⟩
    have hk32 : k.val < 32 := lt_of_lt_of_le k.isLt k0_t1_abs.2.1
    sl_exec
    have ev : tile_body.sl.v71 X0 k
        = k0_pay1 (F := F) (k0_pay2 (F := F)
            (View.readAt (Elt F) (sX).view (Rect.unit (s := S8x512) (k0_off2 k) S1x16.size (k0_off2_inb k)).toLoadRect X0)
            (View.readAt (Elt F) (sX).view (Rect.unit (s := S8x512) (k0_off3 k) S1x16.size (k0_off3_inb k)).toLoadRect X0)
            (View.readAt (Elt F) (sX).view (Rect.unit (s := S8x512) (k0_off4 k) S1x16.size (k0_off4_inb k)).toLoadRect X0)
            (View.readAt (Elt F) (sX).view (Rect.unit (s := S8x512) (k0_off5 k) S1x16.size (k0_off5_inb k)).toLoadRect X0))
            (View.readAt (Elt F) (sX).view (Rect.unit (s := S8x512) (k0_off6 k) S1x16.size (k0_off6_inb k)).toLoadRect X0)
            (View.readAt (Elt F) (sX).view (Rect.unit (s := S8x512) (k0_off7 k) S1x16.size (k0_off7_inb k)).toLoadRect X0)
            (View.readAt (Elt F) (sX).view (Rect.unit (s := S8x512) (k0_off8 k) S1x16.size (k0_off8_inb k)).toLoadRect X0)
            (View.readAt (Elt F) (sX).view (Rect.unit (s := S8x512) (k0_off9 k) S1x16.size (k0_off9_inb k)).toLoadRect X0) := rfl
    have hv : ∀ (ℓ : Fin 16) (h : 16 * k.val + ℓ.val < 512), tile_body.sl.v71 X0 k (ix1 ℓ)
        = Cert.Bits.horner (X0 (ix2 0 ⟨16 * k.val + ℓ.val, h⟩)) (X0 (ix2 1 ⟨16 * k.val + ℓ.val, h⟩)) (X0 (ix2 2 ⟨16 * k.val + ℓ.val, h⟩))
            (X0 (ix2 3 ⟨16 * k.val + ℓ.val, h⟩)) (X0 (ix2 4 ⟨16 * k.val + ℓ.val, h⟩)) (X0 (ix2 5 ⟨16 * k.val + ℓ.val, h⟩))
            (X0 (ix2 6 ⟨16 * k.val + ℓ.val, h⟩)) (X0 (ix2 7 ⟨16 * k.val + ℓ.val, h⟩)) := by
      intro ℓ h
      rw [ev, pay_apply,
        ld_apply (F := F) X0 _ _ 0 (16 * k.val) (k0_off2_eq k) ℓ h, ld_apply (F := F) X0 _ _ 1 (16 * k.val) (k0_off3_eq k) ℓ h,
        ld_apply (F := F) X0 _ _ 2 (16 * k.val) (k0_off4_eq k) ℓ h, ld_apply (F := F) X0 _ _ 3 (16 * k.val) (k0_off5_eq k) ℓ h,
        ld_apply (F := F) X0 _ _ 4 (16 * k.val) (k0_off6_eq k) ℓ h, ld_apply (F := F) X0 _ _ 5 (16 * k.val) (k0_off7_eq k) ℓ h,
        ld_apply (F := F) X0 _ _ 6 (16 * k.val) (k0_off8_eq k) ℓ h, ld_apply (F := F) X0 _ _ 7 (16 * k.val) (k0_off9_eq k) ℓ h]
    have hchk : k0_chk1 (tile_body.sl.v71 X0 k) := by
      intro a x
      obtain rfl : a = 0 := Subsingleton.elim _ _
      obtain ⟨ℓ, rfl⟩ : ∃ ℓ : Fin 16, x = ix1 ℓ := ⟨x 0, eq_ix1 x⟩
      show ((tile_body.sl.v71 X0 k) (ix1 ℓ)).toNat < 256
      rw [hv ℓ (by have := ℓ.isLt; omega)]
      exact Cert.Bits.horner_lt _ _ _ _ _ _ _ _
    rw [wp_assume_of _ _ _ _ hchk]
    iapply (SparseCore.wp_vectorLoadIdx 𝒱₀ (thr d L) none Set.univ (base := sA) (S := Finset.univ) (q := fullShare) (Finset.subset_univ _)) $$ Hsa; iintro Hsa
    sl_exec
    sl_step
    isplitl [Hsx]; · iexact Hsx
    isplitl [Hsa]; · iexact Hsa
    iexists _; isplitl [Hsc]; · iexact Hsc
    ipureintro
    intro j hj
    rw [View.writes_singleton]
    refine (congrFun (View.write_whole_slice_unit (Val := Elt F) cc0_scratch2 (k0_off10 k) S16.size (k0_off10_inb k) f _) j).trans ?_
    refine store_step _ _ _ _ k.val (k0_off10_eq k) _ (by omega) hf ?_ j hj
    intro ℓ h
    exact gathered_apply (F := F) X0 A0 _ _ k.val ℓ h (hv ℓ h)
  · unfold inv
    isplitl [Hsx']; · iexact Hsx'
    isplitl [Hsa']; · iexact Hsa'
    iexists _; isplitl [Hsc']; · iexact Hsc'
    ipureintro; intro j hj; omega
  iintro %_ HI
  unfold inv
  icases HI with ⟨Hsx, Hsa, %f, Hsc, %hf⟩
  sl_exec
  sl_step
  have ht : Scf.trips k0_t1_loop.lb k0_t1_loop.ub k0_t1_loop.st = 32 := by decide
  have hX0 : X0 = (tSl L).view.read (Elt F) XTv := hX.symm.trans (View.write_whole_univ _ _ _)
  have hA0 : A0 = A := hA.symm.trans (View.write_whole_univ _ _ _)
  have hall : ∀ j : S512.Idx, f j = tgt (F := F) ((tSl L).view.read (Elt F) XTv) A j := by
    intro j
    rw [← hX0, ← hA0]
    have hj512 : (j 0).val < 512 := (j 0).isLt
    exact hf j (by rw [ht]; show (j 0).val < 16 * 32; omega)
  isplitl [Ht' Ha' Ho']
  · isplitl [Ht']; · iapply (Entails.of_eq (pts_t (F := F) d L q _)); iexact Ht'
    isplitl [Ha']; · iapply (Entails.of_eq (pts_a (F := F) d L q _)); iexact Ha'
    iexists _; isplitl [Ho']
    · iapply (Entails.of_eq (pts_o (F := F) d L _)); iexact Ho'
    · ipureintro
      exact done_pure (F := F) d L XTv A fo _ (fun j => (show tile_body.sl.dma0_2 d L f j = f j from rfl).trans (hall j))
  isplitl [Hsx Hsa Hsc Hbufs]
  · isplitl [Hsx]; · iexists _; iexact Hsx
    isplitl [Hsa]; · iexists _; iexact Hsa
    isplitl [Hsc]; · iexists _; iexact Hsc
    iexact Hbufs
  isplitl [HsemX HsemA HsemO Hsems]
  · isplitl [HsemX]; · iexact HsemX
    isplitl [HsemA]; · iexact HsemA
    isplitl [HsemO]; · iexact HsemO
    iexact Hsems
  iexists (insert (SemLoc.dma cc0_scoped2.sem, (default : HIx 1)) (insert (SemLoc.dma cc0_scoped1.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation for a worker -/

theorem defs₀_vector (c : Fin τ.nSC) (s : Fin τ.nSub) :
    defs₀ (F := F) (.scVector c s) 0 ()
      = SparseCore.onTile hcore0 hsub0 (fun c s => cc0__ewf_body (coordsV c s)
          tV (Memref.isWhole_whole _) aV (Memref.isWhole_whole _) oV (Memref.isWhole_whole _)
          sX (Memref.isWhole_whole _) sA (Memref.isWhole_whole _) sO (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (m : (ℓ : Loc nD τ sig) → Buf (Elt F) ℓ) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO _ (XT m d) (m (aLoc d)) (m (oLoc d))).trans (wp_mono frame _ _ fun _ => obl_post)

end Cert.Proof.KernelTile

end
-- ==== Proof.KBSplit.lean ====
/-
  The kernel's run on the SparseCores: how the launch's arrays are cut among the workers and put back.

  The result array's 16384 positions are the disjoint union of the thirty-two workers' 512 positions, so a points-to
  of the whole array is the thirty-two points-tos of the pieces, and pieces that each agree with one array on their
  own positions join to that array. The transposed input and the table are only read: a core's read share of each is
  cut into sixteen workers' shares and a remainder, and joined again when the workers hand theirs back.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout
import proofs.«207132_g352187318478_cont_8to1_b_778_5_alg».proof.Proof.KBBase
import proofs.«207132_g352187318478_cont_8to1_b_778_5_alg».proof.Proof.Pieces

set_option maxHeartbeats 1000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The result's positions, worker by worker -/

omit [FloatOps F] in
/-- A worker's positions of the result are the 512 from 1024 · subcore + 512 · core. -/
theorem oSet_eq (c : Fin 2) (i : Fin 16) : oSet (LL c i) = Cert.Pieces.piece c i := by
  show ((View.whole (main_v1_scv : Ref sig .scVector)).slice (oRect (LL c i))).set = _
  rw [View.set_slice_whole]
  have h := Rect.unit_congr (s := S16384) (size := S512.size) (k0_off11_eq (LL c i)) (k0_off11_inb (LL c i)) (Cert.Pieces.inb c i)
  show (Rect.unit (s := S16384) (k0_off11 (LL c i)) S512.size (k0_off11_inb (LL c i))).set = _
  rw [h]
  rfl

omit [FloatOps F] in
/-- Two different workers' positions do not meet. -/
theorem oSet_disjoint : ∀ p ∈ (Finset.univ : Finset (Fin 2 × Fin 16)), ∀ p' ∈ (Finset.univ : Finset (Fin 2 × Fin 16)),
    p ≠ p' → Disjoint (oSet (LL p.1 p.2)) (oSet (LL p'.1 p'.2)) := by
  intro p hp p' hp' h
  rw [oSet_eq, oSet_eq]
  exact Cert.Pieces.piece_disjoint p hp p' hp' h

omit [FloatOps F] in
/-- Every position is some worker's. -/
theorem oSet_cover : (Finset.univ : Finset (Fin 2 × Fin 16)).biUnion (fun p => oSet (LL p.1 p.2)) = Finset.univ :=
  (Finset.biUnion_congr rfl fun p _ => oSet_eq p.1 p.2).trans Cert.Pieces.piece_cover

omit [FloatOps F] in
/-- The whole result array is the thirty-two workers' pieces of it. -/
theorem out_split (d : Dev nD) (f : Buf (Elt F) (oLoc d)) :
    (oLoc d ↦{fullShare} f : sProp 𝕄) = bigSep Finset.univ fun c : Fin 2 => bigSep Finset.univ fun i : Fin 16 => oPc d (LL c i) f := by
  rw [← bigSep_univ_prod (fun p : Fin 2 × Fin 16 => oPc d (LL p.1 p.2) f)]
  rw [← pointsTo_biUnion Finset.univ (ℓ := oLoc d) (fun p : Fin 2 × Fin 16 => oSet (LL p.1 p.2)) oSet_disjoint, oSet_cover]; try rfl

/-- Pieces that each agree with one array on their own positions join to that array. -/
theorem out_join (d : Dev nD) (G : Buf (Elt F) (oLoc d)) :
    (bigSep Finset.univ fun c : Fin 2 => bigSep Finset.univ fun i : Fin 16 => iprop(∃ f, oPc d (LL c i) f ∗ ⌜∀ j ∈ oSet (LL c i), f j = G j⌝))
      ⊢ (oLoc d ↦{fullShare} G : sProp 𝕄) := by
  rw [out_split d G]
  refine bigSep_mono fun c _ => bigSep_mono fun i _ => ?_
  show iprop(∃ f, oPc d (LL c i) f ∗ ⌜∀ j ∈ oSet (LL c i), f j = G j⌝) ⊢ (oPc d (LL c i) G : sProp 𝕄)
  iintro ⟨%f, H, %hf⟩
  have e : (oPc d (LL c i) G : sProp 𝕄) = oPc d (LL c i) f := (pointsTo_congr hf).symm
  rw [e]; iexact H

/-! ## The call's two cores -/

/-- What the call takes: the two cores' shares and pieces. -/
theorem st0_eq (m : (ℓ : Loc nD τ sig) → Buf (Elt F) ℓ) (d : Dev nD) :
    (bigSep Finset.univ fun c : Fin ((K (F := F)).nCore 0) => (P m).st 0 d c) = iprop(stR m d 0 ∗ stR m d 1) := by
  show (bigSep (Finset.univ : Finset (Fin 2)) fun c => stR m d (Fin.cast nCore_zero c)) = _
  rw [show (Finset.univ : Finset (Fin 2)) = {0, 1} by decide, SparseCore.bigSep_insert' (by decide), bigSep_singleton]
  rfl

/-- What it hands back. -/
theorem dn0_eq (m : (ℓ : Loc nD τ sig) → Buf (Elt F) ℓ) (d : Dev nD) :
    (bigSep Finset.univ fun c : Fin ((K (F := F)).nCore 0) => (P m).dn 0 d c) = iprop(dnR m d 0 ∗ dnR m d 1) := by
  show (bigSep (Finset.univ : Finset (Fin 2)) fun c => dnR m d (Fin.cast nCore_zero c)) = _
  rw [show (Finset.univ : Finset (Fin 2)) = {0, 1} by decide, SparseCore.bigSep_insert' (by decide), bigSep_singleton]
  rfl

/-! ## The launch element -/

omit [FloatOps F] in
theorem bigSep_emp' {I : Type} (s : Finset I) : (bigSep s fun _ => iprop(emp)) = (iprop(emp) : sProp 𝕄) := bigSep_emp_const s

/-- The launch element gives the handshakes' rounds; the counters are dropped, and nothing else is asked. -/
theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## A core's hand-out to its sixteen workers, and the way back -/

omit [FloatOps F] in
/-- A family over the call's sixteen subcores is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Each core cuts its two read shares into sixteen workers' shares and a remainder it keeps, and hands each worker its
    share of both and its own piece of the result; when the workers hand these back, the shares rejoin with the kept
    remainders, and the pieces come back as they are. -/
theorem vecSplit (m : (ℓ : Loc nD τ sig) → Buf (Elt F) ℓ) : (K (F := F)).VecSplit' (P m) 0 := by
  intro d c
  show stR m d (Fin.cast nCore_zero c) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ dnR m d (Fin.cast nCore_zero c)))
  generalize Fin.cast nCore_zero c = c'
  rw [bigSep_tasks (F := F) (fun i => goR m d c' i), bigSep_tasks (F := F) (fun i => tdR m d c' i)]
  unfold stR goR tdR dnR
  rw [bigSep_sep', bigSep_sep', bigSep_sep', bigSep_sep']
  iintro ⟨Ht, Ha, Ho⟩
  ihave Ht' := (Transfers.pointsTo_toks_split (qc c') 16) $$ Ht
  icases Ht' with ⟨Htd, Htt⟩
  ihave Ha' := (Transfers.pointsTo_toks_split (qc c') 16) $$ Ha
  icases Ha' with ⟨Had, Hat⟩
  imodintro
  isplitl [Htt Hat Ho]
  · isplitl [Htt]; · iexact Htt
    isplitl [Hat]; · iexact Hat
    iexact Ho
  iintro ⟨Htt, Hat, Ho⟩
  isplitl [Htd Htt]
  · iapply (Transfers.pointsTo_toks_join (qc c') 16)
    isplitl [Htd]; · iexact Htd
    iexact Htt
  isplitl [Had Hat]
  · iapply (Transfers.pointsTo_toks_join (qc c') 16)
    isplitl [Had]; · iexact Had
    iexact Hat
  iexact Ho

end Cert.Proof.KernelTile

end
-- ==== Proof.KBMain.lean ====
/-
  The kernel's run, the entry function on the TensorCore.

  The entry function transposes the integer input (one host operation over the TensorCore's five arrays, held whole),
  makes the one call to the SparseCores, and returns. For the call, the transposed input and the table are READ by
  every worker: each goes out as one read share per core, the remainder of its full share kept here meanwhile; the
  result array goes out as the thirty-two workers' disjoint position sets. Back come the same shares and, at every
  position set, contents that are what the specification says there; the table's shares join to the whole array, the
  position sets to the result array at the specification's value. The three arguments end as launched.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout
import proofs.«207132_g352187318478_cont_8to1_b_778_5_alg».proof.Proof.KBBase
import proofs.«207132_g352187318478_cont_8to1_b_778_5_alg».proof.Proof.KBSplit

set_option maxHeartbeats 1000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## The entry function's five arrays, held whole -/

abbrev x' : DevRef τ sig := Proc.devRef .tc (main_arg0 : Ref sig .tc)
abbrev a' : DevRef τ sig := Proc.devRef .tc (main_arg1 : Ref sig .tc)
abbrev j' : DevRef τ sig := Proc.devRef .tc (main_arg2 : Ref sig .tc)
abbrev t' : DevRef τ sig := Proc.devRef .tc (main_v0 : Ref sig .tc)
abbrev o' : DevRef τ sig := Proc.devRef .tc (main_v1 : Ref sig .tc)

/-- The entry function's one host operation: the integer input transposed. -/
abbrev opT : HloOp τ sig (Elt F) :=
  StableHlo.unary main_arg0 main_v0 ((transpose S8x16384 [1, 0] · transposes_S16384x8_S8x16384_1_0) : (⟨S16384x8, .i32⟩ : BufTy).Contents (Elt F) → (⟨S8x16384, .i32⟩ : BufTy).Contents (Elt F))

/-- The TensorCore's arrays, none scoped: the three arguments, the transposed input, the result. -/
abbrev S5 : Finset (DevRef τ sig) := {x', a', j', t', o'}

omit [FloatOps F] in
theorem held_S5 (d : Dev nD) (W : Valuation τ sig (Elt F)) :
    (held (T d) S5 W : sProp 𝕄)
      = iprop((xLoc d ↦{fullShare} W x') ∗ (aLoc d ↦{fullShare} W a') ∗ (jLoc d ↦{fullShare} W j')
          ∗ (tLoc d ↦{fullShare} W t') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (jLoc d ↦{fullShare} W main_arg2)
          ∗ (tLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

section Main
variable (m : (ℓ : Loc nD τ sig) → Buf (Elt F) ℓ)

/-- The launch valuation of a device's arrays. -/
def V0 (d : Dev nD) : Valuation τ sig (Elt F) := fun b => m (d, b)

omit [FloatOps F] in
theorem unscoped_held (d : Dev nD) :
    (unscopedBufs d (fun b => m ((SparseCore.T d).loc b)) : sProp 𝕄) = held (T d) S5 (V0 m d) := by
  rw [unscopedBufs_eq, held_S5]; rfl

theorem hT : (opT (F := F)).bufs ⊆ S5 := show ({x', t'} : Finset (DevRef τ sig)) ⊆ S5 by decide

/-- After the transposition: the transposed input's array holds `XT`, the other four what they held. -/
theorem held_after (d : Dev nD) :
    (held (T d) S5 ((opT (F := F)).result (V0 m d)) : sProp 𝕄)
      = iprop(xPts m d ∗ aPtsW m d ∗ jPts m d ∗ (tLoc d ↦{fullShare} XT m d) ∗ oLoc d ↦{fullShare} m (oLoc d)) := by
  rw [held_S5,
    show (opT (F := F)).result (V0 m d) x' = m (xLoc d) from StableHlo.unary_result_ne main_arg0 main_v0 _ _ _ (V0 m d) (r := main_arg0) (by decide),
    show (opT (F := F)).result (V0 m d) a' = m (aLoc d) from StableHlo.unary_result_ne main_arg0 main_v0 _ _ _ (V0 m d) (r := main_arg1) (by decide),
    show (opT (F := F)).result (V0 m d) j' = m (jLoc d) from StableHlo.unary_result_ne main_arg0 main_v0 _ _ _ (V0 m d) (r := main_arg2) (by decide),
    show (opT (F := F)).result (V0 m d) o' = m (oLoc d) from StableHlo.unary_result_ne main_arg0 main_v0 _ _ _ (V0 m d) (r := main_v1) (by decide),
    show (opT (F := F)).result (V0 m d) t' = XT m d from StableHlo.unary_result main_arg0 main_v0 _ _ _ (V0 m d)]

/-! ## Read shares for the two cores, and back -/

omit [FloatOps F] in
/-- A whole array as the kept remainder and one read share per core. -/
theorem toks2_split {ℓ : Loc nD τ sig} (f : Buf (Elt F) ℓ) :
    (ℓ ↦{fullShare} f : sProp 𝕄)
      ⊢ iprop((ℓ ↦{Transfers.shareDrop fullShare 2} f) ∗ (ℓ ↦{qc 0} f) ∗ (ℓ ↦{qc 1} f)) := by
  refine (Transfers.pointsTo_toks_split fullShare 2).trans ?_
  rw [show (Finset.univ : Finset (Fin 2)) = {0, 1} by decide, SparseCore.bigSep_insert' (by decide), bigSep_singleton]

omit [FloatOps F] in
/-- The remainder and the two read shares are the whole array again. -/
theorem toks2_join {ℓ : Loc nD τ sig} (f : Buf (Elt F) ℓ) :
    iprop((ℓ ↦{Transfers.shareDrop fullShare 2} f) ∗ (ℓ ↦{qc 0} f) ∗ (ℓ ↦{qc 1} f))
      ⊢ (ℓ ↦{fullShare} f : sProp 𝕄) := by
  refine BI.Entails.trans ?_ (Transfers.pointsTo_toks_join fullShare 2)
  rw [show (Finset.univ : Finset (Fin 2)) = {0, 1} by decide, SparseCore.bigSep_insert' (by decide), bigSep_singleton]
  exact BI.Entails.refl _

omit [FloatOps F] in
/-- The result array as the two cores' sixteen position sets each. -/
theorem out_split2 (d : Dev nD) (f : Buf (Elt F) (oLoc d)) :
    (oLoc d ↦{fullShare} f : sProp 𝕄)
      = iprop((bigSep Finset.univ fun i : Fin 16 => oPc d (LL 0 i) f) ∗ bigSep Finset.univ fun i : Fin 16 => oPc d (LL 1 i) f) := by
  rw [out_split, show (Finset.univ : Finset (Fin 2)) = {0, 1} by decide, SparseCore.bigSep_insert' (by decide), bigSep_singleton]

/-- The thirty-two position sets, each holding what the specification says there, are the result array at `Res`. -/
theorem out_join2 (d : Dev nD) :
    iprop((bigSep Finset.univ fun i : Fin 16 => iprop(∃ f, oPc d (LL 0 i) f ∗ ⌜Done d (LL 0 i) (XT m d) (m (aLoc d)) f⌝))
        ∗ bigSep Finset.univ fun i : Fin 16 => iprop(∃ f, oPc d (LL 1 i) f ∗ ⌜Done d (LL 1 i) (XT m d) (m (aLoc d)) f⌝))
      ⊢ (oLoc d ↦{fullShare} Res m d : sProp 𝕄) := by
  refine BI.Entails.trans ?_ (out_join d (Res m d))
  rw [show (Finset.univ : Finset (Fin 2)) = {0, 1} by decide, SparseCore.bigSep_insert' (by decide), bigSep_singleton]
  exact BI.Entails.refl _

/-! ## The entry function on the TensorCore -/

/-- The entry function on a device's TensorCore: the transposition over the five arrays held whole; the one call, the
    transposed input and the table going out as one read share per core (the remainders kept), the result as the
    workers' position sets; back, the table's shares joined and the position sets joined at the specification's
    array; the three arguments as launched. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transposition, over the five arrays
  iapply (wp_hlo_within 𝒱 (SparseCore.T d) none Set.univ (op := opT) (S := S5) hT (V := V0 m d)) $$ [Hb Hheld]
  · isplitl [Hb]; · iexact Hb
    iexact Hheld
  iintro ⟨Hb, Hheld⟩
  ihave Hh := (Entails.of_eq (held_after (F := F) m d)) $$ Hheld
  icases Hh with ⟨Hx, Ha, Hj, Ht, Ho⟩
  rw [wp_ret]; imodintro
  -- the shares for the call
  ihave Ht' := (toks2_split (F := F) (XT m d)) $$ Ht
  icases Ht' with ⟨Htk, Ht0, Ht1⟩
  ihave Ha' := (toks2_split (F := F) (m (aLoc d))) $$ Ha
  icases Ha' with ⟨Hak, Ha0, Ha1⟩
  ihave Ho' := (Entails.of_eq (out_split2 (F := F) d (m (oLoc d)))) $$ Ho
  icases Ho' with ⟨Ho0, Ho1⟩
  iapply ((K (F := F)).wp_run (D (F := F)) 𝒱 (EH := EH) (P := P m) κ d 0) $$ [Hst Ht0 Ht1 Ha0 Ha1 Ho0 Ho1 Hx Hj Hak]
  isplitr; · iexact Hctx
  isplitl [Hst]; · iexact Hst
  isplitl [Ht0 Ht1 Ha0 Ha1 Ho0 Ho1]
  · rw [st0_eq]; unfold stR
    isplitl [Ht0 Ha0 Ho0]
    · isplitl [Ht0]; · iexact Ht0
      isplitl [Ha0]; · iexact Ha0
      iexact Ho0
    · isplitl [Ht1]; · iexact Ht1
      isplitl [Ha1]; · iexact Ha1
      iexact Ho1
  iintro ⟨Hst, Hdn⟩
  ihave Hdn' := (Entails.of_eq (dn0_eq m d)) $$ Hdn
  unfold dnR
  icases Hdn' with ⟨⟨-, Ha0, Ho0⟩, ⟨-, Ha1, Ho1⟩⟩
  ihave Ha := (toks2_join (F := F) (m (aLoc d))) $$ [Hak Ha0 Ha1]
  · isplitl [Hak]; · iexact Hak
    isplitl [Ha0]; · iexact Ha0
    iexact Ha1
  ihave Ho := (out_join2 (F := F) m d) $$ [Ho0 Ho1]
  · isplitl [Ho0]; · iexact Ho0
    iexact Ho1
  imodintro
  isplitl [Hst]; · iexact Hst
  isplitl [Hx]; · iexact Hx
  isplitl [Ha]; · iexact Ha
  isplitl [Hj]; · iexact Hj
  iexact Ho

end Main

end Cert.Proof.KernelTile

end
-- ==== Proof.KBFin.lean ====
/-
  The kernel's run on the SparseCores: what the entry function leaves, read in the physical memory.

  When the entry function ends it holds the whole of four arrays at the full share: the integer input, the table
  and the third argument at their launch contents, and the result at the array the specification names. Holding a
  whole array at any share beside the state interpretation says the physical memory agrees with the held contents
  at every index; four such agreements, one per array, give the four equations.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout
import proofs.«207132_g352187318478_cont_8to1_b_778_5_alg».proof.Proof.KBBase

set_option maxHeartbeats 1000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- What the entry function leaves, beside the state interpretation, fixes the physical memory at the four arrays:
    the result is the specification's array and the three arguments are as launched. -/
theorem hfin (m : (ℓ : Loc nD τ sig) → Buf (Elt F) ℓ) (d : Dev nD) (s' : Phys nD τ sig (Elt F)) :
    iprop(FIN m d ∗ SI s') ⊢ (⌜fq m d s'⌝ : sProp 𝕄) := by
  iintro ⟨⟨Hx, Ha, Hj, Ho⟩, HSI⟩
  -- the integer input
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  -- the table
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  -- the third argument
  ihave H := (persistent_entails_right (SI_pointsTo_agree (st := s') (ℓ := jLoc d) (I := Finset.univ) (q := fullShare) (f := m (jLoc d)))) $$ [HSI Hj]
  · isplitl [HSI] <;> iassumption
  icases H with ⟨%h3, HSI, -⟩
  -- the result
  ihave H := (SI_pointsTo_agree (st := s') (ℓ := oLoc d) (I := Finset.univ) (q := fullShare) (f := Res m d)) $$ [HSI Ho]
  · isplitl [HSI] <;> iassumption
  icases H with %h4
  ipureintro
  exact ⟨funext fun i => h4 i (Finset.mem_univ i), funext fun i => h1 i (Finset.mem_univ i),
    funext fun i => h2 i (Finset.mem_univ i), funext fun i => h3 i (Finset.mem_univ i)⟩

end Cert.Proof.KernelTile

end
-- ==== Proof.KBRun.lean ====
/-
  The kernel's run: every weakly fair execution of the device's threads terminates, nothing faulting, with the result
  array holding, at each position, the table's entry at the number the transposed input's column spells, and the three
  arguments unchanged. The launch theorem for a SparseCore call, given: each worker's task, how a core's operands split
  among its sixteen workers and come back, the entry function on the TensorCore (the transpose, then the call), and
  that the final assertion pins the physical memory.
-/
import proofs.«207132_g352187318478_cont_8to1_b_778_5_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.KSpec
import Idealize.ShloMosaic.Lib.ValueIdx
import Idealize.ShloMosaic.Lib.ValueLayout
import Idealize.ShloMosaic.Lib.Pipeline.Value
import proofs.«207132_g352187318478_cont_8to1_b_778_5_alg».proof.Proof.KBBase
import proofs.«207132_g352187318478_cont_8to1_b_778_5_alg».proof.Proof.KBTile
import proofs.«207132_g352187318478_cont_8to1_b_778_5_alg».proof.Proof.KBSplit
import proofs.«207132_g352187318478_cont_8to1_b_778_5_alg».proof.Proof.KBMain
import proofs.«207132_g352187318478_cont_8to1_b_778_5_alg».proof.Proof.KBFin

set_option maxHeartbeats 1000000

noncomputable section

namespace Cert.Proof.KernelTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tV" => (Memref.whole Cert.Kernel.main_v0_scv : Memref Cert.Kernel.sig Kind.scVector Space.hbm Cert.Kernel.S8x16384 EltTy.i32)
local notation "aV" => (Memref.whole Cert.Kernel.main_arg1_scv : Memref Cert.Kernel.sig Kind.scVector Space.hbm Cert.Kernel.S256 EltTy.f32)
local notation "oV" => (Memref.whole Cert.Kernel.main_v1_scv : Memref Cert.Kernel.sig Kind.scVector Space.hbm Cert.Kernel.S16384 EltTy.f32)
local notation "sX" => (Memref.whole Cert.Kernel.cc0_scratch0 : Memref Cert.Kernel.sig Kind.scVector Space.vmem Cert.Kernel.S8x512 EltTy.i32)
local notation "sA" => (Memref.whole Cert.Kernel.cc0_scratch1 : Memref Cert.Kernel.sig Kind.scVector Space.vmem Cert.Kernel.S256 EltTy.f32)
local notation "sO" => (Memref.whole Cert.Kernel.cc0_scratch2 : Memref Cert.Kernel.sig Kind.scVector Space.vmem Cert.Kernel.S512 EltTy.f32)

variable [FloatOps F]

open Idealize.ShloMosaic.ValueIdx

theorem run_main [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelTile

end
-- ==== Proof.RefTerm.lean ====
/-
  The reference's result as ONE pure term of its first two argument arrays: every host operation of its entry
  function in order, the three outlined functions (the floor-style remainder, the two element selections, the lookup
  with its wrap of negative positions, its clamp and its out-of-range fill) written out where they are called.
  The reference's run ends with its result buffer at this term; the value lemma reads this term at a position.
-/
import proofs.«207132_g352187318478_cont_8to1_b_778_5_alg».proof.ReferenceIdeal
import proofs.«207132_g352187318478_cont_8to1_b_778_5_alg».proof.Proof.Gen.ReferenceIdeal

noncomputable section

namespace Cert.ReferenceIdeal.RefTerm

open Idealize.ShloMosaic Cert.ReferenceIdeal Cert.ReferenceIdeal.Facts₀

variable {F : FTy → Type} [FloatOps F]

/-- The digit each entry contributes: `(1 + x) mod 3` (sign following the divisor), halved as a float, truncated
    back to an integer. -/
def digits (x : IVec S16384x8 32) : IVec S16384x8 32 :=
  let c_0 : IVec S_ 32 := constantI S_ 32 1#32
  let v0 : IVec S16384x8 32 := broadcastInDim S16384x8 ![] bcast_S_S16384x8 c_0
  let v1 : IVec S16384x8 32 := addi v0 x
  let c_1 : IVec S_ 32 := constantI S_ 32 3#32
  -- the remainder function, on (v1, c_1)
  let r_v0 : IVec S_ 32 := id c_1
  let r_c : IVec S_ 32 := constantI S_ 32 0#32
  let r_v1 : IVec S_ 1 := cmpi .eq r_v0 r_c
  let r_c_0 : IVec S_ 32 := constantI S_ 32 1#32
  let r_w : IVec S_ 32 := select r_v1 r_c_0 r_v0
  let r_v3 : IVec S16384x8 32 := broadcastInDim S16384x8 ![] bcast_S_S16384x8 r_w
  let r_v4 : IVec S16384x8 32 := Host.remsi v1 r_v3
  let r_c_1 : IVec S_ 32 := constantI S_ 32 0#32
  let r_v5 : IVec S16384x8 32 := broadcastInDim S16384x8 ![] bcast_S_S16384x8 r_c_1
  let r_v6 : IVec S16384x8 1 := cmpi .ne r_v4 r_v5
  let r_c_2 : IVec S_ 32 := constantI S_ 32 0#32
  let r_v7 : IVec S16384x8 32 := broadcastInDim S16384x8 ![] bcast_S_S16384x8 r_c_2
  let r_v8 : IVec S16384x8 1 := cmpi .slt r_v4 r_v7
  let r_c_3 : IVec S_ 32 := constantI S_ 32 0#32
  let r_v9 : IVec S_ 1 := cmpi .slt r_w r_c_3
  let r_v10 : IVec S16384x8 1 := broadcastInDim S16384x8 ![] bcast_S_S16384x8 r_v9
  let r_v11 : IVec S16384x8 1 := cmpi .ne r_v8 r_v10
  let r_v12 : IVec S16384x8 1 := andi r_v11 r_v6
  let r_v13 : IVec S16384x8 32 := broadcastInDim S16384x8 ![] bcast_S_S16384x8 r_w
  let r_v14 : IVec S16384x8 32 := addi r_v4 r_v13
  let v2 : IVec S16384x8 32 := select r_v12 r_v14 r_v4
  let v3 : FVec F S16384x8 .f32 := sitofp .f32 v2
  let cst : FVec F S_ .f32 := constant S_ .f32 0x40000000#32
  let v4 : FVec F S16384x8 .f32 := broadcastInDim S16384x8 ![] bcast_S_S16384x8 cst
  let v5 : FVec F S16384x8 .f32 := Host.divf v3 v4
  fptosi 32 v5

/-- Each row's digits weighted by the powers of two, 128 down to 1, and summed along the row. -/
def rowCode (z : IVec S16384x8 32) : IVec S16384 32 :=
  let c : IVec S8 32 := fun i => lit0 (S8.rowMajor i)
  let v7 : IVec S1x8 32 := broadcastInDim S1x8 ![1] bcast_S8_S1x8_1 c
  let v8 : IVec S16384x8 32 := broadcastInDim S16384x8 ![0, 1] bcast_S1x8_S16384x8_0_1 v7
  let v9 : IVec S16384x8 32 := muli v8 z
  let c_2 : IVec S_ 32 := constantI S_ 32 0#32
  Host.reduce IntOp.addi v9 c_2 reducesTo_S16384x8_S16384_d1 h_S_

/-- The lookup function: a negative position wrapped by the table's length, the table read there (clamped), and
    the fill value where the wrapped position is outside the table. -/
def take (aux : FVec F S256 .f32) (p : IVec S16384 32) : FVec F S16384 .f32 :=
  let t_c : IVec S_ 32 := constantI S_ 32 0#32
  let t_v0 : IVec S16384 32 := broadcastInDim S16384 ![] bcast_S_S16384 t_c
  let t_v1 : IVec S16384 1 := cmpi .slt p t_v0
  let t_c_0 : IVec S_ 32 := constantI S_ 32 256#32
  let t_v2 : IVec S16384 32 := broadcastInDim S16384 ![] bcast_S_S16384 t_c_0
  let t_v3 : IVec S16384 32 := addi p t_v2
  let t_v4 : IVec S16384 32 := select t_v1 t_v3 p
  let t_v5 : IVec S16384x1 32 := broadcastInDim S16384x1 ![0] bcast_S16384_S16384x1_0 t_v4
  let t_c_1 : IVec S1 32 := constantI S1 32 255#32
  let t_c_2 : IVec S_ 32 := constantI S_ 32 0#32
  let t_v6 : IVec S16384x1 32 := broadcastInDim S16384x1 ![] bcast_S_S16384x1 t_c_2
  let t_v7 : IVec S16384x1 1 := cmpi .sge t_v5 t_v6
  let t_v8 : IVec S1x1 32 := broadcastInDim S1x1 ![1] bcast_S1_S1x1_1 t_c_1
  let t_v9 : IVec S16384x1 32 := broadcastInDim S16384x1 ![0, 1] bcast_S1x1_S16384x1_0_1 t_v8
  let t_v10 : IVec S16384x1 1 := cmpi .sle t_v5 t_v9
  let t_v11 : IVec S16384x1 1 := andi t_v7 t_v10
  let t_c_3 : IVec S_ 1 := constantI S_ 1 1#1
  let t_v12 : IVec S16384 1 := Host.reduce IntOp.andi t_v11 t_c_3 reducesTo_S16384x1_S16384_d1 h_S_
  let t_v13 : FVec F S16384 .f32 := Host.gather gather_S256_S16384x1_S16384_n_0_n_n_0_1_1 aux t_v5
  let t_cst : FVec F S_ .f32 := constant S_ .f32 0x7FC00000#32
  let t_v14 : FVec F S16384 .f32 := broadcastInDim S16384 ![] bcast_S_S16384 t_cst
  select t_v12 t_v13 t_v14

/-- The reference's result, of its first two arguments (the third is never read). -/
def term (x : IVec S16384x8 32) (aux : FVec F S256 .f32) : FVec F S16384 .f32 :=
  take aux (rowCode (digits (F := F) x))

end Cert.ReferenceIdeal.RefTerm

end
-- ==== Proof.RefRun.lean ====
/-
  The reference program's run. Its entry function is a straight line of fifty-eight host operations once the four
  outlined functions are written out where they are called: the floor-style remainder (which itself calls a scalar
  selection), and the table lookup (which itself calls an elementwise selection). Every weakly fair execution from a
  memory with zero counters terminates, the result buffer holds the composed pure term `RefTerm.term` of the first
  two arguments' launch contents, and the three argument buffers are unchanged.
-/
import proofs.«207132_g352187318478_cont_8to1_b_778_5_alg».proof.ReferenceIdeal
import proofs.«207132_g352187318478_cont_8to1_b_778_5_alg».proof.Proof.Gen.ReferenceIdeal
import proofs.«207132_g352187318478_cont_8to1_b_778_5_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The entry function's operations in order, each outlined function's operations listed where it is called, over the
    buffers that call names: five of the entry function, the remainder's twenty-one (the tenth of the line is the scalar
    selection it calls), ten more of the entry function, the lookup's twenty-two (the forty-third of the line is the
    elementwise selection it calls). -/
abbrev ops : List (HloOp τ sig (Elt F)) :=
  [
    nullary main_c (fun i => lit0 (S8.rowMajor i)),
    nullary main_c_0 (constantI S_ 32 1#32),
    unary main_c_0 main_v0 (broadcastInDim S16384x8 ![] bcast_S_S16384x8 : (⟨S_, .i32⟩ : BufTy).Contents (Elt F) → (⟨S16384x8, .i32⟩ : BufTy).Contents (Elt F)),
    binary main_v0 main_arg0 main_v1 (addi : (⟨S16384x8, .i32⟩ : BufTy).Contents (Elt F) → (⟨S16384x8, .i32⟩ : BufTy).Contents (Elt F) → (⟨S16384x8, .i32⟩ : BufTy).Contents (Elt F)),
    nullary main_c_1 (constantI S_ 32 3#32),
    TRef.unary (.of main_c_1) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S16384x8 ![] bcast_S_S16384x8),
    TRef.binary (.of main_v1) main_call0.v3 main_call0.v4 Host.remsi,
    TRef.nullary main_call0.c_1 (constantI S_ 32 0#32),
    TRef.unary main_call0.c_1 main_call0.v5 (broadcastInDim S16384x8 ![] bcast_S_S16384x8),
    TRef.binary main_call0.v4 main_call0.v5 main_call0.v6 (cmpi .ne),
    TRef.nullary main_call0.c_2 (constantI S_ 32 0#32),
    TRef.unary main_call0.c_2 main_call0.v7 (broadcastInDim S16384x8 ![] bcast_S_S16384x8),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S16384x8 ![] bcast_S_S16384x8),
    TRef.binary main_call0.v8 main_call0.v10 main_call0.v11 (cmpi .ne),
    TRef.binary main_call0.v11 main_call0.v6 main_call0.v12 andi,
    TRef.unary main_call0.call0.v0 main_call0.v13 (broadcastInDim S16384x8 ![] bcast_S_S16384x8),
    TRef.binary main_call0.v4 main_call0.v13 main_call0.v14 addi,
    TRef.ternary main_call0.v12 main_call0.v14 main_call0.v4 main_call0.v15 select,
    unary main_v2 main_v3 (sitofp .f32 : (⟨S16384x8, .i32⟩ : BufTy).Contents (Elt F) → (⟨S16384x8, .f32⟩ : BufTy).Contents (Elt F)),
    nullary main_cst (constant S_ .f32 0x40000000#32),
    unary main_cst main_v4 (broadcastInDim S16384x8 ![] bcast_S_S16384x8 : (⟨S_, .f32⟩ : BufTy).Contents (Elt F) → (⟨S16384x8, .f32⟩ : BufTy).Contents (Elt F)),
    binary main_v3 main_v4 main_v5 (Host.divf : (⟨S16384x8, .f32⟩ : BufTy).Contents (Elt F) → (⟨S16384x8, .f32⟩ : BufTy).Contents (Elt F) → (⟨S16384x8, .f32⟩ : BufTy).Contents (Elt F)),
    unary main_v5 main_v6 (fptosi 32 : (⟨S16384x8, .f32⟩ : BufTy).Contents (Elt F) → (⟨S16384x8, .i32⟩ : BufTy).Contents (Elt F)),
    unary main_c main_v7 (broadcastInDim S1x8 ![1] bcast_S8_S1x8_1 : (⟨S8, .i32⟩ : BufTy).Contents (Elt F) → (⟨S1x8, .i32⟩ : BufTy).Contents (Elt F)),
    unary main_v7 main_v8 (broadcastInDim S16384x8 ![0, 1] bcast_S1x8_S16384x8_0_1 : (⟨S1x8, .i32⟩ : BufTy).Contents (Elt F) → (⟨S16384x8, .i32⟩ : BufTy).Contents (Elt F)),
    binary main_v8 main_v6 main_v9 (muli : (⟨S16384x8, .i32⟩ : BufTy).Contents (Elt F) → (⟨S16384x8, .i32⟩ : BufTy).Contents (Elt F) → (⟨S16384x8, .i32⟩ : BufTy).Contents (Elt F)),
    nullary main_c_2 (constantI S_ 32 0#32),
    binary main_v9 main_c_2 main_v10 ((fun x v => Host.reduce IntOp.addi x v reducesTo_S16384x8_S16384_d1 h_S_) : (⟨S16384x8, .i32⟩ : BufTy).Contents (Elt F) → (⟨S_, .i32⟩ : BufTy).Contents (Elt F) → (⟨S16384, .i32⟩ : BufTy).Contents (Elt F)),
    TRef.nullary main_call1.c (constantI S_ 32 0#32),
    TRef.unary main_call1.c main_call1.v0 (broadcastInDim S16384 ![] bcast_S_S16384),
    TRef.binary (.of main_v10) main_call1.v0 main_call1.v1 (cmpi .slt),
    TRef.nullary main_call1.c_0 (constantI S_ 32 256#32),
    TRef.unary main_call1.c_0 main_call1.v2 (broadcastInDim S16384 ![] bcast_S_S16384),
    TRef.binary (.of main_v10) main_call1.v2 main_call1.v3 addi,
    TRef.ternary main_call1.v1 main_call1.v3 (.of main_v10) main_call1.call0.v0 select,
    TRef.unary main_call1.call0.v0 main_call1.v5 (broadcastInDim S16384x1 ![0] bcast_S16384_S16384x1_0),
    TRef.nullary main_call1.c_1 (constantI S1 32 255#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1) main_call1.v5 main_call1.v13 (fun x i => Host.gather gather_S256_S16384x1_S16384_n_0_n_n_0_1_1 x i),
    TRef.nullary main_call1.cst (constant S_ .f32 0x7FC00000#32),
    TRef.unary main_call1.cst main_call1.v14 (broadcastInDim S16384 ![] bcast_S_S16384),
    TRef.ternary main_call1.v12 main_call1.v13 main_call1.v14 main_call1.v15 select ]

-- fifty-eight binds re-associated: the rewrite under the chain recurses once per statement
set_option maxRecDepth 2048 in
/-- The entry function is that straight line: the outlined functions' definitions unfolded at their calls, both sides
    are one chain of steps once sequencing is re-associated. -/
theorem main_eq (c : Dev nD) : main (F := F) c = seq ops := by
  simp only [main, fn_remainder.body, fn_where.body, fn_take.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ tcRefs τ sig :=
  ⟨
    nullary_bufs_sub .., nullary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., nullary_bufs_sub .., unary_bufs_sub .., binary_bufs_sub ..,
    unary_bufs_sub .., unary_bufs_sub .., unary_bufs_sub .., binary_bufs_sub .., nullary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

set_option maxRecDepth 8192 in
/-- The fold of the line at the result buffer is the composed term. Each operation's result is rewritten at its own
    buffer to its function's value and at any other buffer to what was there; the typed references' transports are
    the identity at these literal buffers; what is left is the composed term with its definitions unfolded. -/
theorem out_eq (V : Valuation τ sig (Elt F)) :
    after ops V (main_v11 : DevRef τ sig)
      = RefTerm.term (F := F) (V (main_arg0 : DevRef τ sig)) (V (main_arg1 : DevRef τ sig)) := by
  after_results_simp
  simp only [TRef.toBuf, TRef.ofBuf, cast_eq]
  rfl

/-- No operation of the line writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of the
    entry function terminates with the result buffer at the composed term of the first two arguments and the three
    arguments unchanged. -/
theorem run_gen (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v11)
          = RefTerm.term (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m g)

/-- The same at the extended reals. -/
theorem run (m : (ℓ : Loc Cert.ReferenceIdeal.nD Cert.ReferenceIdeal.τ Cert.ReferenceIdeal.sig) → Buf (Elt Idealize.ShloMosaic.Ideal) ℓ) (g : Dev Cert.ReferenceIdeal.nD → PrngReg) :
    θ_run (Cert.ReferenceIdeal.defs (F := Idealize.ShloMosaic.Ideal)) (onTc (τ := Cert.ReferenceIdeal.τ) (Cert.ReferenceIdeal.main (F := Idealize.ShloMosaic.Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v11)
          = Cert.ReferenceIdeal.RefTerm.term (F := Idealize.ShloMosaic.Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  run_gen m g

end Cert.ReferenceIdeal.RefRun

end
-- ==== Proof.LibGatherElems.lean ====
/-
  A gather of single ELEMENTS of a rank-1 array, read at an index.

  The operand is an [N] array and the start indices an [E, 1] array of integers; the result is the [E] array whose
  element e is the operand's element idx[e, 0], the index read as a signed integer and clamped into [0, N - 1].
-/
import Idealize.ShloMosaic.PureOps.ShapeOps
import Idealize.ShloMosaic.Lib.ValueIdx

noncomputable section

namespace Idealize.ShloMosaic.GatherElems

open Idealize.ShloMosaic Idealize.ShloMosaic.ValueIdx

/-- The dimension numbers of an element gather: no offset axis, the operand's one axis collapsed and addressed by the
    start index, the index vector the start indices' axis 1 (of extent one), a slice one element. -/
abbrev elemsDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable {α : Type} {N E w : Nat} (wf : GatherDims.WF ⟨1, ![N]⟩ ⟨2, ![E, 1]⟩ ⟨1, ![E]⟩ [] [0] [] [0] [] 1 ![1])

/-- THE ELEMENT GATHER READ AT e: the operand at idx[e, 0], read signed and clamped into [0, N - 1]. -/
theorem gather_apply (hN : 0 < N) (x : (⟨1, ![N]⟩ : Shape).Idx → α) (idx : IVec ⟨2, ![E, 1]⟩ w) (e : Fin E) :
    Host.gather (elemsDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (elemsDims N E wf).start (ix1 e) idx 0 + (elemsDims N E wf).batchCoord (ix1 e) 0
      + (elemsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N E wf).startIndexMap from List.mem_singleton.mpr rfl)]
  have hsi : (elemsDims N E wf).siIdx (ix1 e) ⟨List.idxOf (0 : Fin 1) (elemsDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Idealize.ShloMosaic.GatherElems

end
-- ==== Proof.RefValueLemmas.lean ====
/-
  Facts about single 32-bit words, about the extended reals 1/2 and 1, and about eight weighted binary digits:
  the arithmetic the reference's value rests on, free of the reference's arrays.
-/
import Idealize.ShloMosaic.PureOps
import Idealize.ShloMosaic.PureOps.Reduce
import Idealize.ShloMosaic.Lib.ValueIdx
import Idealize.ShloMosaic.Lib.KernelVsHost.SublaneAllReduce

noncomputable section

namespace Cert.ReferenceIdeal.RefValueLemmas

open Idealize.ShloMosaic Idealize.ShloMosaic.ValueIdx

/-! ## The digit of one entry -/

/-- The integer part of the digit computation on one word: `(1 + w)` reduced modulo 3 with the sign of the divisor,
    as the reference spells it (a signed remainder, then the divisor added back where the signs differ). -/
def modWord (w : BitVec 32) : BitVec 32 :=
  let v1 := IntOp.addi 1#32 w
  let d := Scalar.select (IntOp.cmpi .eq 3#32 0#32) 1#32 3#32
  let r := IntOp.remsi .host v1 d
  let fix := IntOp.andi (IntOp.cmpi .ne (IntOp.cmpi .slt r 0#32) (IntOp.cmpi .slt d 0#32)) (IntOp.cmpi .ne r 0#32)
  Scalar.select fix (IntOp.addi r d) r

/-- On the word 0 it is 1: the remainder of 1 by 3 is 1, not negative, so nothing is added back. -/
theorem modWord_zero : modWord 0#32 = 1#32 := by decide

/-- On the word 1 it is 2. -/
theorem modWord_one : modWord 1#32 = 2#32 := by decide

/-- The word 0x40000000 denotes the real 2. -/
theorem ofBits_two : Ideal.ofBits .f32 0x40000000#32 = ((2 : ℝ) : EReal) := by
  simp [Ideal.ofBits, Ideal.ieee, -EReal.coe_mul]; norm_num

/-- The float part of the digit computation on one word: converted exactly, halved, truncated toward zero. -/
def halfWord (v : BitVec 32) : BitVec 32 :=
  Ideal.fptosi 32 (Ideal.div (((v.toInt : ℝ) : EReal)) (Ideal.ofBits .f32 0x40000000#32))

/-- Half of 1 truncates to 0. -/
theorem halfWord_one : halfWord 1#32 = 0#32 := by
  unfold halfWord
  rw [ofBits_two, Ideal.div_coe (by norm_num), ← EReal.coe_mul, Ideal.fptosi, Ideal.toIntClamped_coe]
  have h1 : ((1#32 : BitVec 32).toInt : ℝ) = 1 := by
    have : (1#32 : BitVec 32).toInt = 1 := by decide
    rw [this]; norm_num
  rw [h1]
  have hf : ⌊(1 : ℝ) * (1 / 2)⌋ = 0 := by
    rw [Int.floor_eq_iff]; norm_num
  rw [if_pos (by norm_num), hf]
  decide

/-- Half of 2 is 1. -/
theorem halfWord_two : halfWord 2#32 = 1#32 := by
  unfold halfWord
  rw [ofBits_two, Ideal.div_coe (by norm_num), ← EReal.coe_mul, Ideal.fptosi, Ideal.toIntClamped_coe]
  have h1 : ((2#32 : BitVec 32).toInt : ℝ) = 2 := by
    have : (2#32 : BitVec 32).toInt = 2 := by decide
    rw [this]; norm_num
  rw [h1]
  have hf : ⌊(2 : ℝ) * (1 / 2)⌋ = 1 := by
    rw [Int.floor_eq_iff]; norm_num
  rw [if_pos (by norm_num), hf]
  decide

/-- The whole digit computation returns a binary word unchanged. -/
theorem half_mod_of_binary {w : BitVec 32} (h : w = 0#32 ∨ w = 1#32) : halfWord (modWord w) = w := by
  rcases h with rfl | rfl
  · rw [modWord_zero, halfWord_one]
  · rw [modWord_one, halfWord_two]

/-! ## Eight weighted binary digits -/

/-- A binary word is at most one as a number. -/
theorem toNat_le_one {w : BitVec 32} (h : w = 0#32 ∨ w = 1#32) : w.toNat ≤ 1 := by
  rcases h with rfl | rfl <;> decide

/-- Eight binary words weighted by the powers of two from 128 down to 1 add up, without wrapping, to the number the
    digits spell (the sum is below 256). The left side is bracketed the way a fold over eight terms is read pairwise. -/
theorem weighted_sum {d0 d1 d2 d3 d4 d5 d6 d7 : BitVec 32}
    (h0 : d0 = 0#32 ∨ d0 = 1#32) (h1 : d1 = 0#32 ∨ d1 = 1#32) (h2 : d2 = 0#32 ∨ d2 = 1#32) (h3 : d3 = 0#32 ∨ d3 = 1#32)
    (h4 : d4 = 0#32 ∨ d4 = 1#32) (h5 : d5 = 0#32 ∨ d5 = 1#32) (h6 : d6 = 0#32 ∨ d6 = 1#32) (h7 : d7 = 0#32 ∨ d7 = 1#32) :
    IntOp.addi 0#32
        (IntOp.addi
          (IntOp.addi (IntOp.addi (IntOp.muli 128#32 d0) (IntOp.muli 8#32 d4)) (IntOp.addi (IntOp.muli 32#32 d2) (IntOp.muli 2#32 d6)))
          (IntOp.addi (IntOp.addi (IntOp.muli 64#32 d1) (IntOp.muli 4#32 d5)) (IntOp.addi (IntOp.muli 16#32 d3) (IntOp.muli 1#32 d7))))
      = BitVec.ofNat 32 (128 * d0.toNat + 64 * d1.toNat + 32 * d2.toNat + 16 * d3.toNat
          + 8 * d4.toNat + 4 * d5.toNat + 2 * d6.toNat + d7.toNat) := by
  have b0 := toNat_le_one h0; have b1 := toNat_le_one h1; have b2 := toNat_le_one h2; have b3 := toNat_le_one h3
  have b4 := toNat_le_one h4; have b5 := toNat_le_one h5; have b6 := toNat_le_one h6; have b7 := toNat_le_one h7
  apply BitVec.eq_of_toNat_eq
  simp only [IntOp.addi, IntOp.muli, BitVec.toNat_add, BitVec.toNat_mul, BitVec.toNat_ofNat]
  omega

/-! ## A position inside the table -/

/-- A negative position wrapped by the table's length. -/
def wrapWord (p : BitVec 32) : BitVec 32 := Scalar.select (IntOp.cmpi .slt p 0#32) (IntOp.addi p 256#32) p

/-- The bit "the position is inside the table": not negative and at most 255. -/
def inTable (q : BitVec 32) : BitVec 1 := IntOp.andi (IntOp.cmpi .sge q 0#32) (IntOp.cmpi .sle q 255#32)

/-- For each number below 256, as a 32-bit word: it is not negative, so it is not wrapped; it is inside the table; and
    read as a signed integer it is itself. All 256 cases are computed. -/
theorem small_word_facts : ∀ m : Fin 256,
    wrapWord (BitVec.ofNat 32 m.val) = BitVec.ofNat 32 m.val
      ∧ inTable (BitVec.ofNat 32 m.val) = 1#1
      ∧ (BitVec.ofNat 32 m.val).toInt.toNat = m.val := by
  decide

theorem wrapWord_small {n : Nat} (h : n < 256) : wrapWord (BitVec.ofNat 32 n) = BitVec.ofNat 32 n :=
  (small_word_facts ⟨n, h⟩).1

theorem inTable_small {n : Nat} (h : n < 256) : inTable (BitVec.ofNat 32 n) = 1#1 :=
  (small_word_facts ⟨n, h⟩).2.1

/-- Clamping a position below 256 into [0, 255] leaves it. -/
theorem clamp_small {n : Nat} (h : n < 256) : min (BitVec.ofNat 32 n).toInt.toNat (256 - 1) = n := by
  have e : (BitVec.ofNat 32 n).toInt.toNat = n := (small_word_facts ⟨n, h⟩).2.2
  rw [e]; omega

end Cert.ReferenceIdeal.RefValueLemmas

end
-- ==== Proof.RefValue.lean ====
/-
  The reference's result, read at a position, is the table's entry at the number the row's eight binary digits spell.

  Three stages, each read at an index. (1) For an entry that is the word 0 or 1 the digit computation — one more than
  the entry, reduced modulo 3, halved as a real, truncated — returns the entry. (2) A row's eight entries times the
  weights 128, …, 1, summed along the row, is that number as a 32-bit word: a fold over eight terms, no wrap since the
  number is below 256. (3) The lookup at a word below 256: not negative so not wrapped, inside the table so not filled,
  and the clamp of the read leaves it.
-/
import proofs.«207132_g352187318478_cont_8to1_b_778_5_alg».proof.Proof.RefTerm
import proofs.«207132_g352187318478_cont_8to1_b_778_5_alg».proof.Proof.Spec
import proofs.«207132_g352187318478_cont_8to1_b_778_5_alg».proof.Proof.LibGatherElems
import proofs.«207132_g352187318478_cont_8to1_b_778_5_alg».proof.Proof.RefValueLemmas
import Idealize.ShloMosaic.Lib.ValueIdx
import Idealize.ShloMosaic.Lib.Pipeline.Value
import Idealize.ShloMosaic.Lib.KernelVsHost
import Idealize.ShloMosaic.Lib.KernelVsHost.SublaneAllReduce
import Idealize.ShloMosaic.PureOps.Reduce

noncomputable section

namespace Cert.ReferenceIdeal.RefValue

open Idealize.ShloMosaic Idealize.ShloMosaic.ValueIdx
open Cert.ReferenceIdeal Cert.ReferenceIdeal.Facts₀ Cert.ReferenceIdeal.RefTerm Cert.ReferenceIdeal.RefValueLemmas

/-! ## Stage 1: the digits -/

/-- The digit computation at an entry is the word computation on that entry: every operation is entrywise and every
    constant a broadcast scalar. -/
theorem digits_apply (x : IVec S16384x8 32) (i : S16384x8.Idx) :
    digits (F := Ideal) x i = halfWord (modWord (x i)) := rfl

/-- On a binary input the digits are the input. -/
theorem digits_eq {x : IVec S16384x8 32} (hx : Cert.Spec.Binary x) (i : S16384x8.Idx) :
    digits (F := Ideal) x i = x i := by
  rw [digits_apply]; exact half_mod_of_binary (hx i)

/-! ## Stage 2: the row's number -/

/-- Summing along axis 1 of a [16384, 8] array leaves a [16384] array. -/
theorem red8 : S16384x8.Reduces [1] S16384 := by decide

/-- Row `b` with column `k` inserted is the entry (b, k). -/
theorem lift_row (b : Fin 16384) (k : Fin 8) : red8.lift (ix1 b) k = ix2 b k := by
  funext c
  match c with
  | ⟨0, _⟩ => exact Fin.ext rfl
  | ⟨1, _⟩ => exact Fin.ext rfl

/-- The weights, broadcast to one row and then down the rows, read at (b, k): weight `k`. -/
theorem weights_apply (b : Fin 16384) (k : Fin 8) :
    broadcastInDim S16384x8 ![0, 1] bcast_S1x8_S16384x8_0_1
      (broadcastInDim S1x8 ![1] bcast_S8_S1x8_1 (fun i : S8.Idx => lit0 (S8.rowMajor i))) (ix2 b k) = lit0 k := by
  rw [broadcastInDim_oneRow_apply]
  refine (broadcastInDim_apply ![1] bcast_S8_S1x8_1 _ (ix2 (0 : Fin 1) k) (ix1 k) ?_).trans ?_
  · intro a
    match a with
    | ⟨0, _⟩ => rfl
  · exact congrArg lit0 (Fin.ext (Shape.rowMajor_val_one _))

/-- The row sum at `b`: the eight products weight × entry of row `b`, added from zero. -/
theorem rowCode_apply (z : IVec S16384x8 32) (b : Fin 16384) :
    rowCode z (ix1 b)
      = IntOp.addi 0#32 (SublaneAllReduce.combine8 IntOp.addi fun k : Fin 8 => IntOp.muli (lit0 k) (z (ix2 b k))) := by
  have e := SublaneAllReduce.fold_univ_fin8 IntOp.addi 0#32 (fun k : Fin 8 => IntOp.muli (lit0 k) (z (ix2 b k)))
  refine Eq.trans ?_ e
  unfold rowCode
  refine (Host.reduce_eq_fold_single IntOp.addi _ _ reducesTo_S16384x8_S16384_d1 red8 h_S_ (ix1 b)).trans ?_
  refine congrArg (fun f => Finset.fold IntOp.addi 0#32 f (Finset.univ : Finset (Fin 8))) (funext fun (k : Fin 8) => ?_)
  show muli _ z (red8.lift (ix1 b) k) = _
  rw [lift_row b k]
  show IntOp.muli _ (z (ix2 b k)) = _
  rw [weights_apply]

/-- On a binary input the row sum is the number the row spells, as a 32-bit word. -/
theorem rowCode_eq {x : IVec S16384x8 32} (hx : Cert.Spec.Binary x) (b : Fin 16384) :
    rowCode x (ix1 b) = BitVec.ofNat 32 (Cert.Spec.code x b) := by
  rw [rowCode_apply]
  unfold SublaneAllReduce.combine8
  exact weighted_sum (hx (ix2 b 0)) (hx (ix2 b 1)) (hx (ix2 b 2)) (hx (ix2 b 3)) (hx (ix2 b 4)) (hx (ix2 b 5))
    (hx (ix2 b 6)) (hx (ix2 b 7))

/-! ## Stage 3: the lookup -/

/-- The wrapped positions as a column: what the lookup reads the table at. -/
def col (p : IVec S16384 32) : IVec S16384x1 32 :=
  broadcastInDim S16384x1 ![0] bcast_S16384_S16384x1_0 (fun j => wrapWord (p j))

/-- The lookup at `b`: a select, on the reduced "inside the table" bit, between the table read at the wrapped
    position and the fill value. Every other operation is entrywise or a broadcast constant. -/
theorem take_at (aux : FVec Ideal S256 .f32) (p : IVec S16384 32) (b : Fin 16384) :
    take aux p (ix1 b)
      = Scalar.select
          (Host.reduce IntOp.andi (fun i => inTable (col p i)) (constantI S_ 1 1#1) reducesTo_S16384x1_S16384_d1 h_S_ (ix1 b))
          (Host.gather gather_S256_S16384x1_S16384_n_0_n_n_0_1_1 aux (col p) (ix1 b))
          (FloatOps.ofBits .f32 0x7FC00000#32) := rfl

/-- The column at (b, 0) is the wrapped position `b`. -/
theorem col_apply (p : IVec S16384 32) (b : Fin 16384) :
    col p (ix2 b ⟨0, Nat.one_pos⟩) = wrapWord (p (ix1 b)) := by
  unfold col
  refine broadcastInDim_apply ![0] bcast_S16384_S16384x1_0 _ (ix2 b ⟨0, Nat.one_pos⟩) (ix1 b) ?_
  intro a
  match a with
  | ⟨0, _⟩ => rfl

/-- Reducing the unit axis 1 of a [16384, 1] array leaves a [16384] array. -/
theorem red1 : S16384x1.Reduces [1] S16384 := by decide

/-- Row `b` with the unit axis's one coordinate inserted is the entry (b, 0). -/
theorem lift_col (b : Fin 16384) (k : Fin 1) : red1.lift (ix1 b) k = ix2 b ⟨0, Nat.one_pos⟩ := by
  funext c
  match c with
  | ⟨0, _⟩ => exact Fin.ext rfl
  | ⟨1, _⟩ => exact Fin.ext (by show k.val = 0; omega)

/-- An and-reduce over the unit axis, from the bit 1, is the one element there (and 1). -/
theorem reduce_unit (g : IVec S16384x1 1) (b : Fin 16384) :
    Host.reduce IntOp.andi g (constantI S_ 1 1#1) reducesTo_S16384x1_S16384_d1 h_S_ (ix1 b)
      = IntOp.andi (g (ix2 b ⟨0, Nat.one_pos⟩)) 1#1 := by
  refine (Host.reduce_eq_fold_single IntOp.andi _ _ reducesTo_S16384x1_S16384_d1 red1 h_S_ (ix1 b)).trans ?_
  have e : (Finset.univ : Finset (Fin 1)).fold IntOp.andi 1#1 (fun _ : Fin 1 => g (ix2 b ⟨0, Nat.one_pos⟩))
      = IntOp.andi (g (ix2 b ⟨0, Nat.one_pos⟩)) 1#1 := by
    rw [Finset.univ_unique, Finset.fold_singleton]
  refine Eq.trans ?_ e
  refine congrArg (fun f => Finset.fold IntOp.andi 1#1 f (Finset.univ : Finset (Fin 1))) (funext fun (k : Fin 1) => ?_)
  show g (red1.lift (ix1 b) k) = _
  rw [lift_col b k]

/-- The lookup at a position that is a number below 256: the table's entry at that number. -/
theorem take_apply (aux : FVec Ideal S256 .f32) (p : IVec S16384 32) (b : Fin 16384) {n : Nat} (hn : n < 256)
    (hp : p (ix1 b) = BitVec.ofNat 32 n) : take aux p (ix1 b) = aux (ix1 ⟨n, hn⟩) := by
  have hc : col p (ix2 b ⟨0, Nat.one_pos⟩) = BitVec.ofNat 32 n := by rw [col_apply, hp, wrapWord_small hn]
  rw [take_at, reduce_unit]
  show Scalar.select (IntOp.andi (inTable (col p (ix2 b ⟨0, Nat.one_pos⟩))) 1#1) _ _ = _
  rw [hc, inTable_small hn, show IntOp.andi (1#1 : BitVec 1) 1#1 = 1#1 from by decide, select_one]
  refine (GatherElems.gather_apply gather_S256_S16384x1_S16384_n_0_n_n_0_1_1_wf (by decide) aux (col p) b).trans ?_
  refine congrArg aux (congrArg ix1 (Fin.ext ?_))
  show min (col p (ix2 b ⟨0, Nat.one_pos⟩)).toInt.toNat (256 - 1) = n
  rw [hc]; exact clamp_small hn

/-! ## The reference's value -/

/-- For a binary input the reference's result is the table re-indexed by the rows' numbers. -/
theorem term_eq (x : IVec Cert.ReferenceIdeal.S16384x8 32) (aux : FVec Ideal Cert.ReferenceIdeal.S256 .f32)
    (hx : Cert.Spec.Binary x) :
    Cert.ReferenceIdeal.RefTerm.term (F := Ideal) x aux = Cert.Spec.G x aux := by
  funext j
  obtain ⟨b, rfl⟩ : ∃ b, j = ix1 b := ⟨j 0, eq_ix1 j⟩
  rw [Cert.Spec.G_apply]
  unfold RefTerm.term
  have hd : digits (F := Ideal) x = x := funext (digits_eq hx)
  rw [hd, take_apply aux (rowCode x) b (Cert.Spec.code_lt hx b) (rowCode_eq hx b)]
  exact congrArg aux (congrArg ix1 (Fin.ext (Cert.Spec.pos_val hx b).symm))

end Cert.ReferenceIdeal.RefValue

end
-- ==== Proof.PreBinary.lean ====
/-
  The certificate's precondition, read back: every entry of the integer input is the word 0 or the word 1.

  The printed precondition is a conjunction of three tests, each an "and" over a whole array; the third is the
  "and", over both axes of the integer input, of (entry ≥ 0, signed) and (entry ≤ 1, signed). A conjunction
  that is 1 has both sides 1; an "and" over all entries that is 1 met only 1s; so at every index the entry
  reads, as a signed integer, at least 0 and at most 1. The only 32-bit words whose signed reading is 0 or 1
  are the words 0 and 1.
-/
import proofs.«207132_g352187318478_cont_8to1_b_778_5_alg».proof.Pre_input_domain
import proofs.«207132_g352187318478_cont_8to1_b_778_5_alg».proof.Proof.Gen.Pre_input_domain
import proofs.«207132_g352187318478_cont_8to1_b_778_5_alg».proof.Proof.Spec
import Idealize.ShloMosaic.Lib.ReduceAll

namespace Cert.PreBinary

open Idealize.ShloMosaic

/-- The shape with no axes has exactly one index. -/
instance : Subsingleton Cert.Pre_input_domain.S_.Idx := ⟨fun a b => funext fun d => d.elim0⟩

/-- A 32-bit word that reads, signed, at least 0 and at most 1 is the word 0 or the word 1. -/
theorem word_binary (w : BitVec 32) (h0 : IntOp.cmpi .sge w 0#32 = 1#1) (h1 : IntOp.cmpi .sle w 1#32 = 1#1) :
    w = 0#32 ∨ w = 1#32 := by
  rw [IntOp.cmpi_sge] at h0
  rw [IntOp.cmpi_sle] at h1
  have z : (0#32 : BitVec 32).toInt = 0 := by decide
  have o : (1#32 : BitVec 32).toInt = 1 := by decide
  rw [z] at h0
  rw [o] at h1
  have hw : w.toInt = 0 ∨ w.toInt = 1 := by omega
  rcases hw with hw | hw
  · exact Or.inl (BitVec.eq_of_toInt_eq (by rw [hw, z]))
  · exact Or.inr (BitVec.eq_of_toInt_eq (by rw [hw, o]))

/-- The precondition holding says every entry of the integer input is 0 or 1. -/
theorem binary_of_pre {F : FTy → Type} [FloatOps F] (x : IVec Cert.Pre_input_domain.S16384x8 32)
    (aux : FVec F Cert.Pre_input_domain.S256 .f32) (j1 : FVec F Cert.Pre_input_domain.S1 .f32)
    (h : Cert.Pre_input_domain.fn (F := F) x aux j1 = fun _ => 1#1) : Cert.Spec.Binary x := by
  intro i
  have e := congrFun h ValueIdx.ix0
  dsimp only [Cert.Pre_input_domain.fn] at e
  -- the outer conjunction: its second side is the test over the integer input
  obtain ⟨-, e14⟩ := IntOp.andi_eq_one.1 e
  -- an "and" over all entries that is 1 met a 1 at entry i
  have p := Host.reduce_andi_all _ _ _ _ _ e14 i
  -- that entry is itself a conjunction: entry ≥ 0 and entry ≤ 1, both signed
  obtain ⟨hge, hle⟩ := IntOp.andi_eq_one.1 p
  exact word_binary (x i) hge hle

end Cert.PreBinary
-- ==== Proof.lean ====
/-
  The certificate's five claims.

  For an integer input whose every entry is 0 or 1 and a table of 256 numbers, the kernel and the reference both return,
  at position b, the table's entry at the number the eight entries of row b spell in binary, most significant first.
  The kernel (on the SparseCores) builds that number by eight shift-and-or steps on the entries' lowest bits, column by
  column of the transposed input, and reads the table in its own memory; the reference takes (1 + x) mod 3, halves it as
  a float and truncates (which is x again for x in {0, 1}), weights by the powers of two and sums along the row, and looks
  the table up with its wrap, clamp and out-of-range fill (none of which acts on a number below 256). Nothing is
  arithmetic on the table's entries, so the two results are equal as extended reals entry by entry.

  The three frames: each program runs to the end without a fault and leaves its arguments as they were — for the two
  kernel programs by the launch theorem for a SparseCore call (the position read is below 256 whatever the words are, so
  the frames do not use the precondition), for the reference by its straight-line run. The idealization rewrote nothing,
  so the fourth claim is trivial. The fifth puts the two runs side by side at the common function of the arguments; it
  uses the precondition only through "every entry is 0 or 1".
-/
import proofs.«207132_g352187318478_cont_8to1_b_778_5_alg».proof.Defs
import proofs.«207132_g352187318478_cont_8to1_b_778_5_alg».proof.Proof.Gen.Kernel
import proofs.«207132_g352187318478_cont_8to1_b_778_5_alg».proof.Proof.Gen.Kernel.Skeleton
import proofs.«207132_g352187318478_cont_8to1_b_778_5_alg».proof.Proof.Gen.KernelIdeal
import proofs.«207132_g352187318478_cont_8to1_b_778_5_alg».proof.Proof.Gen.KernelIdeal.Skeleton
import proofs.«207132_g352187318478_cont_8to1_b_778_5_alg».proof.Proof.Gen.ReferenceIdeal
import proofs.«207132_g352187318478_cont_8to1_b_778_5_alg».proof.Proof.Gen.Pre_input_domain
import proofs.«207132_g352187318478_cont_8to1_b_778_5_alg».proof.Proof.KIRun
import proofs.«207132_g352187318478_cont_8to1_b_778_5_alg».proof.Proof.KBRun
import proofs.«207132_g352187318478_cont_8to1_b_778_5_alg».proof.Proof.RefRun
import proofs.«207132_g352187318478_cont_8to1_b_778_5_alg».proof.Proof.RefValue
import proofs.«207132_g352187318478_cont_8to1_b_778_5_alg».proof.Proof.PreBinary
import proofs.«207132_g352187318478_cont_8to1_b_778_5_alg».proof.Proof.KSpec
import Idealize.ShloMosaic.Adequacy
import Idealize.ShloMosaic.Init

noncomputable section

namespace Cert.Proof

open Idealize.ShloMosaic Idealize.SL.Sem

theorem frame_K : Cert.frame_Kernel := fun m g _ =>
  (θ_run (Cert.Kernel.defs (F := Bits)) _ _).mono (fun _ h c => ⟨(h c).2.1, (h c).2.2.1, (h c).2.2.2⟩)
    (Cert.Proof.KernelTile.run_main (F := Bits) m g)

theorem frame_KI : Cert.frame_KernelIdeal := fun m g _ =>
  (θ_run (Cert.KernelIdeal.defs (F := Ideal)) _ _).mono (fun _ h c => ⟨(h c).2.1, (h c).2.2.1, (h c).2.2.2⟩)
    (Cert.Proof.KernelIdealTile.run_main (F := Ideal) m g)

theorem frame_R : Cert.frame_ReferenceIdeal := fun m g _ =>
  (θ_run (Cert.ReferenceIdeal.defs (F := Ideal)) _ _).mono (fun _ h c => (h c).2) (Cert.ReferenceIdeal.RefRun.run m g)

/-- Both idealized programs end with their result at the specification's function of the (agreeing) arguments. -/
theorem algebraic : Cert.algebraic_KernelIdeal_ReferenceIdeal := by
  intro m g m' g' hpre hagree
  have hbin : ∀ c : Dev Cert.KernelIdeal.nD,
      Cert.Spec.Binary (m ((c.tc : Thread Cert.KernelIdeal.nD Cert.KernelIdeal.τ).loc Cert.KernelIdeal.main_arg0)) :=
    fun c => Cert.PreBinary.binary_of_pre _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono
      (fun _ h c => ⟨(h c).1.trans ?_, (h c).2.1, (h c).2.2.1, (h c).2.2.2⟩) (Cert.Proof.KernelIdealTile.run_main (F := Ideal) m g)
    exact Cert.KSpec.GkT_transpose _ _ (hbin c) _
  · refine (θ_run (Cert.ReferenceIdeal.defs (F := Ideal)) _ _).mono
      (fun _ h c => ⟨(h c).1.trans ?_, (h c).2⟩) (Cert.ReferenceIdeal.RefRun.run m' g')
    rw [(hagree c).1, (hagree c).2.1]
    exact Cert.ReferenceIdeal.RefValue.term_eq _ _ (hbin c)

theorem claim : Cert.Claim := ⟨Cert.Kernel.Gen.facts, Cert.KernelIdeal.Gen.facts, Cert.ReferenceIdeal.Gen.facts, Cert.Pre_input_domain.Gen.facts,
  frame_K, frame_KI, frame_R, trivial, algebraic⟩

end Cert.Proof

end
